-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_v5) = v4 c
          ∧ r.2.mem ((c.tc : Thread Cert.ReferenceIdeal.nD Cert.ReferenceIdeal.τ).loc Cert.ReferenceIdeal.main_v16) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16 .f32) (main_arg5 : FVec F S16x16 .f32) (main_arg6 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S10000x10000 .f32) (main_arg3 : FVec F S128x16 .f32) (main_arg4 : FVec F S16 .f32) (main_arg5 : FVec F S16x16 .f32) (main_arg6 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S10000x16 : Shape := ⟨2, ![10000, 16]⟩
abbrev S200x10000 : Shape := ⟨2, ![200, 10000]⟩
abbrev S1000x16 : Shape := ⟨2, ![1000, 16]⟩
abbrev S200x16 : Shape := ⟨2, ![200, 16]⟩

abbrev nBuf : Space → Nat
  | .hbm => 15
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S1x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S10000x16, .f32⟩
  | .hbm, ⟨12, _⟩ => ⟨S10000x16, .f32⟩
  | .hbm, ⟨13, _⟩ => ⟨S10000x16, .f32⟩
  | .hbm, ⟨14, _⟩ => ⟨S10000x16, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S128x16, .f32⟩
  | .local _ .vmem, ⟨6, _⟩ => ⟨S16x16, .f32⟩
  | .local _ .vmem, ⟨7, _⟩ => ⟨S1x16, .f32⟩
  | .local _ .vmem, ⟨8, _⟩ => ⟨S1x16, .f32⟩
  | .local _ .vmem, ⟨9, _⟩ => ⟨S1000x16, .f32⟩
  | .local _ .vmem, ⟨10, _⟩ => ⟨S1000x16, .f32⟩
  | .local _ .vmem, ⟨11, _⟩ => ⟨S1000x16, .f32⟩
  | .local _ .vmem, ⟨12, _⟩ => ⟨S1000x16, .f32⟩
  | .local _ .vmem, ⟨13, _⟩ => ⟨S1000x16, .f32⟩
  | .local _ .vmem, ⟨14, _⟩ => ⟨S1000x16, .f32⟩
  | .local _ .vmem, ⟨15, _⟩ => ⟨S1000x16, .f32⟩
  | .local _ .vmem, ⟨16, _⟩ => ⟨S1000x16, .f32⟩
  | .local _ .vmem, ⟨17, _⟩ => ⟨S1000x16, .f32⟩
  | .local _ .vmem, ⟨18, _⟩ => ⟨S1000x16, .f32⟩
  | .local _ .vmem, ⟨19, _⟩ => ⟨S1000x16, .f32⟩
  | .local _ .vmem, ⟨20, _⟩ => ⟨S1000x16, .f32⟩
  | .local _ .vmem, ⟨21, _⟩ => ⟨S10000x16, .f32⟩
  | .local _ .vmem, ⟨22, _⟩ => ⟨S10000x16, .f32⟩
  | .local _ .vmem, ⟨23, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_7 : BitVec 32 := 0#32
  let v17 : BitVec 1 := Scalar.cmpi .eq arg0 c0_i32_7
  let v18 : BitVec 32 := Scalar.extui v17
  let c0_i32_8 : BitVec 32 := 0#32
  let v19 : BitVec 1 := Scalar.cmpi .ne v18 c0_i32_8
  v19

def k0_off1 (i : grid0.Coords) : Fin 2 → Nat :=
  let arg1 : BitVec 32 := BitVec.ofNat 32 (i 1).val
  let c5_i32 : BitVec 32 := 5#32
  let c0_i32 : BitVec 32 := 0#32
  let v1 : BitVec 1 := Scalar.cmpi .eq c5_i32 c0_i32
  let c1_i32 : BitVec 32 := 1#32
  let v2 : BitVec 32 := Scalar.select v1 c1_i32 c5_i32
  let v3 : BitVec 32 := Scalar.remsi arg1 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c200_i32_3 : BitVec 32 := 200#32
  let v11 : BitVec 32 := Scalar.muli v10 c200_i32_3
  let v38 : Index := Scalar.indexCast v11
  let c0_21 : Index := 0#32
  ![v38.toNat, 0]
def k0_off2 (i : grid0.Coords) : Fin 2 → Nat :=
  let arg1 : BitVec 32 := BitVec.ofNat 32 (i 1).val
  let c200_i32 : BitVec 32 := 200#32
  let v0 : BitVec 32 := Scalar.muli arg1 c200_i32
  let v44 : Index := Scalar.indexCast v0
  let c0_26 : Index := 0#32
  ![v44.toNat, 0]
def k0_cond3 (i : grid0.Coords) : BitVec 1 :=
  let arg0 : BitVec 32 := BitVec.ofNat 32 (i 0).val
  let c1_i32_9 : BitVec 32 := 1#32
  let v20 : BitVec 1 := Scalar.cmpi .eq arg0 c1_i32_9
  let v21 : BitVec 32 := Scalar.extui v20
  let c0_i32_10 : BitVec 32 := 0#32
  let v22 : BitVec 1 := Scalar.cmpi .ne v21 c0_i32_10
  v22

def k0_off3 (i : grid0.Coords) : Fin 2 → Nat :=
  let arg1 : BitVec 32 := BitVec.ofNat 32 (i 1).val
  let c5_i32 : BitVec 32 := 5#32
  let c0_i32 : BitVec 32 := 0#32
  let v1 : BitVec 1 := Scalar.cmpi .eq c5_i32 c0_i32
  let c1_i32 : BitVec 32 := 1#32
  let v2 : BitVec 32 := Scalar.select v1 c1_i32 c5_i32
  let v3 : BitVec 32 := Scalar.remsi arg1 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c200_i32_3 : BitVec 32 := 200#32
  let v11 : BitVec 32 := Scalar.muli v10 c200_i32_3
  let v40 : Index := Scalar.indexCast v11
  let c0_24 : Index := 0#32
  ![v40.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.muli arg0 v16
  let c0_i32_4 : BitVec 32 := 0#32
  let c0_i32_5 : BitVec 32 := 0#32
  ![v17.toNat, c0_i32_4.toNat]

def cc0_transform_8 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.muli arg0 v16
  let c0_i32_4 : BitVec 32 := 0#32
  let c0_i32_5 : BitVec 32 := 0#32
  ![v17.toNat, c0_i32_4.toNat]

def cc0_transform_9 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.muli arg0 v16
  let c0_i32_4 : BitVec 32 := 0#32
  let c0_i32_5 : BitVec 32 := 0#32
  ![v17.toNat, c0_i32_4.toNat]

def cc0_transform_10 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.muli arg0 v16
  let c0_i32_4 : BitVec 32 := 0#32
  let c0_i32_5 : BitVec 32 := 0#32
  ![v17.toNat, c0_i32_4.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c5_i32 : BitVec 32 := 5#32
  let v1 : BitVec 32 := Scalar.divsi arg1 c5_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi arg1 c5_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.muli v0 v17
  let c9_i32 : BitVec 32 := 9#32
  let v19 : BitVec 32 := Scalar.muli arg0 c9_i32
  let v20 : BitVec 32 := Scalar.addi v18 v19
  let c0_i32_5 : BitVec 32 := 0#32
  let c0_i32_6 : BitVec 32 := 0#32
  ![v20.toNat, c0_i32_5.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c5_i32 : BitVec 32 := 5#32
  let v1 : BitVec 32 := Scalar.divsi arg1 c5_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c5_i32 c0_i32_1
  let v8 : BitVec 32 := Scalar.extui v7
  let c0_i32_2 : BitVec 32 := 0#32
  let v9 : BitVec 1 := Scalar.cmpi .slt c5_i32 c0_i32_2
  let v10 : BitVec 32 := Scalar.extui v9
  let v11 : BitVec 32 := Scalar.subi v8 v10
  let v12 : BitVec 1 := Scalar.cmpi .ne v6 v11
  let v13 : BitVec 32 := Scalar.remsi arg1 c5_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.muli v0 v17
  let c9_i32 : BitVec 32 := 9#32
  let v19 : BitVec 32 := Scalar.muli arg0 c9_i32
  let v20 : BitVec 32 := Scalar.addi v18 v19
  let c0_i32_5 : BitVec 32 := 0#32
  let c0_i32_6 : BitVec 32 := 0#32
  ![v20.toNat, c0_i32_5.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1000x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1000x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1000x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1000x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1000x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S200x10000_S200x10000_0_0 : ∀ a, (![0, 0] : Fin 2 → Nat) a + S200x10000.size a ≤ S200x10000.size a
  h_S200x10000 : 0 < S200x10000.numel
  broadcasts_S1x16_S200x16 : S1x16.Broadcasts S200x16
  h_S200x16 : 0 < S200x16.numel
  inb_S16x16_S16x16_0_0 : ∀ a, (![0, 0] : Fin 2 → Nat) a + S16x16.size a ≤ S16x16.size a
  h_S16x16 : 0 < S16x16.numel
  shapeCasts_S200x16_S200x16 : S200x16.ShapeCasts S200x16
  dot_S10000x128_S128x16_S10000x16_1_0_0_1_n_n_wf : DotDims.WF S10000x128 S128x16 S10000x16 [1] [0] [0] [1] [] []
  dot_S200x10000_S10000x16_S200x16_1_0_0_1_n_n_wf : DotDims.WF S200x10000 S10000x16 S200x16 [1] [0] [0] [1] [] []
  dot_S200x16_S16x16_S200x16_1_0_0_1_n_n_wf : DotDims.WF S200x16 S16x16 S200x16 [1] [0] [0] [1] [] []
  hrank0 : 0 < grid0.rank
  k0_off1_inb : ∀ i : grid0.Coords, ∀ (k0_h2 : k0_cond2 i = 1#1), ∀ a, (k0_off1 i) a + S200x16.size a ≤ S1000x16.size a
  k0_off2_inb : ∀ i : grid0.Coords, ∀ (k0_h2 : k0_cond2 i = 1#1), ∀ a, (k0_off2 i) a + S200x16.size a ≤ S10000x16.size a
  k0_off3_inb : ∀ i : grid0.Coords, ∀ (k0_h3 : k0_cond3 i = 1#1), ∀ a, (k0_off3 i) a + S200x16.size a ≤ S1000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x16.size a ≤ S10000x16.size a
  hwx0_7 : ∀ i : grid0.Coords, EltTy.bits .f32 = 32 ∨ (Rect.block (s := S10000x16) S1000x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x16.size a ≤ S10000x16.size a
  hwx0_8 : ∀ i : grid0.Coords, EltTy.bits .f32 = 32 ∨ (Rect.block (s := S10000x16) S1000x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x16.size a ≤ S10000x16.size a
  hwx0_9 : ∀ i : grid0.Coords, EltTy.bits .f32 = 32 ∨ (Rect.block (s := S10000x16) S1000x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x16.size a ≤ S10000x16.size a
  hwx0_10 : ∀ i : grid0.Coords, EltTy.bits .f32 = 32 ∨ (Rect.block (s := S10000x16) S1000x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x16.size a ≤ S10000x16.size a
  hwx0_11 : ∀ i : grid0.Coords, EltTy.bits .f32 = 32 ∨ (Rect.block (s := S10000x16) S1000x16.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x16.size a ≤ S10000x16.size a
  hwx0_12 : ∀ i : grid0.Coords, EltTy.bits .f32 = 32 ∨ (Rect.block (s := S10000x16) S1000x16.size (cc0_transform_12 i) (hinb0_12 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def dot_S200x16_S16x16_S200x16_1_0_0_1_n_n : DotDims S200x16 S16x16 S200x16 where
  lhsContracting := [1]
  rhsContracting := [0]
  lhsNonContracting := [0]
  rhsNonContracting := [1]
  lhsBatch := []
  rhsBatch := []
  wf := dot_S200x16_S16x16_S200x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S1000x16.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S1000x16.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_2) S1000x16.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_3) S1000x16.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_4) S1000x16.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_5) S1000x16.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun i => !(k0_cond3 i == 1#1) | 8 => fun i => !(k0_cond3 i == 1#1) | 9 => fun i => !(k0_cond3 i == 1#1) | 10 => fun i => !(k0_cond3 i == 1#1) | 11 => fun i => !(k0_cond2 i == 1#1) | 12 => fun i => !(k0_cond2 i == 1#1) | ⟨_ + 13, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 57
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S10000x16, .f32⟩
  | .hbm, ⟨8, _⟩ => ⟨S10000x16, .f32⟩
  | .hbm, ⟨9, _⟩ => ⟨S1x16, .f32⟩
  | .hbm, ⟨10, _⟩ => ⟨S10000x16, .f32⟩
  | .hbm, ⟨11, _⟩ => ⟨S10000x16, .f32⟩
  | .hbm, ⟨12, _⟩ => ⟨S_, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S1x16, .f32⟩
  | .hbm, ⟨18, _⟩ => ⟨S10000x16, .f32⟩
  | .hbm, ⟨19, _⟩ => ⟨S10000x16, .f32⟩
  | .hbm, ⟨20, _⟩ => ⟨S10000x16, .f32⟩
  | .hbm, ⟨21, _⟩ => ⟨S10000x16, .f32⟩
  | .hbm, ⟨22, _⟩ => ⟨S1x16, .f32⟩
  | .hbm, ⟨23, _⟩ => ⟨S10000x16, .f32⟩
  | .hbm, ⟨24, _⟩ => ⟨S10000x16, .f32⟩
  | .hbm, ⟨25, _⟩ => ⟨S_, .f32⟩
  | .hbm, ⟨26, _⟩ => ⟨S10000x16, .f32⟩
  | .hbm, ⟨27, _⟩ => ⟨S10000x16, .f32⟩
  | .hbm, ⟨28, _⟩ => ⟨S10000x16, .f32⟩
  | .hbm, ⟨29, _⟩ => ⟨S10000x16, .f32⟩
  | .hbm, ⟨30, _⟩ => ⟨S1x16, .f32⟩
  | .hbm, ⟨31, _⟩ => ⟨S10000x16, .f32⟩
  | .hbm, ⟨32, _⟩ => ⟨S10000x16, .f32⟩
  | .hbm, ⟨33, _⟩ => ⟨S_, .f32⟩
  | .hbm, ⟨34, _⟩ => ⟨S10000, .f32⟩
  | .hbm, ⟨35, _⟩ => ⟨S10000x1, .f32⟩
  | .hbm, ⟨36, _⟩ => ⟨S10000x16, .f32⟩
  | .hbm, ⟨37, _⟩ => ⟨S10000x16, .f32⟩
  | .hbm, ⟨38, _⟩ => ⟨S10000x16, .f32⟩
  | .hbm, ⟨39, _⟩ => ⟨S_, .f32⟩
  | .hbm, ⟨40, _⟩ => ⟨S10000, .f32⟩
  | .hbm, ⟨41, _⟩ => ⟨S10000x1, .f32⟩
  | .hbm, ⟨42, _⟩ => ⟨S10000x1, .f32⟩
  | .hbm, ⟨43, _⟩ => ⟨S10000x16, .f32⟩
  | .hbm, ⟨44, _⟩ => ⟨S10000x16, .f32⟩
  | .hbm, ⟨45, _⟩ => ⟨S_, .f32⟩
  | .hbm, ⟨46, _⟩ => ⟨S10000, .f32⟩
  | .hbm, ⟨47, _⟩ => ⟨S10000x1, .f32⟩
  | .hbm, ⟨48, _⟩ => ⟨S10000x16, .f32⟩
  | .hbm, ⟨49, _⟩ => ⟨S10000x16, .f32⟩
  | .hbm, ⟨50, _⟩ => ⟨S10000x16, .f32⟩
  | .hbm, ⟨51, _⟩ => ⟨S_, .f32⟩
  | .hbm, ⟨52, _⟩ => ⟨S10000, .f32⟩
  | .hbm, ⟨53, _⟩ => ⟨S10000x1, .f32⟩
  | .hbm, ⟨54, _⟩ => ⟨S10000x1, .f32⟩
  | .hbm, ⟨55, _⟩ => ⟨S10000x16, .f32⟩
  | .hbm, ⟨56, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_cst : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x16_S10000_d1 : S10000x16.ReducesTo [1] S10000
  h_S_ : 0 < S_.numel
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.KRows.lean ====
/-
  Row stripes of a two-dimensional buffer. The kernel's body stores 200 rows at a time into buffers of 1000 or
  10000 rows of 16 entries: `rows Y o P` is `Y` with rows `o … o + 199` replaced by the 200 × 16 block `P`,
  and one store of `P` at row offset `o` through a whole buffer that read `Y` leaves a buffer that reads `rows Y o P`.
-/
import proofs.«134387_g28252294873641_cont_9to1_2070_22_alg».proof.Proof.Gen.Kernel.Frame
import proofs.«134387_g28252294873641_cont_9to1_2070_22_alg».proof.Proof.Gen.Kernel.Skeleton
import Idealize.ShloMosaic.Lib.WritesUnit
import Idealize.ShloMosaic.Lib.ValueIdx

noncomputable section

namespace Cert.Kernel.Gen

open Idealize.ShloMosaic Idealize.ShloMosaic.TcCoe Idealize.ShloMosaic.ValueIdx

variable {F : FTy → Type} [FloatOps F]

/-- The zero offsets of a whole-buffer access. -/
theorem hz : (![0, 0] : Fin 2 → Nat) = fun _ => 0 := funext fun a => by fin_cases a <;> rfl

/-- The condition of the body's first conditional: both grid coordinates are zero (the first point). -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- `Y` with its rows `o ≤ r < o + 200` replaced by the rows of `P`. -/
def rows {D : Nat} (Y : (⟨2, ![D, 16]⟩ : Shape).Idx → Elt F .f32) (o : Nat) (P : S200x16.Idx → Elt F .f32) :
    (⟨2, ![D, 16]⟩ : Shape).Idx → Elt F .f32 :=
  fun y => if h : o ≤ (y 0).val ∧ (y 0).val < o + 200 then
    P (ix2 (⟨(y 0).val - o, by omega⟩ : Fin 200) (⟨(y 1).val, (y 1).isLt⟩ : Fin 16)) else Y y

theorem rows_of_mem {D : Nat} (Y : (⟨2, ![D, 16]⟩ : Shape).Idx → Elt F .f32) (o : Nat) (P : S200x16.Idx → Elt F .f32)
    (y : (⟨2, ![D, 16]⟩ : Shape).Idx) (h : o ≤ (y 0).val ∧ (y 0).val < o + 200) :
    rows Y o P y = P (ix2 (⟨(y 0).val - o, by omega⟩ : Fin 200) (⟨(y 1).val, (y 1).isLt⟩ : Fin 16)) := by
  unfold rows; rw [dif_pos h]

theorem rows_of_not_mem {D : Nat} (Y : (⟨2, ![D, 16]⟩ : Shape).Idx → Elt F .f32) (o : Nat) (P : S200x16.Idx → Elt F .f32)
    (y : (⟨2, ![D, 16]⟩ : Shape).Idx) (h : ¬(o ≤ (y 0).val ∧ (y 0).val < o + 200)) : rows Y o P y = Y y := by
  unfold rows; rw [dif_neg h]

/-- One store of a 200-row block at row offset `o` through a whole buffer that read `Y`: the buffer then reads `rows Y o P`. -/
theorem read_store_rows {D : Nat} (M : Memref sig .tc .vmem (⟨2, ![D, 16]⟩ : Shape) .f32) (hM : M.IsWhole)
    (Y : (⟨2, ![D, 16]⟩ : Shape).Idx → Elt F .f32) (off : Fin 2 → Nat) (o : Nat) (hoff : off = ![o, 0])
    (inb : ∀ a : Fin 2, off a + S200x16.size a ≤ (![D, 16] : Fin 2 → Nat) a) (P : S200x16.Idx → Elt F .f32) :
    M.view.read (Elt F) (M.view.writes (Elt F) (hM.unread Y)
      [(⟨Rect.unit (s := ⟨2, ![D, 16]⟩) off S200x16.size inb, P⟩ : View.Piece (Elt F) (⟨2, ![D, 16]⟩ : Shape) .f32)]) = rows Y o P := by
  funext y
  rw [View.read_writes_cons_rows (d := ![D, 16]) M.view (hM.unread Y) inb P [] y hoff (W := 200) rfl rfl]
  unfold rows
  split
  · next h =>
    refine congrArg P (funext fun a => Fin.ext ?_)
    rw [Rect.unitLocal_val]
    match a with
    | ⟨0, _⟩ => rfl
    | ⟨1, _⟩ => exact Nat.sub_zero _
  · next h =>
    rw [View.writes_nil]
    exact congrFun (hM.read_unread Y) y

end Cert.Kernel.Gen

end
-- ==== Proof.KData.lean ====
/-
  What the pipelined kernel computes, point by point, in closed form over the arrays it was launched with.

  The grid has 100 points in two phases of 50. In the first phase point `t` takes rows `200 t … 200 t + 199` of each
  adjacency matrix, multiplies them with the first layer's support `x · W1` (computed once, at the first point, into a scratch
  buffer), adds the bias, takes the positive part — 200 rows of hidden features per adjacency, stored into the current
  1000-row output block at row `200 (t mod 5)` — and multiplies those rows with `W2` into rows `200 t …` of the second
  layer's support scratch. In the second phase point `50 + i` multiplies rows `200 i …` of each adjacency with the completed
  support, adds the bias, and stores those 200 rows of scores and of their log-softmax at row `200 (i mod 5)` of the
  current output blocks. The proof data below says this as RELATIONS between what the body finds in a staging buffer and what
  it leaves there (an output block is filled 200 rows at a time, over contents nobody names), and as an invariant on the
  scratch buffers.
-/
import proofs.«134387_g28252294873641_cont_9to1_2070_22_alg».proof.Proof.KRows
import Idealize.ShloMosaic.Lib.Pipeline.Frame

set_option maxRecDepth 16384

noncomputable section

namespace Cert.Kernel.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The grid's point number `n`. -/
abbrev pt (n : Nat) (h : n < 100) : Fin cfg0.N := ⟨n, lt_of_lt_of_eq h N_0.symm⟩

theorem pt_lt (t : Fin cfg0.N) : t.val < 100 := lt_of_lt_of_eq t.isLt N_0

/-- The first layer's support `x · W1`, as the first point computes it from the blocks of `x` and `W1`. -/
def S1 (c : Dev nD) : Vec F S10000x16 .f32 := k0_pay1 (iblk m c 0 (pt 0 (by omega))) (iblk m c 3 (pt 0 (by omega)))

/-- The 200 rows of hidden features point `t` computes from its block of the first adjacency matrix. -/
def HG (c : Dev nD) (t : Fin cfg0.N) : Vec F S200x16 .f32 := k0_pay3 (S1 m c) (iblk m c 5 t) (iblk m c 1 t)
/-- The same from its block of the second adjacency matrix. -/
def HC (c : Dev nD) (t : Fin cfg0.N) : Vec F S200x16 .f32 := k0_pay4 (S1 m c) (iblk m c 5 t) (iblk m c 2 t)
/-- The 200 rows of the second layer's support point `t` computes: its hidden rows times `W2`. -/
def S2G (c : Dev nD) (t : Fin cfg0.N) : Vec F S200x16 .f32 := k0_pay5 (S1 m c) (iblk m c 5 t) (iblk m c 1 t) (iblk m c 4 t)
def S2C (c : Dev nD) (t : Fin cfg0.N) : Vec F S200x16 .f32 := k0_pay6 (S1 m c) (iblk m c 5 t) (iblk m c 2 t) (iblk m c 4 t)

/-- The whole second-layer support: row `r` is row `r mod 200` of what point `r / 200` computed. -/
def S2Gf (c : Dev nD) : Vec F S10000x16 .f32 := fun y =>
  S2G m c (pt ((y 0).val / 200) (by have := idx2_lt0 (n0 := 10000) (n1 := 16) y; omega))
    (ix2 (⟨(y 0).val % 200, Nat.mod_lt _ (by omega)⟩ : Fin 200) (⟨(y 1).val, (y 1).isLt⟩ : Fin 16))
def S2Cf (c : Dev nD) : Vec F S10000x16 .f32 := fun y =>
  S2C m c (pt ((y 0).val / 200) (by have := idx2_lt0 (n0 := 10000) (n1 := 16) y; omega))
    (ix2 (⟨(y 0).val % 200, Nat.mod_lt _ (by omega)⟩ : Fin 200) (⟨(y 1).val, (y 1).isLt⟩ : Fin 16))

/-- The 200 rows of class scores a second-phase point `t` computes, and of their log-softmax, per adjacency. -/
def ZG (c : Dev nD) (t : Fin cfg0.N) : Vec F S200x16 .f32 := k0_pay9 (iblk m c 6 t) (iblk m c 1 t) (S2Gf m c)
def LG (c : Dev nD) (t : Fin cfg0.N) : Vec F S200x16 .f32 := k0_pay11 (iblk m c 6 t) (iblk m c 1 t) (S2Gf m c)
def ZC (c : Dev nD) (t : Fin cfg0.N) : Vec F S200x16 .f32 := k0_pay10 (iblk m c 6 t) (iblk m c 2 t) (S2Cf m c)
def LC (c : Dev nD) (t : Fin cfg0.N) : Vec F S200x16 .f32 := k0_pay12 (iblk m c 6 t) (iblk m c 2 t) (S2Cf m c)

/-- What the body leaves in an output block it fills in the FIRST phase (the hidden features): at a first-phase point the
    block it found with 200 rows replaced, at a second-phase point the block as found. -/
def aftP0 (P : Fin cfg0.N → Vec F S200x16 .f32) (t : Fin cfg0.N) (Y X : Vec F S1000x16 .f32) : Prop :=
  X = if t.val < 50 then rows Y (t.val % 5 * 200) (P t) else Y
/-- The same for an output block filled in the SECOND phase (scores and log-softmax). -/
def aftP1 (P : Fin cfg0.N → Vec F S200x16 .f32) (t : Fin cfg0.N) (Y X : Vec F S1000x16 .f32) : Prop :=
  X = if t.val < 50 then Y else rows Y (t.val % 5 * 200) (P t)

/-- The relation between what the body finds in window `w`'s staging buffer at point `t` and what it leaves there: an
    input as found; an output block with its 200 rows of the point replaced. -/
def aft (c : Dev nD) : (w : Fin cfg0.W) → Fin cfg0.N → (Y X : (cfg0.win w).block.Idx → Elt F (cfg0.win w).elt) → Prop
  | ⟨0, _⟩, _, Y, X => X = Y
  | ⟨1, _⟩, _, Y, X => X = Y
  | ⟨2, _⟩, _, Y, X => X = Y
  | ⟨3, _⟩, _, Y, X => X = Y
  | ⟨4, _⟩, _, Y, X => X = Y
  | ⟨5, _⟩, _, Y, X => X = Y
  | ⟨6, _⟩, _, Y, X => X = Y
  | ⟨7, _⟩, t, Y, X => aftP1 (LG m c) t Y X
  | ⟨8, _⟩, t, Y, X => aftP1 (ZG m c) t Y X
  | ⟨9, _⟩, t, Y, X => aftP1 (LC m c) t Y X
  | ⟨10, _⟩, t, Y, X => aftP1 (ZC m c) t Y X
  | ⟨11, _⟩, t, Y, X => aftP0 (HG m c) t Y X
  | ⟨12, _⟩, t, Y, X => aftP0 (HC m c) t Y X
  | ⟨_ + 13, h⟩, _, _, _ => absurd h (Nat.not_lt.2 (Nat.le_add_left _ _))

/-- The scratch operands: whole scoped buffers of the kernel's own. -/
abbrev scM0 : Memref sig .tc .vmem S10000x16 .f32 := Memref.whole cc0_scratch0
abbrev scM1 : Memref sig .tc .vmem S10000x16 .f32 := Memref.whole cc0_scratch1
abbrev scM2 : Memref sig .tc .vmem S10000x16 .f32 := Memref.whole cc0_scratch2

/-- A support scratch buffer after `n` points: its first `200 · min n 50` rows are the support's. -/
def Upto (G : Vec F S10000x16 .f32) (n : Nat) (v : Vec F S10000x16 .f32) : Prop :=
  ∀ y : S10000x16.Idx, (y 0).val < 200 * min n 50 → v y = G y

/-- The invariant on the scratch buffers before point `n`: before the first point anything; afterwards the first
    layer's support whole in the first buffer, the second layer's supports row by row as far as they have been computed. -/
def PhiS (c : Dev nD) : (n : ℕ) → n ≤ cfg0.N → sProp 𝕄
  | 0, _ => Pipeline.ΦA spec0 c
  | n + 1, _ => iprop(iprop(owns (c : Thread nD τ) scM0 fullShare (S1 m c)
      ∗ (∃ v, ⌜Upto (S2Gf m c) (n + 1) v⌝ ∗ owns (c : Thread nD τ) scM1 fullShare v)
      ∗ (∃ v, ⌜Upto (S2Cf m c) (n + 1) v⌝ ∗ owns (c : Thread nD τ) scM2 fullShare v)) ∗ (∃ r, prngReg c r))

/-- The relational proof data of the one pipeline on core `c`. -/
def rdat (c : Dev nD) : RDat τ (Elt F) Unit ℕ (UR sig nD τ) ℕ cfg0 c where
  A w := V m c (Pipeline.arrRef spec0 w)
  after := aft m c
  Φ t := PhiS m c t.val (Nat.le_of_lt_succ t.isLt)
  q _ := fullShare
  owed _ := 0

end Cert.Kernel.Gen

end
-- ==== Proof.KRunA.lean ====
/-
  The kernel body at the grid's first point: it computes the first layer's support `x · W1` into its scratch buffer (whatever the
  buffer held), then does what every first-phase point does with that support.
-/
import proofs.«134387_g28252294873641_cont_9to1_2070_22_alg».proof.Proof.KRows
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

set_option maxHeartbeats 4000000 in
theorem run_A (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1000x16 .f32) (harg9 : arg9.IsWhole) (arg10 : Memref sig .tc .vmem S1000x16 .f32) (harg10 : arg10.IsWhole) (arg11 : Memref sig .tc .vmem S1000x16 .f32) (harg11 : arg11.IsWhole) (arg12 : Memref sig .tc .vmem S1000x16 .f32) (harg12 : arg12.IsWhole) (arg13 : Memref sig .tc .vmem S1000x16 .f32) (harg13 : arg13.IsWhole) (arg14 : Memref sig .tc .vmem S1000x16 .f32) (harg14 : arg14.IsWhole) (arg15 : Memref sig .tc .vmem S10000x16 .f32) (harg15 : arg15.IsWhole) (arg16 : Memref sig .tc .vmem S10000x16 .f32) (harg16 : arg16.IsWhole) (arg17 : Memref sig .tc .vmem S10000x16 .f32) (harg17 : arg17.IsWhole)
    (hc0 : cond1 i) (hc1 : k0_cond2 i = 1#1) (hc2 : ¬k0_cond3 i = 1#1) (o1 o2 : Nat) (ho1 : k0_off1 i = ![o1, 0]) (ho2 : k0_off2 i = ![o2, 0])
    (x0 : Vec F S10000x128 .f32) (x1 x2 : Vec F S200x10000 .f32) (x3 : Vec F S128x16 .f32) (x4 : Vec F S16x16 .f32) (x5 x6 : Vec F S1x16 .f32)
    (y7 y8 y9 y10 y11 y12 : Vec F S1000x16 .f32) (z0 z1 z2 : Vec F S10000x16 .f32)
    (s1 : Vec F S10000x16 .f32) (hs1 : s1 = k0_pay1 x0 x3) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare y7 ∗ owns (c : Thread nD τ) arg10 fullShare y8 ∗ owns (c : Thread nD τ) arg11 fullShare y9 ∗ owns (c : Thread nD τ) arg12 fullShare y10
        ∗ owns (c : Thread nD τ) arg13 fullShare y11 ∗ owns (c : Thread nD τ) arg14 fullShare y12
        ∗ owns (c : Thread nD τ) arg15 fullShare z0 ∗ owns (c : Thread nD τ) arg16 fullShare z1 ∗ owns (c : Thread nD τ) arg17 fullShare z2
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare y7 ∗ owns (c : Thread nD τ) arg10 fullShare y8 ∗ owns (c : Thread nD τ) arg11 fullShare y9 ∗ owns (c : Thread nD τ) arg12 fullShare y10
            ∗ owns (c : Thread nD τ) arg13 fullShare (rows y11 o1 (k0_pay3 s1 x5 x1)) ∗ owns (c : Thread nD τ) arg14 fullShare (rows y12 o1 (k0_pay4 s1 x5 x2))
            ∗ owns (c : Thread nD τ) arg15 fullShare s1
            ∗ owns (c : Thread nD τ) arg16 fullShare (rows z1 o2 (k0_pay5 s1 x5 x1 x4)) ∗ owns (c : Thread nD τ) arg17 fullShare (rows z2 o2 (k0_pay6 s1 x5 x2 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  subst hs1
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  obtain rfl := harg9.eq_unread hf7; obtain rfl := harg10.eq_unread hf8; obtain rfl := harg11.eq_unread hf9; obtain rfl := harg12.eq_unread hf10
  obtain rfl := harg13.eq_unread hf11; obtain rfl := harg14.eq_unread hf12
  obtain rfl := harg15.eq_unread hg0; obtain rfl := harg16.eq_unread hg1; obtain rfl := harg17.eq_unread hg2
  sl_exec (disch := first | exact hc0 | exact hc1 | exact hc2)
  sl_step
  sl_unfold_run_names
  simp only [View.readAt_eq_ld, harg2.read_unread, harg3.read_unread, harg4.read_unread, harg5.read_unread, harg6.read_unread, harg7.read_unread, harg8.read_unread,
    harg15.read_unread, harg16.read_unread, harg17.read_unread,
    View.readCov_unit_zero (S := S10000x16) _ hz, View.ld_unit_zero (S := S10000x128) hz, View.ld_unit_zero (S := S128x16) hz, View.ld_unit_zero (S := S10000x16) hz, View.ld_unit_zero (S := S1x16) hz,
    View.ld_unit_zero (S := S200x10000) hz, View.ld_unit_zero (S := S16x16) hz]
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    · ipureintro; exact harg12.read_unread _
    iexact H10
  isplitl [H11]
  · iexists _; isplitr
    swap
    · iexact H11
    ipureintro; exact read_store_rows arg13 harg13 y11 _ o1 ho1 _ _
  isplitl [H12]
  · iexists _; isplitr
    swap
    · iexact H12
    ipureintro; exact read_store_rows arg14 harg14 y12 _ o1 ho1 _ _
  isplitl [HS0]
  · iexists _; isplitr
    swap
    · iexact HS0
    ipureintro
    rw [View.read_writes_eq_canon _ _ _ (fun y => ⟨_, List.mem_singleton_self _, View.mem_set_unit_zero hz inb_S10000x16_S10000x16_0_0 y⟩), View.canon_unit_zero hz]
  isplitl [HS1]
  · iexists _; isplitr
    swap
    · iexact HS1
    ipureintro; exact read_store_rows arg16 harg16 z1 _ o2 ho2 _ _
  · iexists _; isplitr
    swap
    · iexact HS2
    ipureintro; exact read_store_rows arg17 harg17 z2 _ o2 ho2 _ _

end Cert.Kernel.Gen

end
-- ==== Proof.KRunB.lean ====
/-
  The kernel body at a point of the first phase other than the grid's first point: with the first layer's support already in
  its scratch buffer, it stores 200 rows of hidden features into each of the two hidden-feature output blocks and 200 rows of the
  second layer's support into each of the two support scratch buffers; every other buffer is left as it was.
-/
import proofs.«134387_g28252294873641_cont_9to1_2070_22_alg».proof.Proof.KRows
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

set_option maxHeartbeats 4000000 in
theorem run_B (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1000x16 .f32) (harg9 : arg9.IsWhole) (arg10 : Memref sig .tc .vmem S1000x16 .f32) (harg10 : arg10.IsWhole) (arg11 : Memref sig .tc .vmem S1000x16 .f32) (harg11 : arg11.IsWhole) (arg12 : Memref sig .tc .vmem S1000x16 .f32) (harg12 : arg12.IsWhole) (arg13 : Memref sig .tc .vmem S1000x16 .f32) (harg13 : arg13.IsWhole) (arg14 : Memref sig .tc .vmem S1000x16 .f32) (harg14 : arg14.IsWhole) (arg15 : Memref sig .tc .vmem S10000x16 .f32) (harg15 : arg15.IsWhole) (arg16 : Memref sig .tc .vmem S10000x16 .f32) (harg16 : arg16.IsWhole) (arg17 : Memref sig .tc .vmem S10000x16 .f32) (harg17 : arg17.IsWhole)
    (hc0 : ¬cond1 i) (hc1 : k0_cond2 i = 1#1) (hc2 : ¬k0_cond3 i = 1#1) (o1 o2 : Nat) (ho1 : k0_off1 i = ![o1, 0]) (ho2 : k0_off2 i = ![o2, 0])
    (x0 : Vec F S10000x128 .f32) (x1 x2 : Vec F S200x10000 .f32) (x3 : Vec F S128x16 .f32) (x4 : Vec F S16x16 .f32) (x5 x6 : Vec F S1x16 .f32)
    (y7 y8 y9 y10 y11 y12 : Vec F S1000x16 .f32) (z0 z1 z2 : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare y7 ∗ owns (c : Thread nD τ) arg10 fullShare y8 ∗ owns (c : Thread nD τ) arg11 fullShare y9 ∗ owns (c : Thread nD τ) arg12 fullShare y10
        ∗ owns (c : Thread nD τ) arg13 fullShare y11 ∗ owns (c : Thread nD τ) arg14 fullShare y12
        ∗ owns (c : Thread nD τ) arg15 fullShare z0 ∗ owns (c : Thread nD τ) arg16 fullShare z1 ∗ owns (c : Thread nD τ) arg17 fullShare z2
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare y7 ∗ owns (c : Thread nD τ) arg10 fullShare y8 ∗ owns (c : Thread nD τ) arg11 fullShare y9 ∗ owns (c : Thread nD τ) arg12 fullShare y10
            ∗ owns (c : Thread nD τ) arg13 fullShare (rows y11 o1 (k0_pay3 z0 x5 x1)) ∗ owns (c : Thread nD τ) arg14 fullShare (rows y12 o1 (k0_pay4 z0 x5 x2))
            ∗ owns (c : Thread nD τ) arg15 fullShare z0
            ∗ owns (c : Thread nD τ) arg16 fullShare (rows z1 o2 (k0_pay5 z0 x5 x1 x4)) ∗ owns (c : Thread nD τ) arg17 fullShare (rows z2 o2 (k0_pay6 z0 x5 x2 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  obtain rfl := harg9.eq_unread hf7; obtain rfl := harg10.eq_unread hf8; obtain rfl := harg11.eq_unread hf9; obtain rfl := harg12.eq_unread hf10
  obtain rfl := harg13.eq_unread hf11; obtain rfl := harg14.eq_unread hf12
  obtain rfl := harg15.eq_unread hg0; obtain rfl := harg16.eq_unread hg1; obtain rfl := harg17.eq_unread hg2
  sl_exec (disch := first | exact hc0 | exact hc1 | exact hc2)
  sl_step
  simp only [View.readAt_eq_ld, harg2.read_unread, harg3.read_unread, harg4.read_unread, harg5.read_unread, harg6.read_unread, harg7.read_unread, harg8.read_unread,
    harg15.read_unread, harg16.read_unread, harg17.read_unread,
    View.ld_unit_zero (S := S10000x128) hz, View.ld_unit_zero (S := S128x16) hz, View.ld_unit_zero (S := S10000x16) hz, View.ld_unit_zero (S := S1x16) hz,
    View.ld_unit_zero (S := S200x10000) hz, View.ld_unit_zero (S := S16x16) hz]
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    · ipureintro; exact harg12.read_unread _
    iexact H10
  isplitl [H11]
  · iexists _; isplitr
    swap
    · iexact H11
    ipureintro; exact read_store_rows arg13 harg13 y11 _ o1 ho1 _ _
  isplitl [H12]
  · iexists _; isplitr
    swap
    · iexact H12
    ipureintro; exact read_store_rows arg14 harg14 y12 _ o1 ho1 _ _
  isplitl [HS0]
  · iexists _; isplitr
    · ipureintro; exact harg15.read_unread _
    iexact HS0
  isplitl [HS1]
  · iexists _; isplitr
    swap
    · iexact HS1
    ipureintro; exact read_store_rows arg16 harg16 z1 _ o2 ho2 _ _
  · iexists _; isplitr
    swap
    · iexact HS2
    ipureintro; exact read_store_rows arg17 harg17 z2 _ o2 ho2 _ _

end Cert.Kernel.Gen

end
-- ==== Proof.KRunC.lean ====
/-
  The kernel body at a point of the second phase: from the two support scratch buffers it stores 200 rows of class scores and of
  their log-softmax into each of the four score output blocks; every other buffer is left as it was.
-/
import proofs.«134387_g28252294873641_cont_9to1_2070_22_alg».proof.Proof.KRows
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

set_option maxHeartbeats 4000000 in
theorem run_C (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1000x16 .f32) (harg9 : arg9.IsWhole) (arg10 : Memref sig .tc .vmem S1000x16 .f32) (harg10 : arg10.IsWhole) (arg11 : Memref sig .tc .vmem S1000x16 .f32) (harg11 : arg11.IsWhole) (arg12 : Memref sig .tc .vmem S1000x16 .f32) (harg12 : arg12.IsWhole) (arg13 : Memref sig .tc .vmem S1000x16 .f32) (harg13 : arg13.IsWhole) (arg14 : Memref sig .tc .vmem S1000x16 .f32) (harg14 : arg14.IsWhole) (arg15 : Memref sig .tc .vmem S10000x16 .f32) (harg15 : arg15.IsWhole) (arg16 : Memref sig .tc .vmem S10000x16 .f32) (harg16 : arg16.IsWhole) (arg17 : Memref sig .tc .vmem S10000x16 .f32) (harg17 : arg17.IsWhole)
    (hc0 : ¬cond1 i) (hc1 : ¬k0_cond2 i = 1#1) (hc2 : k0_cond3 i = 1#1) (o3 : Nat) (ho3 : k0_off3 i = ![o3, 0])
    (x0 : Vec F S10000x128 .f32) (x1 x2 : Vec F S200x10000 .f32) (x3 : Vec F S128x16 .f32) (x4 : Vec F S16x16 .f32) (x5 x6 : Vec F S1x16 .f32)
    (y7 y8 y9 y10 y11 y12 : Vec F S1000x16 .f32) (z0 z1 z2 : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare y7 ∗ owns (c : Thread nD τ) arg10 fullShare y8 ∗ owns (c : Thread nD τ) arg11 fullShare y9 ∗ owns (c : Thread nD τ) arg12 fullShare y10
        ∗ owns (c : Thread nD τ) arg13 fullShare y11 ∗ owns (c : Thread nD τ) arg14 fullShare y12
        ∗ owns (c : Thread nD τ) arg15 fullShare z0 ∗ owns (c : Thread nD τ) arg16 fullShare z1 ∗ owns (c : Thread nD τ) arg17 fullShare z2
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (rows y7 o3 (k0_pay11 x6 x1 z1)) ∗ owns (c : Thread nD τ) arg10 fullShare (rows y8 o3 (k0_pay9 x6 x1 z1))
            ∗ owns (c : Thread nD τ) arg11 fullShare (rows y9 o3 (k0_pay12 x6 x2 z2)) ∗ owns (c : Thread nD τ) arg12 fullShare (rows y10 o3 (k0_pay10 x6 x2 z2))
            ∗ owns (c : Thread nD τ) arg13 fullShare y11 ∗ owns (c : Thread nD τ) arg14 fullShare y12
            ∗ owns (c : Thread nD τ) arg15 fullShare z0 ∗ owns (c : Thread nD τ) arg16 fullShare z1 ∗ owns (c : Thread nD τ) arg17 fullShare z2) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  obtain rfl := harg9.eq_unread hf7; obtain rfl := harg10.eq_unread hf8; obtain rfl := harg11.eq_unread hf9; obtain rfl := harg12.eq_unread hf10
  obtain rfl := harg13.eq_unread hf11; obtain rfl := harg14.eq_unread hf12
  obtain rfl := harg15.eq_unread hg0; obtain rfl := harg16.eq_unread hg1; obtain rfl := harg17.eq_unread hg2
  sl_exec (disch := first | exact hc0 | exact hc1 | exact hc2)
  sl_step
  simp only [View.readAt_eq_ld, harg2.read_unread, harg3.read_unread, harg4.read_unread, harg5.read_unread, harg6.read_unread, harg7.read_unread, harg8.read_unread,
    harg15.read_unread, harg16.read_unread, harg17.read_unread,
    View.ld_unit_zero (S := S10000x128) hz, View.ld_unit_zero (S := S128x16) hz, View.ld_unit_zero (S := S10000x16) hz, View.ld_unit_zero (S := S1x16) hz,
    View.ld_unit_zero (S := S200x10000) hz, View.ld_unit_zero (S := S16x16) hz]
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    swap
    · iexact H7
    ipureintro; exact read_store_rows arg9 harg9 y7 _ o3 ho3 _ _
  isplitl [H8]
  · iexists _; isplitr
    swap
    · iexact H8
    ipureintro; exact read_store_rows arg10 harg10 y8 _ o3 ho3 _ _
  isplitl [H9]
  · iexists _; isplitr
    swap
    · iexact H9
    ipureintro; exact read_store_rows arg11 harg11 y9 _ o3 ho3 _ _
  isplitl [H10]
  · iexists _; isplitr
    swap
    · iexact H10
    ipureintro; exact read_store_rows arg12 harg12 y10 _ o3 ho3 _ _
  isplitl [H11]
  · iexists _; isplitr
    · ipureintro; exact harg13.read_unread _
    iexact H11
  isplitl [H12]
  · iexists _; isplitr
    · ipureintro; exact harg14.read_unread _
    iexact H12
  isplitl [HS0]
  · iexists _; isplitr
    · ipureintro; exact harg15.read_unread _
    iexact HS0
  isplitl [HS1]
  · iexists _; isplitr
    · ipureintro; exact harg16.read_unread _
    iexact HS1
  · iexists _; isplitr
    · ipureintro; exact harg17.read_unread _
    iexact HS2

end Cert.Kernel.Gen

end
-- ==== Proof.KOblig.lean ====
/-
  The body obligation: at every grid point, from what the body may find in its staging buffers and the scratch invariant before
  the point, the kernel body runs to the invariant after the point, each input buffer as it found it and each output block
  with the point's 200 rows replaced. Three cases: the grid's first point (which also computes the first layer's support),
  the other points of the first phase, the points of the second phase.
-/
import proofs.«134387_g28252294873641_cont_9to1_2070_22_alg».proof.Proof.KData
import proofs.«134387_g28252294873641_cont_9to1_2070_22_alg».proof.Proof.KRunA
import proofs.«134387_g28252294873641_cont_9to1_2070_22_alg».proof.Proof.KRunB
import proofs.«134387_g28252294873641_cont_9to1_2070_22_alg».proof.Proof.KRunC
import Idealize.ShloMosaic.Lib.Pipeline.FrameBody

set_option maxRecDepth 16384

noncomputable section

namespace Cert.Kernel.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The schedule, decided over the grid -/

/-- The first conditional is taken at the first point only; the second through the first phase; the third through the second. -/
theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val < 50 :=
  (by decide +kernel : ∀ t : Fin grid0.N, k0_cond2 (grid0.coords t) = 1#1 ↔ t.val < 50)
theorem hcond3 : ∀ t : Fin cfg0.N, k0_cond3 (grid0.coords t) = 1#1 ↔ 50 ≤ t.val :=
  (by decide +kernel : ∀ t : Fin grid0.N, k0_cond3 (grid0.coords t) = 1#1 ↔ 50 ≤ t.val)

/-- The row offsets the body computes: `200 (t mod 5)` into an output block, `200 (t mod 50)` into a support scratch. -/
theorem hoff1 : ∀ t : Fin cfg0.N, k0_off1 (grid0.coords t) 0 = t.val % 5 * 200 ∧ k0_off1 (grid0.coords t) 1 = 0 :=
  (by decide +kernel : ∀ t : Fin grid0.N, k0_off1 (grid0.coords t) 0 = t.val % 5 * 200 ∧ k0_off1 (grid0.coords t) 1 = 0)
theorem hoff2 : ∀ t : Fin cfg0.N, k0_off2 (grid0.coords t) 0 = t.val % 50 * 200 ∧ k0_off2 (grid0.coords t) 1 = 0 :=
  (by decide +kernel : ∀ t : Fin grid0.N, k0_off2 (grid0.coords t) 0 = t.val % 50 * 200 ∧ k0_off2 (grid0.coords t) 1 = 0)
theorem hoff3 : ∀ t : Fin cfg0.N, k0_off3 (grid0.coords t) 0 = t.val % 5 * 200 ∧ k0_off3 (grid0.coords t) 1 = 0 :=
  (by decide +kernel : ∀ t : Fin grid0.N, k0_off3 (grid0.coords t) 0 = t.val % 5 * 200 ∧ k0_off3 (grid0.coords t) 1 = 0)

theorem off1_eq (t : Fin cfg0.N) : k0_off1 (grid0.coords t) = ![t.val % 5 * 200, 0] :=
  funext fun a => match a with | ⟨0, _⟩ => (hoff1 t).1 | ⟨1, _⟩ => (hoff1 t).2
theorem off2_eq (t : Fin cfg0.N) (ht : t.val < 50) : k0_off2 (grid0.coords t) = ![t.val * 200, 0] :=
  funext fun a => match a with
    | ⟨0, _⟩ => (hoff2 t).1.trans (by rw [Nat.mod_eq_of_lt ht]; rfl)
    | ⟨1, _⟩ => (hoff2 t).2
theorem off3_eq (t : Fin cfg0.N) : k0_off3 (grid0.coords t) = ![t.val % 5 * 200, 0] :=
  funext fun a => match a with | ⟨0, _⟩ => (hoff3 t).1 | ⟨1, _⟩ => (hoff3 t).2

/-! ## The inputs: every staging buffer of an input holds its block -/

theorem finds_in0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds_in1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl
theorem finds_in2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rfl
theorem finds_in3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rfl
theorem finds_in4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rfl
theorem finds_in5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold RDat.fetched RDat.blockOf iblk; rfl
theorem finds_in6 (c : Dev nD) (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  unfold RDat.fetched RDat.blockOf iblk; rfl

/-! ## The relations at the points of each phase -/

theorem aftP0_first (P : Fin cfg0.N → Vec F S200x16 .f32) (t : Fin cfg0.N) (ht : t.val < 50) (Y : Vec F S1000x16 .f32) :
    aftP0 P t Y (rows Y (t.val % 5 * 200) (P t)) := by unfold aftP0; rw [if_pos ht]
theorem aftP0_second (P : Fin cfg0.N → Vec F S200x16 .f32) (t : Fin cfg0.N) (ht : ¬t.val < 50) (Y : Vec F S1000x16 .f32) :
    aftP0 P t Y Y := by unfold aftP0; rw [if_neg ht]
theorem aftP1_first (P : Fin cfg0.N → Vec F S200x16 .f32) (t : Fin cfg0.N) (ht : t.val < 50) (Y : Vec F S1000x16 .f32) :
    aftP1 P t Y Y := by unfold aftP1; rw [if_pos ht]
theorem aftP1_second (P : Fin cfg0.N → Vec F S200x16 .f32) (t : Fin cfg0.N) (ht : ¬t.val < 50) (Y : Vec F S1000x16 .f32) :
    aftP1 P t Y (rows Y (t.val % 5 * 200) (P t)) := by unfold aftP1; rw [if_neg ht]

/-! ## The support scratch, row by row -/

/-- One more first-phase point: the support's rows `200 t … 200 t + 199` stored over a buffer right up to row `200 t`. -/
theorem upto_rows (G : Vec F S10000x16 .f32) (P : Fin cfg0.N → Vec F S200x16 .f32)
    (hG : ∀ y : S10000x16.Idx, G y = P (pt ((y 0).val / 200) (by have := idx2_lt0 (n0 := 10000) (n1 := 16) y; omega))
      (ix2 (⟨(y 0).val % 200, Nat.mod_lt _ (by omega)⟩ : Fin 200) (⟨(y 1).val, (y 1).isLt⟩ : Fin 16)))
    (t : Fin cfg0.N) (ht : t.val < 50) (v : Vec F S10000x16 .f32) (hv : Upto G t.val v) :
    Upto G (t.val + 1) (rows v (t.val * 200) (P t)) := by
  intro y hy
  have hm : min (t.val + 1) 50 = t.val + 1 := by omega
  rw [hm] at hy
  by_cases h : t.val * 200 ≤ (y 0).val ∧ (y 0).val < t.val * 200 + 200
  · rw [rows_of_mem _ _ _ _ h, hG y]
    have e1 : (y 0).val / 200 = t.val := by omega
    have e2 : (y 0).val % 200 = (y 0).val - t.val * 200 := by omega
    congr 1
    · exact Fin.ext e1.symm
    · exact congrArg (fun a => ix2 a _) (Fin.ext e2.symm)
  · rw [rows_of_not_mem _ _ _ _ h]
    exact hv y (by have hm' : min t.val 50 = t.val := by omega
                   rw [hm']; omega)

/-- Past the first phase the support is complete. -/
theorem upto_full (G : Vec F S10000x16 .f32) (n : Nat) (hn : 50 ≤ n) (v : Vec F S10000x16 .f32) (hv : Upto G n v) : v = G :=
  funext fun y => hv y (by have := idx2_lt0 (n0 := 10000) (n1 := 16) y
                           have hm : min n 50 = 50 := by omega
                           rw [hm]; omega)
theorem upto_self (G : Vec F S10000x16 .f32) (n : Nat) : Upto G n G := fun _ _ => rfl

/-! ## The invariant, unfolded -/

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

theorem PhiS_pos (c : Dev nD) (n : ℕ) (h : n ≤ cfg0.N) (hz : n ≠ 0) :
    PhiS m c n h = iprop(iprop(owns (c : Thread nD τ) scM0 fullShare (S1 m c)
      ∗ (∃ v, ⌜Upto (S2Gf m c) n v⌝ ∗ owns (c : Thread nD τ) scM1 fullShare v)
      ∗ (∃ v, ⌜Upto (S2Cf m c) n v⌝ ∗ owns (c : Thread nD τ) scM2 fullShare v)) ∗ (∃ r, prngReg c r)) := by
  cases n with
  | zero => exact absurd rfl hz
  | succ n => rfl

theorem PhiS_zero (c : Dev nD) (n : ℕ) (h : n ≤ cfg0.N) (hz : n = 0) : PhiS m c n h = Pipeline.ΦA spec0 c := by
  subst hz; rfl

/-- The first layer's support, read off the blocks of `x` and `W1` at the first point. -/
theorem S1_eq (c : Dev nD) (t : Fin cfg0.N) (h0 : t.val = 0) : S1 m c = k0_pay1 (iblk m c 0 t) (iblk m c 3 t) := by
  obtain rfl : t = pt 0 (by decide) := Fin.ext h0
  rfl

theorem Phi_castSucc (c : Dev nD) (t : Fin cfg0.N) : (rdat m c).Φ t.castSucc = PhiS m c t.val (Nat.le_of_lt t.isLt) := by
  dsimp only [rdat]; simp only [Fin.coe_castSucc]

/-! ## The body at a generic point -/

/-- What the body is called with at point `t`, the windows one by one, each staging buffer at contents it may hold, -/
def bodyPreR (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) ((cfg0.win 0).stage (cfg0.slots t 0)) fullShare (Y 0)
    ∗ owns (c : Thread nD τ) ((cfg0.win 1).stage (cfg0.slots t 1)) fullShare (Y 1)
    ∗ owns (c : Thread nD τ) ((cfg0.win 2).stage (cfg0.slots t 2)) fullShare (Y 2)
    ∗ owns (c : Thread nD τ) ((cfg0.win 3).stage (cfg0.slots t 3)) fullShare (Y 3)
    ∗ owns (c : Thread nD τ) ((cfg0.win 4).stage (cfg0.slots t 4)) fullShare (Y 4)
    ∗ owns (c : Thread nD τ) ((cfg0.win 5).stage (cfg0.slots t 5)) fullShare (Y 5)
    ∗ owns (c : Thread nD τ) ((cfg0.win 6).stage (cfg0.slots t 6)) fullShare (Y 6)
    ∗ owns (c : Thread nD τ) ((cfg0.win 7).stage (cfg0.slots t 7)) fullShare (Y 7)
    ∗ owns (c : Thread nD τ) ((cfg0.win 8).stage (cfg0.slots t 8)) fullShare (Y 8)
    ∗ owns (c : Thread nD τ) ((cfg0.win 9).stage (cfg0.slots t 9)) fullShare (Y 9)
    ∗ owns (c : Thread nD τ) ((cfg0.win 10).stage (cfg0.slots t 10)) fullShare (Y 10)
    ∗ owns (c : Thread nD τ) ((cfg0.win 11).stage (cfg0.slots t 11)) fullShare (Y 11)
    ∗ owns (c : Thread nD τ) ((cfg0.win 12).stage (cfg0.slots t 12)) fullShare (Y 12))

/-- and what it returns: each buffer at contents related to what it was handed. -/
def bodyPostR (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) ((cfg0.win 0).stage (cfg0.slots t 0)) fullShare X)
    ∗ (∃ X, ⌜(rdat m c).after 1 t (Y 1) X⌝ ∗ owns (c : Thread nD τ) ((cfg0.win 1).stage (cfg0.slots t 1)) fullShare X)
    ∗ (∃ X, ⌜(rdat m c).after 2 t (Y 2) X⌝ ∗ owns (c : Thread nD τ) ((cfg0.win 2).stage (cfg0.slots t 2)) fullShare X)
    ∗ (∃ X, ⌜(rdat m c).after 3 t (Y 3) X⌝ ∗ owns (c : Thread nD τ) ((cfg0.win 3).stage (cfg0.slots t 3)) fullShare X)
    ∗ (∃ X, ⌜(rdat m c).after 4 t (Y 4) X⌝ ∗ owns (c : Thread nD τ) ((cfg0.win 4).stage (cfg0.slots t 4)) fullShare X)
    ∗ (∃ X, ⌜(rdat m c).after 5 t (Y 5) X⌝ ∗ owns (c : Thread nD τ) ((cfg0.win 5).stage (cfg0.slots t 5)) fullShare X)
    ∗ (∃ X, ⌜(rdat m c).after 6 t (Y 6) X⌝ ∗ owns (c : Thread nD τ) ((cfg0.win 6).stage (cfg0.slots t 6)) fullShare X)
    ∗ (∃ X, ⌜(rdat m c).after 7 t (Y 7) X⌝ ∗ owns (c : Thread nD τ) ((cfg0.win 7).stage (cfg0.slots t 7)) fullShare X)
    ∗ (∃ X, ⌜(rdat m c).after 8 t (Y 8) X⌝ ∗ owns (c : Thread nD τ) ((cfg0.win 8).stage (cfg0.slots t 8)) fullShare X)
    ∗ (∃ X, ⌜(rdat m c).after 9 t (Y 9) X⌝ ∗ owns (c : Thread nD τ) ((cfg0.win 9).stage (cfg0.slots t 9)) fullShare X)
    ∗ (∃ X, ⌜(rdat m c).after 10 t (Y 10) X⌝ ∗ owns (c : Thread nD τ) ((cfg0.win 10).stage (cfg0.slots t 10)) fullShare X)
    ∗ (∃ X, ⌜(rdat m c).after 11 t (Y 11) X⌝ ∗ owns (c : Thread nD τ) ((cfg0.win 11).stage (cfg0.slots t 11)) fullShare X)
    ∗ (∃ X, ⌜(rdat m c).after 12 t (Y 12) X⌝ ∗ owns (c : Thread nD τ) ((cfg0.win 12).stage (cfg0.slots t 12)) fullShare X))

set_option maxHeartbeats 8000000 in
theorem sound_body (c : Dev nD) (t : Fin cfg0.N) (Y : (w : Fin cfg0.W) → (cfg0.win w).block.Idx → Elt F (cfg0.win w).elt)
    (hY : ∀ w, (rdat m c).Finds w t (Y w)) :
    bodyPreR m c t Y ⊢ wp frame (wpE (defs₀ (F := F)) Variants.none c none) Set.univ (bodyAt0 t) (fun _ => bodyPostR m c t Y) := by
  have e0 := finds_in0 m c t _ (hY 0)
  have e1 := finds_in1 m c t _ (hY 1)
  have e2 := finds_in2 m c t _ (hY 2)
  have e3 := finds_in3 m c t _ (hY 3)
  have e4 := finds_in4 m c t _ (hY 4)
  have e5 := finds_in5 m c t _ (hY 5)
  have e6 := finds_in6 m c t _ (hY 6)
  unfold bodyPreR bodyPostR bodyAt0
  rw [e0, e1, e2, e3, e4, e5, e6]
  rw [show (rdat m c).owesAt () t.succ = (rdat m c).owesAt () t.castSucc from rfl]
  rw [show (rdat m c).Φ t.succ = PhiS m c (t.val + 1) t.isLt from rfl, Phi_castSucc]
  have hN := pt_lt t
  by_cases ht : t.val < 50
  · have hc1 := (hcond2 t).mpr ht
    have hc2 : ¬k0_cond3 (grid0.coords t) = 1#1 := fun h => by have := (hcond3 t).mp h; omega
    by_cases h0 : t.val = 0
    · have hc0 := (hcond1 t).mpr h0
      rw [PhiS_zero m c t.val _ h0, PhiA0_eq]
      rw [show PhiS m c (t.val + 1) t.isLt = _ from PhiS_pos m c _ _ (by omega)]
      iintro ⟨⟨⟨⟨%d0, HS0⟩, ⟨%d1, HS1⟩, ⟨%d2, HS2⟩⟩, Hg⟩, Ho, H0, H1, H2, H3, H4, H5, H6, H7, H8, H9, H10, H11, H12⟩
      iapply (run_A c (grid0.coords t) _ _ _ _ _ _ _ _ _ _ _ _ _ _ _ _ _ _ _ _ _ _ _ _ _ _ _ _ _ _ _ _ hc0 hc1 hc2 _ _ (off1_eq _) (off2_eq _ ht) (iblk m c 0 t) (iblk m c 1 t) (iblk m c 2 t) (iblk m c 3 t) (iblk m c 4 t) (iblk m c 5 t) (iblk m c 6 t) (Y 7) (Y 8) (Y 9) (Y 10) (Y 11) (Y 12) d0 d1 d2 (S1 m c) (S1_eq m c t h0) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      isplitl [HS2]; · iexact HS2
      iintro ⟨H0, H1, H2, H3, H4, H5, H6, H7, H8, H9, H10, H11, H12, HS0, HS1, HS2⟩
      isplitl [HS0 HS1 HS2 Hg]
      · isplitl [HS0 HS1 HS2]
        · isplitl [HS0]; · iexact HS0
          isplitl [HS1]
          · iexists _; isplitr
            · ipureintro; exact upto_rows (S2Gf m c) (S2G m c) (fun _ => rfl) _ ht d1 (fun _ hy => absurd hy (by rw [h0]; simp))
            iexact HS1
          · iexists _; isplitr
            · ipureintro; exact upto_rows (S2Cf m c) (S2C m c) (fun _ => rfl) _ ht d2 (fun _ hy => absurd hy (by rw [h0]; simp))
            iexact HS2
        · iexact Hg
      isplitl [Ho]; · iexact Ho
      isplitl [H0]
      · iexists _; isplitr
        · ipureintro; exact rfl
        iexact H0
      isplitl [H1]
      · iexists _; isplitr
        · ipureintro; exact rfl
        iexact H1
      isplitl [H2]
      · iexists _; isplitr
        · ipureintro; exact rfl
        iexact H2
      isplitl [H3]
      · iexists _; isplitr
        · ipureintro; exact rfl
        iexact H3
      isplitl [H4]
      · iexists _; isplitr
        · ipureintro; exact rfl
        iexact H4
      isplitl [H5]
      · iexists _; isplitr
        · ipureintro; exact rfl
        iexact H5
      isplitl [H6]
      · iexists _; isplitr
        · ipureintro; exact rfl
        iexact H6
      isplitl [H7]
      · iexists _; isplitr
        · ipureintro; exact aftP1_first _ t ht _
        iexact H7
      isplitl [H8]
      · iexists _; isplitr
        · ipureintro; exact aftP1_first _ t ht _
        iexact H8
      isplitl [H9]
      · iexists _; isplitr
        · ipureintro; exact aftP1_first _ t ht _
        iexact H9
      isplitl [H10]
      · iexists _; isplitr
        · ipureintro; exact aftP1_first _ t ht _
        iexact H10
      isplitl [H11]
      · iexists _; isplitr
        · ipureintro; exact aftP0_first _ t ht _
        iexact H11
      · iexists _; isplitr
        · ipureintro; exact aftP0_first _ t ht _
        iexact H12
    · have hc0 : ¬cond1 (grid0.coords t) := fun h => h0 ((hcond1 t).mp h)
      rw [PhiS_pos m c t.val _ h0, show PhiS m c (t.val + 1) t.isLt = _ from PhiS_pos m c _ _ (by omega)]
      iintro ⟨⟨⟨HS0, ⟨%v1, %hv1, HS1⟩, ⟨%v2, %hv2, HS2⟩⟩, Hg⟩, Ho, H0, H1, H2, H3, H4, H5, H6, H7, H8, H9, H10, H11, H12⟩
      iapply (run_B c (grid0.coords t) _ _ _ _ _ _ _ _ _ _ _ _ _ _ _ _ _ _ _ _ _ _ _ _ _ _ _ _ _ _ _ _ hc0 hc1 hc2 _ _ (off1_eq _) (off2_eq _ ht) (iblk m c 0 t) (iblk m c 1 t) (iblk m c 2 t) (iblk m c 3 t) (iblk m c 4 t) (iblk m c 5 t) (iblk m c 6 t) (Y 7) (Y 8) (Y 9) (Y 10) (Y 11) (Y 12) (S1 m c) v1 v2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      isplitl [HS2]; · iexact HS2
      iintro ⟨H0, H1, H2, H3, H4, H5, H6, H7, H8, H9, H10, H11, H12, HS0, HS1, HS2⟩
      isplitl [HS0 HS1 HS2 Hg]
      · isplitl [HS0 HS1 HS2]
        · isplitl [HS0]; · iexact HS0
          isplitl [HS1]
          · iexists _; isplitr
            · ipureintro; exact upto_rows (S2Gf m c) (S2G m c) (fun _ => rfl) t ht v1 hv1
            iexact HS1
          · iexists _; isplitr
            · ipureintro; exact upto_rows (S2Cf m c) (S2C m c) (fun _ => rfl) t ht v2 hv2
            iexact HS2
        · iexact Hg
      isplitl [Ho]; · iexact Ho
      isplitl [H0]
      · iexists _; isplitr
        · ipureintro; exact rfl
        iexact H0
      isplitl [H1]
      · iexists _; isplitr
        · ipureintro; exact rfl
        iexact H1
      isplitl [H2]
      · iexists _; isplitr
        · ipureintro; exact rfl
        iexact H2
      isplitl [H3]
      · iexists _; isplitr
        · ipureintro; exact rfl
        iexact H3
      isplitl [H4]
      · iexists _; isplitr
        · ipureintro; exact rfl
        iexact H4
      isplitl [H5]
      · iexists _; isplitr
        · ipureintro; exact rfl
        iexact H5
      isplitl [H6]
      · iexists _; isplitr
        · ipureintro; exact rfl
        iexact H6
      isplitl [H7]
      · iexists _; isplitr
        · ipureintro; exact aftP1_first _ t ht _
        iexact H7
      isplitl [H8]
      · iexists _; isplitr
        · ipureintro; exact aftP1_first _ t ht _
        iexact H8
      isplitl [H9]
      · iexists _; isplitr
        · ipureintro; exact aftP1_first _ t ht _
        iexact H9
      isplitl [H10]
      · iexists _; isplitr
        · ipureintro; exact aftP1_first _ t ht _
        iexact H10
      isplitl [H11]
      · iexists _; isplitr
        · ipureintro; exact aftP0_first _ t ht _
        iexact H11
      · iexists _; isplitr
        · ipureintro; exact aftP0_first _ t ht _
        iexact H12
  · have hc0 : ¬cond1 (grid0.coords t) := fun h => by have := (hcond1 t).mp h; omega
    have hc1 : ¬k0_cond2 (grid0.coords t) = 1#1 := fun h => ht ((hcond2 t).mp h)
    have hc2 := (hcond3 t).mpr (by omega : 50 ≤ t.val)
    rw [PhiS_pos m c t.val _ (by omega), show PhiS m c (t.val + 1) t.isLt = _ from PhiS_pos m c _ _ (by omega)]
    iintro ⟨⟨⟨HS0, ⟨%v1, %hv1, HS1⟩, ⟨%v2, %hv2, HS2⟩⟩, Hg⟩, Ho, H0, H1, H2, H3, H4, H5, H6, H7, H8, H9, H10, H11, H12⟩
    obtain rfl := upto_full _ _ (by omega) v1 hv1
    obtain rfl := upto_full _ _ (by omega) v2 hv2
    iapply (run_C c (grid0.coords t) _ _ _ _ _ _ _ _ _ _ _ _ _ _ _ _ _ _ _ _ _ _ _ _ _ _ _ _ _ _ _ _ hc0 hc1 hc2 _ (off3_eq _) (iblk m c 0 t) (iblk m c 1 t) (iblk m c 2 t) (iblk m c 3 t) (iblk m c 4 t) (iblk m c 5 t) (iblk m c 6 t) (Y 7) (Y 8) (Y 9) (Y 10) (Y 11) (Y 12) (S1 m c) (S2Gf m c) (S2Cf m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]; · iexact HS0
        isplitl [HS1]
        · iexists _; isplitr
          · ipureintro; exact upto_self _ _
          iexact HS1
        · iexists _; isplitr
          · ipureintro; exact upto_self _ _
          iexact HS2
      · iexact Hg
    isplitl [Ho]; · iexact Ho
    isplitl [H0]
    · iexists _; isplitr
      · ipureintro; exact rfl
      iexact H0
    isplitl [H1]
    · iexists _; isplitr
      · ipureintro; exact rfl
      iexact H1
    isplitl [H2]
    · iexists _; isplitr
      · ipureintro; exact rfl
      iexact H2
    isplitl [H3]
    · iexists _; isplitr
      · ipureintro; exact rfl
      iexact H3
    isplitl [H4]
    · iexists _; isplitr
      · ipureintro; exact rfl
      iexact H4
    isplitl [H5]
    · iexists _; isplitr
      · ipureintro; exact rfl
      iexact H5
    isplitl [H6]
    · iexists _; isplitr
      · ipureintro; exact rfl
      iexact H6
    isplitl [H7]
    · iexists _; isplitr
      · ipureintro; exact aftP1_second _ t ht _
      iexact H7
    isplitl [H8]
    · iexists _; isplitr
      · ipureintro; exact aftP1_second _ t ht _
      iexact H8
    isplitl [H9]
    · iexists _; isplitr
      · ipureintro; exact aftP1_second _ t ht _
      iexact H9
    isplitl [H10]
    · iexists _; isplitr
      · ipureintro; exact aftP1_second _ t ht _
      iexact H10
    isplitl [H11]
    · iexists _; isplitr
      · ipureintro; exact aftP0_second _ t ht _
      iexact H11
    · iexists _; isplitr
      · ipureintro; exact aftP0_second _ t ht _
      iexact H12

/-- The library's body obligation, at every point. -/
theorem body_obligation (c : Dev nD) : (rdat (F := F) m c).BodyObligation (defs₀ (F := F)) Variants.none () Set.univ := fun t Y hY => by
  rw [bigSep_W0, bigSep_W0]
  exact sound_body m c t Y hY

end Cert.Kernel.Gen

end
-- ==== Proof.KRunMain.lean ====
/-
  The run: with the body obligation met at every point, the pipelined program runs to the end on every fair schedule, nothing
  faults, every argument array ends as it was launched, and every output array ends at contents the relational proof data allows.
-/
import proofs.«134387_g28252294873641_cont_9to1_2070_22_alg».proof.Proof.KOblig
import Idealize.ShloMosaic.Lib.Pipeline.Cells

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (rdat m c).Φ 0 := by
  rw [show (rdat m c).Φ 0 = PhiS m c 0 (Nat.zero_le _) from rfl, PhiS_zero m c 0 _ rfl]

/-- After the last point the invariant gives the scratch buffers back, their contents forgotten. -/
theorem hout (c : Dev nD) : (rdat m c).Φ (Fin.last cfg0.N) ⊢ Pipeline.ΦA spec0 c := by
  rw [show (rdat m c).Φ (Fin.last cfg0.N) = PhiS m c (Fin.last cfg0.N).val (Nat.le_of_lt_succ (Fin.last cfg0.N).isLt) from rfl,
    PhiS_pos m c _ _ (by rw [Fin.val_last]; have : cfg0.N = 100 := N_0; omega), PhiA0_eq]
  iintro ⟨⟨HS0, ⟨%v1, -, HS1⟩, ⟨%v2, -, HS2⟩⟩, Hg⟩
  isplitl [HS0 HS1 HS2]
  · isplitl [HS0]; · iexists _; iexact HS0
    isplitl [HS1]; · iexists _; iexact HS1
    · iexists _; iexact HS2
  iexact Hg

set_option backward.isDefEq.respectTransparency.types false in
/-- Every weakly fair execution of @main terminates, and every final state has every array of the pipeline at contents the
    proof data allows after every write-back and every other unscoped buffer at its region-entry contents. -/
theorem run_main : θ_run defs (onTc (τ := τ) (main (F := F))) (s₀ m ρ) (Pipeline.RDat.FramePost (cfgs 0) (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hin := hin m) (hout := hout m)

/-- An input window's array ends as the region found it. -/
theorem arr_in (c : Dev nD) (w : Fin cfg0.W) (hw : (cfg0.win w).isOut = false) (A) (h : (rdat m c).ArrAt w cfg0.N A) :
    A = V m c (Pipeline.arrRef spec0 w) := by
  rw [(rdat m c).ArrAt_in w hw] at h; exact h

/-- The run with everything the claims read: the six output arrays at contents the proof data allows, the seven argument arrays
    as launched. -/
theorem run_all : θ_run defs (onTc (τ := τ) (main (F := F))) ⟨m, fun _ => 0, ρ⟩ (fun r => ∀ c : Dev nD,
      ((rdat m c).ArrAt 7 cfg0.N (r.2.mem ((c.tc : Thread nD τ).loc main_v2_0))
      ∧ (rdat m c).ArrAt 8 cfg0.N (r.2.mem ((c.tc : Thread nD τ).loc main_v2_1))
      ∧ (rdat m c).ArrAt 9 cfg0.N (r.2.mem ((c.tc : Thread nD τ).loc main_v2_2))
      ∧ (rdat m c).ArrAt 10 cfg0.N (r.2.mem ((c.tc : Thread nD τ).loc main_v2_3))
      ∧ (rdat m c).ArrAt 11 cfg0.N (r.2.mem ((c.tc : Thread nD τ).loc main_v2_4))
      ∧ (rdat m c).ArrAt 12 cfg0.N (r.2.mem ((c.tc : Thread nD τ).loc main_v2_5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨⟨(h c).1 7, (h c).1 8, (h c).1 9, (h c).1 10, (h c).1 11, (h c).1 12⟩,
      (arr_in m c 0 rfl _ ((h c).1 0)).trans (V_main_arg0 m c),
      (arr_in m c 1 rfl _ ((h c).1 1)).trans (V_main_arg1 m c),
      (arr_in m c 2 rfl _ ((h c).1 2)).trans (V_main_arg2 m c),
      (arr_in m c 3 rfl _ ((h c).1 3)).trans (V_main_arg3 m c),
      ((h c).2 main_arg4 (Pipeline.mem_restRefs_of main_arg4 (by decide) (by decide))).trans (V_main_arg4 m c),
      (arr_in m c 4 rfl _ ((h c).1 4)).trans (V_main_arg5 m c),
      ((h c).2 main_arg6 (Pipeline.mem_restRefs_of main_arg6 (by decide) (by decide))).trans (V_main_arg6 m c)⟩) (run_main m ρ)

/-- THE FRAME: the program runs, nothing faults, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_all m ρ)

end Cert.Kernel.Gen

end
-- ==== Proof.Rows.lean ====
/-
  Row stripes of a two-dimensional buffer. The kernel's body stores 200 rows at a time into buffers of 1000 or
  10000 rows of 16 entries: `rows Y o P` is `Y` with rows `o … o + 199` replaced by the 200 × 16 block `P`,
  and one store of `P` at row offset `o` through a whole buffer that read `Y` leaves a buffer that reads `rows Y o P`.
-/
import proofs.«134387_g28252294873641_cont_9to1_2070_22_alg».proof.Proof.Gen.KernelIdeal.Frame
import proofs.«134387_g28252294873641_cont_9to1_2070_22_alg».proof.Proof.Gen.KernelIdeal.Skeleton
import Idealize.ShloMosaic.Lib.WritesUnit
import Idealize.ShloMosaic.Lib.ValueIdx

noncomputable section

namespace Cert.KernelIdeal.Gen

open Idealize.ShloMosaic Idealize.ShloMosaic.TcCoe Idealize.ShloMosaic.ValueIdx

variable {F : FTy → Type} [FloatOps F]

/-- The zero offsets of a whole-buffer access. -/
theorem hz : (![0, 0] : Fin 2 → Nat) = fun _ => 0 := funext fun a => by fin_cases a <;> rfl

/-- The condition of the body's first conditional: both grid coordinates are zero (the first point). -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- `Y` with its rows `o ≤ r < o + 200` replaced by the rows of `P`. -/
def rows {D : Nat} (Y : (⟨2, ![D, 16]⟩ : Shape).Idx → Elt F .f32) (o : Nat) (P : S200x16.Idx → Elt F .f32) :
    (⟨2, ![D, 16]⟩ : Shape).Idx → Elt F .f32 :=
  fun y => if h : o ≤ (y 0).val ∧ (y 0).val < o + 200 then
    P (ix2 (⟨(y 0).val - o, by omega⟩ : Fin 200) (⟨(y 1).val, (y 1).isLt⟩ : Fin 16)) else Y y

theorem rows_of_mem {D : Nat} (Y : (⟨2, ![D, 16]⟩ : Shape).Idx → Elt F .f32) (o : Nat) (P : S200x16.Idx → Elt F .f32)
    (y : (⟨2, ![D, 16]⟩ : Shape).Idx) (h : o ≤ (y 0).val ∧ (y 0).val < o + 200) :
    rows Y o P y = P (ix2 (⟨(y 0).val - o, by omega⟩ : Fin 200) (⟨(y 1).val, (y 1).isLt⟩ : Fin 16)) := by
  unfold rows; rw [dif_pos h]

theorem rows_of_not_mem {D : Nat} (Y : (⟨2, ![D, 16]⟩ : Shape).Idx → Elt F .f32) (o : Nat) (P : S200x16.Idx → Elt F .f32)
    (y : (⟨2, ![D, 16]⟩ : Shape).Idx) (h : ¬(o ≤ (y 0).val ∧ (y 0).val < o + 200)) : rows Y o P y = Y y := by
  unfold rows; rw [dif_neg h]

/-- One store of a 200-row block at row offset `o` through a whole buffer that read `Y`: the buffer then reads `rows Y o P`. -/
theorem read_store_rows {D : Nat} (M : Memref sig .tc .vmem (⟨2, ![D, 16]⟩ : Shape) .f32) (hM : M.IsWhole)
    (Y : (⟨2, ![D, 16]⟩ : Shape).Idx → Elt F .f32) (off : Fin 2 → Nat) (o : Nat) (hoff : off = ![o, 0])
    (inb : ∀ a : Fin 2, off a + S200x16.size a ≤ (![D, 16] : Fin 2 → Nat) a) (P : S200x16.Idx → Elt F .f32) :
    M.view.read (Elt F) (M.view.writes (Elt F) (hM.unread Y)
      [(⟨Rect.unit (s := ⟨2, ![D, 16]⟩) off S200x16.size inb, P⟩ : View.Piece (Elt F) (⟨2, ![D, 16]⟩ : Shape) .f32)]) = rows Y o P := by
  funext y
  rw [View.read_writes_cons_rows (d := ![D, 16]) M.view (hM.unread Y) inb P [] y hoff (W := 200) rfl rfl]
  unfold rows
  split
  · next h =>
    refine congrArg P (funext fun a => Fin.ext ?_)
    rw [Rect.unitLocal_val]
    match a with
    | ⟨0, _⟩ => rfl
    | ⟨1, _⟩ => exact Nat.sub_zero _
  · next h =>
    rw [View.writes_nil]
    exact congrFun (hM.read_unread Y) y

end Cert.KernelIdeal.Gen

end
-- ==== Proof.Data.lean ====
/-
  What the pipelined kernel computes, point by point, in closed form over the arrays it was launched with.

  The grid has 100 points in two phases of 50. In the first phase point `t` takes rows `200 t … 200 t + 199` of each
  adjacency matrix, multiplies them with the first layer's support `x · W1` (computed once, at the first point, into a scratch
  buffer), adds the bias, takes the positive part — 200 rows of hidden features per adjacency, stored into the current
  1000-row output block at row `200 (t mod 5)` — and multiplies those rows with `W2` into rows `200 t …` of the second
  layer's support scratch. In the second phase point `50 + i` multiplies rows `200 i …` of each adjacency with the completed
  support, adds the bias, and stores those 200 rows of scores and of their log-softmax at row `200 (i mod 5)` of the
  current output blocks. The proof data below says this as RELATIONS between what the body finds in a staging buffer and what
  it leaves there (an output block is filled 200 rows at a time, over contents nobody names), and as an invariant on the
  scratch buffers.
-/
import proofs.«134387_g28252294873641_cont_9to1_2070_22_alg».proof.Proof.Rows
import Idealize.ShloMosaic.Lib.Pipeline.Frame

set_option maxRecDepth 16384

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- The grid's point number `n`. -/
abbrev pt (n : Nat) (h : n < 100) : Fin cfg0.N := ⟨n, lt_of_lt_of_eq h N_0.symm⟩

theorem pt_lt (t : Fin cfg0.N) : t.val < 100 := lt_of_lt_of_eq t.isLt N_0

/-- The first layer's support `x · W1`, as the first point computes it from the blocks of `x` and `W1`. -/
def S1 (c : Dev nD) : Vec F S10000x16 .f32 := k0_pay1 (iblk m c 0 (pt 0 (by omega))) (iblk m c 3 (pt 0 (by omega)))

/-- The 200 rows of hidden features point `t` computes from its block of the first adjacency matrix. -/
def HG (c : Dev nD) (t : Fin cfg0.N) : Vec F S200x16 .f32 := k0_pay3 (S1 m c) (iblk m c 5 t) (iblk m c 1 t)
/-- The same from its block of the second adjacency matrix. -/
def HC (c : Dev nD) (t : Fin cfg0.N) : Vec F S200x16 .f32 := k0_pay4 (S1 m c) (iblk m c 5 t) (iblk m c 2 t)
/-- The 200 rows of the second layer's support point `t` computes: its hidden rows times `W2`. -/
def S2G (c : Dev nD) (t : Fin cfg0.N) : Vec F S200x16 .f32 := k0_pay5 (S1 m c) (iblk m c 5 t) (iblk m c 1 t) (iblk m c 4 t)
def S2C (c : Dev nD) (t : Fin cfg0.N) : Vec F S200x16 .f32 := k0_pay6 (S1 m c) (iblk m c 5 t) (iblk m c 2 t) (iblk m c 4 t)

/-- The whole second-layer support: row `r` is row `r mod 200` of what point `r / 200` computed. -/
def S2Gf (c : Dev nD) : Vec F S10000x16 .f32 := fun y =>
  S2G m c (pt ((y 0).val / 200) (by have := idx2_lt0 (n0 := 10000) (n1 := 16) y; omega))
    (ix2 (⟨(y 0).val % 200, Nat.mod_lt _ (by omega)⟩ : Fin 200) (⟨(y 1).val, (y 1).isLt⟩ : Fin 16))
def S2Cf (c : Dev nD) : Vec F S10000x16 .f32 := fun y =>
  S2C m c (pt ((y 0).val / 200) (by have := idx2_lt0 (n0 := 10000) (n1 := 16) y; omega))
    (ix2 (⟨(y 0).val % 200, Nat.mod_lt _ (by omega)⟩ : Fin 200) (⟨(y 1).val, (y 1).isLt⟩ : Fin 16))

/-- The 200 rows of class scores a second-phase point `t` computes, and of their log-softmax, per adjacency. -/
def ZG (c : Dev nD) (t : Fin cfg0.N) : Vec F S200x16 .f32 := k0_pay9 (iblk m c 6 t) (iblk m c 1 t) (S2Gf m c)
def LG (c : Dev nD) (t : Fin cfg0.N) : Vec F S200x16 .f32 := k0_pay11 (iblk m c 6 t) (iblk m c 1 t) (S2Gf m c)
def ZC (c : Dev nD) (t : Fin cfg0.N) : Vec F S200x16 .f32 := k0_pay10 (iblk m c 6 t) (iblk m c 2 t) (S2Cf m c)
def LC (c : Dev nD) (t : Fin cfg0.N) : Vec F S200x16 .f32 := k0_pay12 (iblk m c 6 t) (iblk m c 2 t) (S2Cf m c)

/-- What the body leaves in an output block it fills in the FIRST phase (the hidden features): at a first-phase point the
    block it found with 200 rows replaced, at a second-phase point the block as found. -/
def aftP0 (P : Fin cfg0.N → Vec F S200x16 .f32) (t : Fin cfg0.N) (Y X : Vec F S1000x16 .f32) : Prop :=
  X = if t.val < 50 then rows Y (t.val % 5 * 200) (P t) else Y
/-- The same for an output block filled in the SECOND phase (scores and log-softmax). -/
def aftP1 (P : Fin cfg0.N → Vec F S200x16 .f32) (t : Fin cfg0.N) (Y X : Vec F S1000x16 .f32) : Prop :=
  X = if t.val < 50 then Y else rows Y (t.val % 5 * 200) (P t)

/-- The relation between what the body finds in window `w`'s staging buffer at point `t` and what it leaves there: an
    input as found; an output block with its 200 rows of the point replaced. -/
def aft (c : Dev nD) : (w : Fin cfg0.W) → Fin cfg0.N → (Y X : (cfg0.win w).block.Idx → Elt F (cfg0.win w).elt) → Prop
  | ⟨0, _⟩, _, Y, X => X = Y
  | ⟨1, _⟩, _, Y, X => X = Y
  | ⟨2, _⟩, _, Y, X => X = Y
  | ⟨3, _⟩, _, Y, X => X = Y
  | ⟨4, _⟩, _, Y, X => X = Y
  | ⟨5, _⟩, _, Y, X => X = Y
  | ⟨6, _⟩, _, Y, X => X = Y
  | ⟨7, _⟩, t, Y, X => aftP1 (LG m c) t Y X
  | ⟨8, _⟩, t, Y, X => aftP1 (ZG m c) t Y X
  | ⟨9, _⟩, t, Y, X => aftP1 (LC m c) t Y X
  | ⟨10, _⟩, t, Y, X => aftP1 (ZC m c) t Y X
  | ⟨11, _⟩, t, Y, X => aftP0 (HG m c) t Y X
  | ⟨12, _⟩, t, Y, X => aftP0 (HC m c) t Y X
  | ⟨_ + 13, h⟩, _, _, _ => absurd h (Nat.not_lt.2 (Nat.le_add_left _ _))

/-- The scratch operands: whole scoped buffers of the kernel's own. -/
abbrev scM0 : Memref sig .tc .vmem S10000x16 .f32 := Memref.whole cc0_scratch0
abbrev scM1 : Memref sig .tc .vmem S10000x16 .f32 := Memref.whole cc0_scratch1
abbrev scM2 : Memref sig .tc .vmem S10000x16 .f32 := Memref.whole cc0_scratch2

/-- A support scratch buffer after `n` points: its first `200 · min n 50` rows are the support's. -/
def Upto (G : Vec F S10000x16 .f32) (n : Nat) (v : Vec F S10000x16 .f32) : Prop :=
  ∀ y : S10000x16.Idx, (y 0).val < 200 * min n 50 → v y = G y

/-- The invariant on the scratch buffers before point `n`: before the first point anything; afterwards the first
    layer's support whole in the first buffer, the second layer's supports row by row as far as they have been computed. -/
def PhiS (c : Dev nD) : (n : ℕ) → n ≤ cfg0.N → sProp 𝕄
  | 0, _ => Pipeline.ΦA spec0 c
  | n + 1, _ => iprop(iprop(owns (c : Thread nD τ) scM0 fullShare (S1 m c)
      ∗ (∃ v, ⌜Upto (S2Gf m c) (n + 1) v⌝ ∗ owns (c : Thread nD τ) scM1 fullShare v)
      ∗ (∃ v, ⌜Upto (S2Cf m c) (n + 1) v⌝ ∗ owns (c : Thread nD τ) scM2 fullShare v)) ∗ (∃ r, prngReg c r))

/-- The relational proof data of the one pipeline on core `c`. -/
def rdat (c : Dev nD) : RDat τ (Elt F) Unit ℕ (UR sig nD τ) ℕ cfg0 c where
  A w := V m c (Pipeline.arrRef spec0 w)
  after := aft m c
  Φ t := PhiS m c t.val (Nat.le_of_lt_succ t.isLt)
  q _ := fullShare
  owed _ := 0

end Cert.KernelIdeal.Gen

end
-- ==== Proof.RunA.lean ====
/-
  The kernel body at the grid's first point: it computes the first layer's support `x · W1` into its scratch buffer (whatever the
  buffer held), then does what every first-phase point does with that support.
-/
import proofs.«134387_g28252294873641_cont_9to1_2070_22_alg».proof.Proof.Rows
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

set_option maxHeartbeats 4000000 in
theorem run_A (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1000x16 .f32) (harg9 : arg9.IsWhole) (arg10 : Memref sig .tc .vmem S1000x16 .f32) (harg10 : arg10.IsWhole) (arg11 : Memref sig .tc .vmem S1000x16 .f32) (harg11 : arg11.IsWhole) (arg12 : Memref sig .tc .vmem S1000x16 .f32) (harg12 : arg12.IsWhole) (arg13 : Memref sig .tc .vmem S1000x16 .f32) (harg13 : arg13.IsWhole) (arg14 : Memref sig .tc .vmem S1000x16 .f32) (harg14 : arg14.IsWhole) (arg15 : Memref sig .tc .vmem S10000x16 .f32) (harg15 : arg15.IsWhole) (arg16 : Memref sig .tc .vmem S10000x16 .f32) (harg16 : arg16.IsWhole) (arg17 : Memref sig .tc .vmem S10000x16 .f32) (harg17 : arg17.IsWhole)
    (hc0 : cond1 i) (hc1 : k0_cond2 i = 1#1) (hc2 : ¬k0_cond3 i = 1#1) (o1 o2 : Nat) (ho1 : k0_off1 i = ![o1, 0]) (ho2 : k0_off2 i = ![o2, 0])
    (x0 : Vec F S10000x128 .f32) (x1 x2 : Vec F S200x10000 .f32) (x3 : Vec F S128x16 .f32) (x4 : Vec F S16x16 .f32) (x5 x6 : Vec F S1x16 .f32)
    (y7 y8 y9 y10 y11 y12 : Vec F S1000x16 .f32) (z0 z1 z2 : Vec F S10000x16 .f32)
    (s1 : Vec F S10000x16 .f32) (hs1 : s1 = k0_pay1 x0 x3) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare y7 ∗ owns (c : Thread nD τ) arg10 fullShare y8 ∗ owns (c : Thread nD τ) arg11 fullShare y9 ∗ owns (c : Thread nD τ) arg12 fullShare y10
        ∗ owns (c : Thread nD τ) arg13 fullShare y11 ∗ owns (c : Thread nD τ) arg14 fullShare y12
        ∗ owns (c : Thread nD τ) arg15 fullShare z0 ∗ owns (c : Thread nD τ) arg16 fullShare z1 ∗ owns (c : Thread nD τ) arg17 fullShare z2
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare y7 ∗ owns (c : Thread nD τ) arg10 fullShare y8 ∗ owns (c : Thread nD τ) arg11 fullShare y9 ∗ owns (c : Thread nD τ) arg12 fullShare y10
            ∗ owns (c : Thread nD τ) arg13 fullShare (rows y11 o1 (k0_pay3 s1 x5 x1)) ∗ owns (c : Thread nD τ) arg14 fullShare (rows y12 o1 (k0_pay4 s1 x5 x2))
            ∗ owns (c : Thread nD τ) arg15 fullShare s1
            ∗ owns (c : Thread nD τ) arg16 fullShare (rows z1 o2 (k0_pay5 s1 x5 x1 x4)) ∗ owns (c : Thread nD τ) arg17 fullShare (rows z2 o2 (k0_pay6 s1 x5 x2 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  subst hs1
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  obtain rfl := harg9.eq_unread hf7; obtain rfl := harg10.eq_unread hf8; obtain rfl := harg11.eq_unread hf9; obtain rfl := harg12.eq_unread hf10
  obtain rfl := harg13.eq_unread hf11; obtain rfl := harg14.eq_unread hf12
  obtain rfl := harg15.eq_unread hg0; obtain rfl := harg16.eq_unread hg1; obtain rfl := harg17.eq_unread hg2
  sl_exec (disch := first | exact hc0 | exact hc1 | exact hc2)
  sl_step
  sl_unfold_run_names
  simp only [View.readAt_eq_ld, harg2.read_unread, harg3.read_unread, harg4.read_unread, harg5.read_unread, harg6.read_unread, harg7.read_unread, harg8.read_unread,
    harg15.read_unread, harg16.read_unread, harg17.read_unread,
    View.readCov_unit_zero (S := S10000x16) _ hz, View.ld_unit_zero (S := S10000x128) hz, View.ld_unit_zero (S := S128x16) hz, View.ld_unit_zero (S := S10000x16) hz, View.ld_unit_zero (S := S1x16) hz,
    View.ld_unit_zero (S := S200x10000) hz, View.ld_unit_zero (S := S16x16) hz]
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    · ipureintro; exact harg12.read_unread _
    iexact H10
  isplitl [H11]
  · iexists _; isplitr
    swap
    · iexact H11
    ipureintro; exact read_store_rows arg13 harg13 y11 _ o1 ho1 _ _
  isplitl [H12]
  · iexists _; isplitr
    swap
    · iexact H12
    ipureintro; exact read_store_rows arg14 harg14 y12 _ o1 ho1 _ _
  isplitl [HS0]
  · iexists _; isplitr
    swap
    · iexact HS0
    ipureintro
    rw [View.read_writes_eq_canon _ _ _ (fun y => ⟨_, List.mem_singleton_self _, View.mem_set_unit_zero hz inb_S10000x16_S10000x16_0_0 y⟩), View.canon_unit_zero hz]
  isplitl [HS1]
  · iexists _; isplitr
    swap
    · iexact HS1
    ipureintro; exact read_store_rows arg16 harg16 z1 _ o2 ho2 _ _
  · iexists _; isplitr
    swap
    · iexact HS2
    ipureintro; exact read_store_rows arg17 harg17 z2 _ o2 ho2 _ _

end Cert.KernelIdeal.Gen

end
-- ==== Proof.RunB.lean ====
/-
  The kernel body at a point of the first phase other than the grid's first point: with the first layer's support already in
  its scratch buffer, it stores 200 rows of hidden features into each of the two hidden-feature output blocks and 200 rows of the
  second layer's support into each of the two support scratch buffers; every other buffer is left as it was.
-/
import proofs.«134387_g28252294873641_cont_9to1_2070_22_alg».proof.Proof.Rows
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

set_option maxHeartbeats 4000000 in
theorem run_B (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1000x16 .f32) (harg9 : arg9.IsWhole) (arg10 : Memref sig .tc .vmem S1000x16 .f32) (harg10 : arg10.IsWhole) (arg11 : Memref sig .tc .vmem S1000x16 .f32) (harg11 : arg11.IsWhole) (arg12 : Memref sig .tc .vmem S1000x16 .f32) (harg12 : arg12.IsWhole) (arg13 : Memref sig .tc .vmem S1000x16 .f32) (harg13 : arg13.IsWhole) (arg14 : Memref sig .tc .vmem S1000x16 .f32) (harg14 : arg14.IsWhole) (arg15 : Memref sig .tc .vmem S10000x16 .f32) (harg15 : arg15.IsWhole) (arg16 : Memref sig .tc .vmem S10000x16 .f32) (harg16 : arg16.IsWhole) (arg17 : Memref sig .tc .vmem S10000x16 .f32) (harg17 : arg17.IsWhole)
    (hc0 : ¬cond1 i) (hc1 : k0_cond2 i = 1#1) (hc2 : ¬k0_cond3 i = 1#1) (o1 o2 : Nat) (ho1 : k0_off1 i = ![o1, 0]) (ho2 : k0_off2 i = ![o2, 0])
    (x0 : Vec F S10000x128 .f32) (x1 x2 : Vec F S200x10000 .f32) (x3 : Vec F S128x16 .f32) (x4 : Vec F S16x16 .f32) (x5 x6 : Vec F S1x16 .f32)
    (y7 y8 y9 y10 y11 y12 : Vec F S1000x16 .f32) (z0 z1 z2 : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare y7 ∗ owns (c : Thread nD τ) arg10 fullShare y8 ∗ owns (c : Thread nD τ) arg11 fullShare y9 ∗ owns (c : Thread nD τ) arg12 fullShare y10
        ∗ owns (c : Thread nD τ) arg13 fullShare y11 ∗ owns (c : Thread nD τ) arg14 fullShare y12
        ∗ owns (c : Thread nD τ) arg15 fullShare z0 ∗ owns (c : Thread nD τ) arg16 fullShare z1 ∗ owns (c : Thread nD τ) arg17 fullShare z2
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare y7 ∗ owns (c : Thread nD τ) arg10 fullShare y8 ∗ owns (c : Thread nD τ) arg11 fullShare y9 ∗ owns (c : Thread nD τ) arg12 fullShare y10
            ∗ owns (c : Thread nD τ) arg13 fullShare (rows y11 o1 (k0_pay3 z0 x5 x1)) ∗ owns (c : Thread nD τ) arg14 fullShare (rows y12 o1 (k0_pay4 z0 x5 x2))
            ∗ owns (c : Thread nD τ) arg15 fullShare z0
            ∗ owns (c : Thread nD τ) arg16 fullShare (rows z1 o2 (k0_pay5 z0 x5 x1 x4)) ∗ owns (c : Thread nD τ) arg17 fullShare (rows z2 o2 (k0_pay6 z0 x5 x2 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  obtain rfl := harg9.eq_unread hf7; obtain rfl := harg10.eq_unread hf8; obtain rfl := harg11.eq_unread hf9; obtain rfl := harg12.eq_unread hf10
  obtain rfl := harg13.eq_unread hf11; obtain rfl := harg14.eq_unread hf12
  obtain rfl := harg15.eq_unread hg0; obtain rfl := harg16.eq_unread hg1; obtain rfl := harg17.eq_unread hg2
  sl_exec (disch := first | exact hc0 | exact hc1 | exact hc2)
  sl_step
  simp only [View.readAt_eq_ld, harg2.read_unread, harg3.read_unread, harg4.read_unread, harg5.read_unread, harg6.read_unread, harg7.read_unread, harg8.read_unread,
    harg15.read_unread, harg16.read_unread, harg17.read_unread,
    View.ld_unit_zero (S := S10000x128) hz, View.ld_unit_zero (S := S128x16) hz, View.ld_unit_zero (S := S10000x16) hz, View.ld_unit_zero (S := S1x16) hz,
    View.ld_unit_zero (S := S200x10000) hz, View.ld_unit_zero (S := S16x16) hz]
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    · ipureintro; exact harg12.read_unread _
    iexact H10
  isplitl [H11]
  · iexists _; isplitr
    swap
    · iexact H11
    ipureintro; exact read_store_rows arg13 harg13 y11 _ o1 ho1 _ _
  isplitl [H12]
  · iexists _; isplitr
    swap
    · iexact H12
    ipureintro; exact read_store_rows arg14 harg14 y12 _ o1 ho1 _ _
  isplitl [HS0]
  · iexists _; isplitr
    · ipureintro; exact harg15.read_unread _
    iexact HS0
  isplitl [HS1]
  · iexists _; isplitr
    swap
    · iexact HS1
    ipureintro; exact read_store_rows arg16 harg16 z1 _ o2 ho2 _ _
  · iexists _; isplitr
    swap
    · iexact HS2
    ipureintro; exact read_store_rows arg17 harg17 z2 _ o2 ho2 _ _

end Cert.KernelIdeal.Gen

end
-- ==== Proof.RunC.lean ====
/-
  The kernel body at a point of the second phase: from the two support scratch buffers it stores 200 rows of class scores and of
  their log-softmax into each of the four score output blocks; every other buffer is left as it was.
-/
import proofs.«134387_g28252294873641_cont_9to1_2070_22_alg».proof.Proof.Rows
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

set_option maxHeartbeats 4000000 in
theorem run_C (c : Dev nD) (i : grid0.Coords) (arg2 : Memref sig .tc .vmem S10000x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S128x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S1x16 .f32) (harg8 : arg8.IsWhole) (arg9 : Memref sig .tc .vmem S1000x16 .f32) (harg9 : arg9.IsWhole) (arg10 : Memref sig .tc .vmem S1000x16 .f32) (harg10 : arg10.IsWhole) (arg11 : Memref sig .tc .vmem S1000x16 .f32) (harg11 : arg11.IsWhole) (arg12 : Memref sig .tc .vmem S1000x16 .f32) (harg12 : arg12.IsWhole) (arg13 : Memref sig .tc .vmem S1000x16 .f32) (harg13 : arg13.IsWhole) (arg14 : Memref sig .tc .vmem S1000x16 .f32) (harg14 : arg14.IsWhole) (arg15 : Memref sig .tc .vmem S10000x16 .f32) (harg15 : arg15.IsWhole) (arg16 : Memref sig .tc .vmem S10000x16 .f32) (harg16 : arg16.IsWhole) (arg17 : Memref sig .tc .vmem S10000x16 .f32) (harg17 : arg17.IsWhole)
    (hc0 : ¬cond1 i) (hc1 : ¬k0_cond2 i = 1#1) (hc2 : k0_cond3 i = 1#1) (o3 : Nat) (ho3 : k0_off3 i = ![o3, 0])
    (x0 : Vec F S10000x128 .f32) (x1 x2 : Vec F S200x10000 .f32) (x3 : Vec F S128x16 .f32) (x4 : Vec F S16x16 .f32) (x5 x6 : Vec F S1x16 .f32)
    (y7 y8 y9 y10 y11 y12 : Vec F S1000x16 .f32) (z0 z1 z2 : Vec F S10000x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare y7 ∗ owns (c : Thread nD τ) arg10 fullShare y8 ∗ owns (c : Thread nD τ) arg11 fullShare y9 ∗ owns (c : Thread nD τ) arg12 fullShare y10
        ∗ owns (c : Thread nD τ) arg13 fullShare y11 ∗ owns (c : Thread nD τ) arg14 fullShare y12
        ∗ owns (c : Thread nD τ) arg15 fullShare z0 ∗ owns (c : Thread nD τ) arg16 fullShare z1 ∗ owns (c : Thread nD τ) arg17 fullShare z2
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (rows y7 o3 (k0_pay11 x6 x1 z1)) ∗ owns (c : Thread nD τ) arg10 fullShare (rows y8 o3 (k0_pay9 x6 x1 z1))
            ∗ owns (c : Thread nD τ) arg11 fullShare (rows y9 o3 (k0_pay12 x6 x2 z2)) ∗ owns (c : Thread nD τ) arg12 fullShare (rows y10 o3 (k0_pay10 x6 x2 z2))
            ∗ owns (c : Thread nD τ) arg13 fullShare y11 ∗ owns (c : Thread nD τ) arg14 fullShare y12
            ∗ owns (c : Thread nD τ) arg15 fullShare z0 ∗ owns (c : Thread nD τ) arg16 fullShare z1 ∗ owns (c : Thread nD τ) arg17 fullShare z2) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg8.eq_unread hf6
  obtain rfl := harg9.eq_unread hf7; obtain rfl := harg10.eq_unread hf8; obtain rfl := harg11.eq_unread hf9; obtain rfl := harg12.eq_unread hf10
  obtain rfl := harg13.eq_unread hf11; obtain rfl := harg14.eq_unread hf12
  obtain rfl := harg15.eq_unread hg0; obtain rfl := harg16.eq_unread hg1; obtain rfl := harg17.eq_unread hg2
  sl_exec (disch := first | exact hc0 | exact hc1 | exact hc2)
  sl_step
  simp only [View.readAt_eq_ld, harg2.read_unread, harg3.read_unread, harg4.read_unread, harg5.read_unread, harg6.read_unread, harg7.read_unread, harg8.read_unread,
    harg15.read_unread, harg16.read_unread, harg17.read_unread,
    View.ld_unit_zero (S := S10000x128) hz, View.ld_unit_zero (S := S128x16) hz, View.ld_unit_zero (S := S10000x16) hz, View.ld_unit_zero (S := S1x16) hz,
    View.ld_unit_zero (S := S200x10000) hz, View.ld_unit_zero (S := S16x16) hz]
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    swap
    · iexact H7
    ipureintro; exact read_store_rows arg9 harg9 y7 _ o3 ho3 _ _
  isplitl [H8]
  · iexists _; isplitr
    swap
    · iexact H8
    ipureintro; exact read_store_rows arg10 harg10 y8 _ o3 ho3 _ _
  isplitl [H9]
  · iexists _; isplitr
    swap
    · iexact H9
    ipureintro; exact read_store_rows arg11 harg11 y9 _ o3 ho3 _ _
  isplitl [H10]
  · iexists _; isplitr
    swap
    · iexact H10
    ipureintro; exact read_store_rows arg12 harg12 y10 _ o3 ho3 _ _
  isplitl [H11]
  · iexists _; isplitr
    · ipureintro; exact harg13.read_unread _
    iexact H11
  isplitl [H12]
  · iexists _; isplitr
    · ipureintro; exact harg14.read_unread _
    iexact H12
  isplitl [HS0]
  · iexists _; isplitr
    · ipureintro; exact harg15.read_unread _
    iexact HS0
  isplitl [HS1]
  · iexists _; isplitr
    · ipureintro; exact harg16.read_unread _
    iexact HS1
  · iexists _; isplitr
    · ipureintro; exact harg17.read_unread _
    iexact HS2

end Cert.KernelIdeal.Gen

end
-- ==== Proof.Oblig.lean ====
/-
  The body obligation: at every grid point, from what the body may find in its staging buffers and the scratch invariant before
  the point, the kernel body runs to the invariant after the point, each input buffer as it found it and each output block
  with the point's 200 rows replaced. Three cases: the grid's first point (which also computes the first layer's support),
  the other points of the first phase, the points of the second phase.
-/
import proofs.«134387_g28252294873641_cont_9to1_2070_22_alg».proof.Proof.Data
import proofs.«134387_g28252294873641_cont_9to1_2070_22_alg».proof.Proof.RunA
import proofs.«134387_g28252294873641_cont_9to1_2070_22_alg».proof.Proof.RunB
import proofs.«134387_g28252294873641_cont_9to1_2070_22_alg».proof.Proof.RunC
import Idealize.ShloMosaic.Lib.Pipeline.FrameBody

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The schedule, decided over the grid -/

/-- The first conditional is taken at the first point only; the second through the first phase; the third through the second. -/
theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val < 50 :=
  (by decide +kernel : ∀ t : Fin grid0.N, k0_cond2 (grid0.coords t) = 1#1 ↔ t.val < 50)
theorem hcond3 : ∀ t : Fin cfg0.N, k0_cond3 (grid0.coords t) = 1#1 ↔ 50 ≤ t.val :=
  (by decide +kernel : ∀ t : Fin grid0.N, k0_cond3 (grid0.coords t) = 1#1 ↔ 50 ≤ t.val)

/-- The row offsets the body computes: `200 (t mod 5)` into an output block, `200 (t mod 50)` into a support scratch. -/
theorem hoff1 : ∀ t : Fin cfg0.N, k0_off1 (grid0.coords t) 0 = t.val % 5 * 200 ∧ k0_off1 (grid0.coords t) 1 = 0 :=
  (by decide +kernel : ∀ t : Fin grid0.N, k0_off1 (grid0.coords t) 0 = t.val % 5 * 200 ∧ k0_off1 (grid0.coords t) 1 = 0)
theorem hoff2 : ∀ t : Fin cfg0.N, k0_off2 (grid0.coords t) 0 = t.val % 50 * 200 ∧ k0_off2 (grid0.coords t) 1 = 0 :=
  (by decide +kernel : ∀ t : Fin grid0.N, k0_off2 (grid0.coords t) 0 = t.val % 50 * 200 ∧ k0_off2 (grid0.coords t) 1 = 0)
theorem hoff3 : ∀ t : Fin cfg0.N, k0_off3 (grid0.coords t) 0 = t.val % 5 * 200 ∧ k0_off3 (grid0.coords t) 1 = 0 :=
  (by decide +kernel : ∀ t : Fin grid0.N, k0_off3 (grid0.coords t) 0 = t.val % 5 * 200 ∧ k0_off3 (grid0.coords t) 1 = 0)

theorem off1_eq (t : Fin cfg0.N) : k0_off1 (grid0.coords t) = ![t.val % 5 * 200, 0] :=
  funext fun a => match a with | ⟨0, _⟩ => (hoff1 t).1 | ⟨1, _⟩ => (hoff1 t).2
theorem off2_eq (t : Fin cfg0.N) (ht : t.val < 50) : k0_off2 (grid0.coords t) = ![t.val * 200, 0] :=
  funext fun a => match a with
    | ⟨0, _⟩ => (hoff2 t).1.trans (by rw [Nat.mod_eq_of_lt ht]; rfl)
    | ⟨1, _⟩ => (hoff2 t).2
theorem off3_eq (t : Fin cfg0.N) : k0_off3 (grid0.coords t) = ![t.val % 5 * 200, 0] :=
  funext fun a => match a with | ⟨0, _⟩ => (hoff3 t).1 | ⟨1, _⟩ => (hoff3 t).2

/-! ## The inputs: every staging buffer of an input holds its block -/

theorem finds_in0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds_in1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl
theorem finds_in2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rfl
theorem finds_in3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rfl
theorem finds_in4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rfl
theorem finds_in5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold RDat.fetched RDat.blockOf iblk; rfl
theorem finds_in6 (c : Dev nD) (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  unfold RDat.fetched RDat.blockOf iblk; rfl

/-! ## The relations at the points of each phase -/

theorem aftP0_first (P : Fin cfg0.N → Vec F S200x16 .f32) (t : Fin cfg0.N) (ht : t.val < 50) (Y : Vec F S1000x16 .f32) :
    aftP0 P t Y (rows Y (t.val % 5 * 200) (P t)) := by unfold aftP0; rw [if_pos ht]
theorem aftP0_second (P : Fin cfg0.N → Vec F S200x16 .f32) (t : Fin cfg0.N) (ht : ¬t.val < 50) (Y : Vec F S1000x16 .f32) :
    aftP0 P t Y Y := by unfold aftP0; rw [if_neg ht]
theorem aftP1_first (P : Fin cfg0.N → Vec F S200x16 .f32) (t : Fin cfg0.N) (ht : t.val < 50) (Y : Vec F S1000x16 .f32) :
    aftP1 P t Y Y := by unfold aftP1; rw [if_pos ht]
theorem aftP1_second (P : Fin cfg0.N → Vec F S200x16 .f32) (t : Fin cfg0.N) (ht : ¬t.val < 50) (Y : Vec F S1000x16 .f32) :
    aftP1 P t Y (rows Y (t.val % 5 * 200) (P t)) := by unfold aftP1; rw [if_neg ht]

/-! ## The support scratch, row by row -/

/-- One more first-phase point: the support's rows `200 t … 200 t + 199` stored over a buffer right up to row `200 t`. -/
theorem upto_rows (G : Vec F S10000x16 .f32) (P : Fin cfg0.N → Vec F S200x16 .f32)
    (hG : ∀ y : S10000x16.Idx, G y = P (pt ((y 0).val / 200) (by have := idx2_lt0 (n0 := 10000) (n1 := 16) y; omega))
      (ix2 (⟨(y 0).val % 200, Nat.mod_lt _ (by omega)⟩ : Fin 200) (⟨(y 1).val, (y 1).isLt⟩ : Fin 16)))
    (t : Fin cfg0.N) (ht : t.val < 50) (v : Vec F S10000x16 .f32) (hv : Upto G t.val v) :
    Upto G (t.val + 1) (rows v (t.val * 200) (P t)) := by
  intro y hy
  have hm : min (t.val + 1) 50 = t.val + 1 := by omega
  rw [hm] at hy
  by_cases h : t.val * 200 ≤ (y 0).val ∧ (y 0).val < t.val * 200 + 200
  · rw [rows_of_mem _ _ _ _ h, hG y]
    have e1 : (y 0).val / 200 = t.val := by omega
    have e2 : (y 0).val % 200 = (y 0).val - t.val * 200 := by omega
    congr 1
    · exact Fin.ext e1.symm
    · exact congrArg (fun a => ix2 a _) (Fin.ext e2.symm)
  · rw [rows_of_not_mem _ _ _ _ h]
    exact hv y (by have hm' : min t.val 50 = t.val := by omega
                   rw [hm']; omega)

/-- Past the first phase the support is complete. -/
theorem upto_full (G : Vec F S10000x16 .f32) (n : Nat) (hn : 50 ≤ n) (v : Vec F S10000x16 .f32) (hv : Upto G n v) : v = G :=
  funext fun y => hv y (by have := idx2_lt0 (n0 := 10000) (n1 := 16) y
                           have hm : min n 50 = 50 := by omega
                           rw [hm]; omega)
theorem upto_self (G : Vec F S10000x16 .f32) (n : Nat) : Upto G n G := fun _ _ => rfl

/-! ## The invariant, unfolded -/

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

theorem PhiS_pos (c : Dev nD) (n : ℕ) (h : n ≤ cfg0.N) (hz : n ≠ 0) :
    PhiS m c n h = iprop(iprop(owns (c : Thread nD τ) scM0 fullShare (S1 m c)
      ∗ (∃ v, ⌜Upto (S2Gf m c) n v⌝ ∗ owns (c : Thread nD τ) scM1 fullShare v)
      ∗ (∃ v, ⌜Upto (S2Cf m c) n v⌝ ∗ owns (c : Thread nD τ) scM2 fullShare v)) ∗ (∃ r, prngReg c r)) := by
  cases n with
  | zero => exact absurd rfl hz
  | succ n => rfl

theorem PhiS_zero (c : Dev nD) (n : ℕ) (h : n ≤ cfg0.N) (hz : n = 0) : PhiS m c n h = Pipeline.ΦA spec0 c := by
  subst hz; rfl

/-- The first layer's support, read off the blocks of `x` and `W1` at the first point. -/
theorem S1_eq (c : Dev nD) (t : Fin cfg0.N) (h0 : t.val = 0) : S1 m c = k0_pay1 (iblk m c 0 t) (iblk m c 3 t) := by
  obtain rfl : t = pt 0 (by decide) := Fin.ext h0
  rfl

theorem Phi_castSucc (c : Dev nD) (t : Fin cfg0.N) : (rdat m c).Φ t.castSucc = PhiS m c t.val (Nat.le_of_lt t.isLt) := by
  dsimp only [rdat]; simp only [Fin.coe_castSucc]

/-! ## The body at a generic point -/

/-- What the body is called with at point `t`, the windows one by one, each staging buffer at contents it may hold, -/
def bodyPreR (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) ((cfg0.win 0).stage (cfg0.slots t 0)) fullShare (Y 0)
    ∗ owns (c : Thread nD τ) ((cfg0.win 1).stage (cfg0.slots t 1)) fullShare (Y 1)
    ∗ owns (c : Thread nD τ) ((cfg0.win 2).stage (cfg0.slots t 2)) fullShare (Y 2)
    ∗ owns (c : Thread nD τ) ((cfg0.win 3).stage (cfg0.slots t 3)) fullShare (Y 3)
    ∗ owns (c : Thread nD τ) ((cfg0.win 4).stage (cfg0.slots t 4)) fullShare (Y 4)
    ∗ owns (c : Thread nD τ) ((cfg0.win 5).stage (cfg0.slots t 5)) fullShare (Y 5)
    ∗ owns (c : Thread nD τ) ((cfg0.win 6).stage (cfg0.slots t 6)) fullShare (Y 6)
    ∗ owns (c : Thread nD τ) ((cfg0.win 7).stage (cfg0.slots t 7)) fullShare (Y 7)
    ∗ owns (c : Thread nD τ) ((cfg0.win 8).stage (cfg0.slots t 8)) fullShare (Y 8)
    ∗ owns (c : Thread nD τ) ((cfg0.win 9).stage (cfg0.slots t 9)) fullShare (Y 9)
    ∗ owns (c : Thread nD τ) ((cfg0.win 10).stage (cfg0.slots t 10)) fullShare (Y 10)
    ∗ owns (c : Thread nD τ) ((cfg0.win 11).stage (cfg0.slots t 11)) fullShare (Y 11)
    ∗ owns (c : Thread nD τ) ((cfg0.win 12).stage (cfg0.slots t 12)) fullShare (Y 12))

/-- and what it returns: each buffer at contents related to what it was handed. -/
def bodyPostR (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) ((cfg0.win 0).stage (cfg0.slots t 0)) fullShare X)
    ∗ (∃ X, ⌜(rdat m c).after 1 t (Y 1) X⌝ ∗ owns (c : Thread nD τ) ((cfg0.win 1).stage (cfg0.slots t 1)) fullShare X)
    ∗ (∃ X, ⌜(rdat m c).after 2 t (Y 2) X⌝ ∗ owns (c : Thread nD τ) ((cfg0.win 2).stage (cfg0.slots t 2)) fullShare X)
    ∗ (∃ X, ⌜(rdat m c).after 3 t (Y 3) X⌝ ∗ owns (c : Thread nD τ) ((cfg0.win 3).stage (cfg0.slots t 3)) fullShare X)
    ∗ (∃ X, ⌜(rdat m c).after 4 t (Y 4) X⌝ ∗ owns (c : Thread nD τ) ((cfg0.win 4).stage (cfg0.slots t 4)) fullShare X)
    ∗ (∃ X, ⌜(rdat m c).after 5 t (Y 5) X⌝ ∗ owns (c : Thread nD τ) ((cfg0.win 5).stage (cfg0.slots t 5)) fullShare X)
    ∗ (∃ X, ⌜(rdat m c).after 6 t (Y 6) X⌝ ∗ owns (c : Thread nD τ) ((cfg0.win 6).stage (cfg0.slots t 6)) fullShare X)
    ∗ (∃ X, ⌜(rdat m c).after 7 t (Y 7) X⌝ ∗ owns (c : Thread nD τ) ((cfg0.win 7).stage (cfg0.slots t 7)) fullShare X)
    ∗ (∃ X, ⌜(rdat m c).after 8 t (Y 8) X⌝ ∗ owns (c : Thread nD τ) ((cfg0.win 8).stage (cfg0.slots t 8)) fullShare X)
    ∗ (∃ X, ⌜(rdat m c).after 9 t (Y 9) X⌝ ∗ owns (c : Thread nD τ) ((cfg0.win 9).stage (cfg0.slots t 9)) fullShare X)
    ∗ (∃ X, ⌜(rdat m c).after 10 t (Y 10) X⌝ ∗ owns (c : Thread nD τ) ((cfg0.win 10).stage (cfg0.slots t 10)) fullShare X)
    ∗ (∃ X, ⌜(rdat m c).after 11 t (Y 11) X⌝ ∗ owns (c : Thread nD τ) ((cfg0.win 11).stage (cfg0.slots t 11)) fullShare X)
    ∗ (∃ X, ⌜(rdat m c).after 12 t (Y 12) X⌝ ∗ owns (c : Thread nD τ) ((cfg0.win 12).stage (cfg0.slots t 12)) fullShare X))

set_option maxHeartbeats 8000000 in
theorem sound_body (c : Dev nD) (t : Fin cfg0.N) (Y : (w : Fin cfg0.W) → (cfg0.win w).block.Idx → Elt F (cfg0.win w).elt)
    (hY : ∀ w, (rdat m c).Finds w t (Y w)) :
    bodyPreR m c t Y ⊢ wp frame (wpE (defs₀ (F := F)) Variants.none c none) Set.univ (bodyAt0 t) (fun _ => bodyPostR m c t Y) := by
  have e0 := finds_in0 m c t _ (hY 0)
  have e1 := finds_in1 m c t _ (hY 1)
  have e2 := finds_in2 m c t _ (hY 2)
  have e3 := finds_in3 m c t _ (hY 3)
  have e4 := finds_in4 m c t _ (hY 4)
  have e5 := finds_in5 m c t _ (hY 5)
  have e6 := finds_in6 m c t _ (hY 6)
  unfold bodyPreR bodyPostR bodyAt0
  rw [e0, e1, e2, e3, e4, e5, e6]
  rw [show (rdat m c).owesAt () t.succ = (rdat m c).owesAt () t.castSucc from rfl]
  rw [show (rdat m c).Φ t.succ = PhiS m c (t.val + 1) t.isLt from rfl, Phi_castSucc]
  have hN := pt_lt t
  by_cases ht : t.val < 50
  · have hc1 := (hcond2 t).mpr ht
    have hc2 : ¬k0_cond3 (grid0.coords t) = 1#1 := fun h => by have := (hcond3 t).mp h; omega
    by_cases h0 : t.val = 0
    · have hc0 := (hcond1 t).mpr h0
      rw [PhiS_zero m c t.val _ h0, PhiA0_eq]
      rw [show PhiS m c (t.val + 1) t.isLt = _ from PhiS_pos m c _ _ (by omega)]
      iintro ⟨⟨⟨⟨%d0, HS0⟩, ⟨%d1, HS1⟩, ⟨%d2, HS2⟩⟩, Hg⟩, Ho, H0, H1, H2, H3, H4, H5, H6, H7, H8, H9, H10, H11, H12⟩
      iapply (run_A c (grid0.coords t) _ _ _ _ _ _ _ _ _ _ _ _ _ _ _ _ _ _ _ _ _ _ _ _ _ _ _ _ _ _ _ _ hc0 hc1 hc2 _ _ (off1_eq _) (off2_eq _ ht) (iblk m c 0 t) (iblk m c 1 t) (iblk m c 2 t) (iblk m c 3 t) (iblk m c 4 t) (iblk m c 5 t) (iblk m c 6 t) (Y 7) (Y 8) (Y 9) (Y 10) (Y 11) (Y 12) d0 d1 d2 (S1 m c) (S1_eq m c t h0) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      isplitl [HS2]; · iexact HS2
      iintro ⟨H0, H1, H2, H3, H4, H5, H6, H7, H8, H9, H10, H11, H12, HS0, HS1, HS2⟩
      isplitl [HS0 HS1 HS2 Hg]
      · isplitl [HS0 HS1 HS2]
        · isplitl [HS0]; · iexact HS0
          isplitl [HS1]
          · iexists _; isplitr
            · ipureintro; exact upto_rows (S2Gf m c) (S2G m c) (fun _ => rfl) _ ht d1 (fun _ hy => absurd hy (by rw [h0]; simp))
            iexact HS1
          · iexists _; isplitr
            · ipureintro; exact upto_rows (S2Cf m c) (S2C m c) (fun _ => rfl) _ ht d2 (fun _ hy => absurd hy (by rw [h0]; simp))
            iexact HS2
        · iexact Hg
      isplitl [Ho]; · iexact Ho
      isplitl [H0]
      · iexists _; isplitr
        · ipureintro; exact rfl
        iexact H0
      isplitl [H1]
      · iexists _; isplitr
        · ipureintro; exact rfl
        iexact H1
      isplitl [H2]
      · iexists _; isplitr
        · ipureintro; exact rfl
        iexact H2
      isplitl [H3]
      · iexists _; isplitr
        · ipureintro; exact rfl
        iexact H3
      isplitl [H4]
      · iexists _; isplitr
        · ipureintro; exact rfl
        iexact H4
      isplitl [H5]
      · iexists _; isplitr
        · ipureintro; exact rfl
        iexact H5
      isplitl [H6]
      · iexists _; isplitr
        · ipureintro; exact rfl
        iexact H6
      isplitl [H7]
      · iexists _; isplitr
        · ipureintro; exact aftP1_first _ t ht _
        iexact H7
      isplitl [H8]
      · iexists _; isplitr
        · ipureintro; exact aftP1_first _ t ht _
        iexact H8
      isplitl [H9]
      · iexists _; isplitr
        · ipureintro; exact aftP1_first _ t ht _
        iexact H9
      isplitl [H10]
      · iexists _; isplitr
        · ipureintro; exact aftP1_first _ t ht _
        iexact H10
      isplitl [H11]
      · iexists _; isplitr
        · ipureintro; exact aftP0_first _ t ht _
        iexact H11
      · iexists _; isplitr
        · ipureintro; exact aftP0_first _ t ht _
        iexact H12
    · have hc0 : ¬cond1 (grid0.coords t) := fun h => h0 ((hcond1 t).mp h)
      rw [PhiS_pos m c t.val _ h0, show PhiS m c (t.val + 1) t.isLt = _ from PhiS_pos m c _ _ (by omega)]
      iintro ⟨⟨⟨HS0, ⟨%v1, %hv1, HS1⟩, ⟨%v2, %hv2, HS2⟩⟩, Hg⟩, Ho, H0, H1, H2, H3, H4, H5, H6, H7, H8, H9, H10, H11, H12⟩
      iapply (run_B c (grid0.coords t) _ _ _ _ _ _ _ _ _ _ _ _ _ _ _ _ _ _ _ _ _ _ _ _ _ _ _ _ _ _ _ _ hc0 hc1 hc2 _ _ (off1_eq _) (off2_eq _ ht) (iblk m c 0 t) (iblk m c 1 t) (iblk m c 2 t) (iblk m c 3 t) (iblk m c 4 t) (iblk m c 5 t) (iblk m c 6 t) (Y 7) (Y 8) (Y 9) (Y 10) (Y 11) (Y 12) (S1 m c) v1 v2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      isplitl [HS2]; · iexact HS2
      iintro ⟨H0, H1, H2, H3, H4, H5, H6, H7, H8, H9, H10, H11, H12, HS0, HS1, HS2⟩
      isplitl [HS0 HS1 HS2 Hg]
      · isplitl [HS0 HS1 HS2]
        · isplitl [HS0]; · iexact HS0
          isplitl [HS1]
          · iexists _; isplitr
            · ipureintro; exact upto_rows (S2Gf m c) (S2G m c) (fun _ => rfl) t ht v1 hv1
            iexact HS1
          · iexists _; isplitr
            · ipureintro; exact upto_rows (S2Cf m c) (S2C m c) (fun _ => rfl) t ht v2 hv2
            iexact HS2
        · iexact Hg
      isplitl [Ho]; · iexact Ho
      isplitl [H0]
      · iexists _; isplitr
        · ipureintro; exact rfl
        iexact H0
      isplitl [H1]
      · iexists _; isplitr
        · ipureintro; exact rfl
        iexact H1
      isplitl [H2]
      · iexists _; isplitr
        · ipureintro; exact rfl
        iexact H2
      isplitl [H3]
      · iexists _; isplitr
        · ipureintro; exact rfl
        iexact H3
      isplitl [H4]
      · iexists _; isplitr
        · ipureintro; exact rfl
        iexact H4
      isplitl [H5]
      · iexists _; isplitr
        · ipureintro; exact rfl
        iexact H5
      isplitl [H6]
      · iexists _; isplitr
        · ipureintro; exact rfl
        iexact H6
      isplitl [H7]
      · iexists _; isplitr
        · ipureintro; exact aftP1_first _ t ht _
        iexact H7
      isplitl [H8]
      · iexists _; isplitr
        · ipureintro; exact aftP1_first _ t ht _
        iexact H8
      isplitl [H9]
      · iexists _; isplitr
        · ipureintro; exact aftP1_first _ t ht _
        iexact H9
      isplitl [H10]
      · iexists _; isplitr
        · ipureintro; exact aftP1_first _ t ht _
        iexact H10
      isplitl [H11]
      · iexists _; isplitr
        · ipureintro; exact aftP0_first _ t ht _
        iexact H11
      · iexists _; isplitr
        · ipureintro; exact aftP0_first _ t ht _
        iexact H12
  · have hc0 : ¬cond1 (grid0.coords t) := fun h => by have := (hcond1 t).mp h; omega
    have hc1 : ¬k0_cond2 (grid0.coords t) = 1#1 := fun h => ht ((hcond2 t).mp h)
    have hc2 := (hcond3 t).mpr (by omega : 50 ≤ t.val)
    rw [PhiS_pos m c t.val _ (by omega), show PhiS m c (t.val + 1) t.isLt = _ from PhiS_pos m c _ _ (by omega)]
    iintro ⟨⟨⟨HS0, ⟨%v1, %hv1, HS1⟩, ⟨%v2, %hv2, HS2⟩⟩, Hg⟩, Ho, H0, H1, H2, H3, H4, H5, H6, H7, H8, H9, H10, H11, H12⟩
    obtain rfl := upto_full _ _ (by omega) v1 hv1
    obtain rfl := upto_full _ _ (by omega) v2 hv2
    iapply (run_C c (grid0.coords t) _ _ _ _ _ _ _ _ _ _ _ _ _ _ _ _ _ _ _ _ _ _ _ _ _ _ _ _ _ _ _ _ hc0 hc1 hc2 _ (off3_eq _) (iblk m c 0 t) (iblk m c 1 t) (iblk m c 2 t) (iblk m c 3 t) (iblk m c 4 t) (iblk m c 5 t) (iblk m c 6 t) (Y 7) (Y 8) (Y 9) (Y 10) (Y 11) (Y 12) (S1 m c) (S2Gf m c) (S2Cf m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]; · iexact HS0
        isplitl [HS1]
        · iexists _; isplitr
          · ipureintro; exact upto_self _ _
          iexact HS1
        · iexists _; isplitr
          · ipureintro; exact upto_self _ _
          iexact HS2
      · iexact Hg
    isplitl [Ho]; · iexact Ho
    isplitl [H0]
    · iexists _; isplitr
      · ipureintro; exact rfl
      iexact H0
    isplitl [H1]
    · iexists _; isplitr
      · ipureintro; exact rfl
      iexact H1
    isplitl [H2]
    · iexists _; isplitr
      · ipureintro; exact rfl
      iexact H2
    isplitl [H3]
    · iexists _; isplitr
      · ipureintro; exact rfl
      iexact H3
    isplitl [H4]
    · iexists _; isplitr
      · ipureintro; exact rfl
      iexact H4
    isplitl [H5]
    · iexists _; isplitr
      · ipureintro; exact rfl
      iexact H5
    isplitl [H6]
    · iexists _; isplitr
      · ipureintro; exact rfl
      iexact H6
    isplitl [H7]
    · iexists _; isplitr
      · ipureintro; exact aftP1_second _ t ht _
      iexact H7
    isplitl [H8]
    · iexists _; isplitr
      · ipureintro; exact aftP1_second _ t ht _
      iexact H8
    isplitl [H9]
    · iexists _; isplitr
      · ipureintro; exact aftP1_second _ t ht _
      iexact H9
    isplitl [H10]
    · iexists _; isplitr
      · ipureintro; exact aftP1_second _ t ht _
      iexact H10
    isplitl [H11]
    · iexists _; isplitr
      · ipureintro; exact aftP0_second _ t ht _
      iexact H11
    · iexists _; isplitr
      · ipureintro; exact aftP0_second _ t ht _
      iexact H12

/-- The library's body obligation, at every point. -/
theorem body_obligation (c : Dev nD) : (rdat (F := F) m c).BodyObligation (defs₀ (F := F)) Variants.none () Set.univ := fun t Y hY => by
  rw [bigSep_W0, bigSep_W0]
  exact sound_body m c t Y hY

end Cert.KernelIdeal.Gen

end
-- ==== Proof.RunMain.lean ====
/-
  The run: with the body obligation met at every point, the pipelined program runs to the end on every fair schedule, nothing
  faults, every argument array ends as it was launched, and every output array ends at contents the relational proof data allows.
-/
import proofs.«134387_g28252294873641_cont_9to1_2070_22_alg».proof.Proof.Oblig
import Idealize.ShloMosaic.Lib.Pipeline.Cells

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (rdat m c).Φ 0 := by
  rw [show (rdat m c).Φ 0 = PhiS m c 0 (Nat.zero_le _) from rfl, PhiS_zero m c 0 _ rfl]

/-- After the last point the invariant gives the scratch buffers back, their contents forgotten. -/
theorem hout (c : Dev nD) : (rdat m c).Φ (Fin.last cfg0.N) ⊢ Pipeline.ΦA spec0 c := by
  rw [show (rdat m c).Φ (Fin.last cfg0.N) = PhiS m c (Fin.last cfg0.N).val (Nat.le_of_lt_succ (Fin.last cfg0.N).isLt) from rfl,
    PhiS_pos m c _ _ (by rw [Fin.val_last]; have : cfg0.N = 100 := N_0; omega), PhiA0_eq]
  iintro ⟨⟨HS0, ⟨%v1, -, HS1⟩, ⟨%v2, -, HS2⟩⟩, Hg⟩
  isplitl [HS0 HS1 HS2]
  · isplitl [HS0]; · iexists _; iexact HS0
    isplitl [HS1]; · iexists _; iexact HS1
    · iexists _; iexact HS2
  iexact Hg

set_option backward.isDefEq.respectTransparency.types false in
/-- Every weakly fair execution of @main terminates, and every final state has every array of the pipeline at contents the
    proof data allows after every write-back and every other unscoped buffer at its region-entry contents. -/
theorem run_main : θ_run defs (onTc (τ := τ) (main (F := F))) (s₀ m ρ) (Pipeline.RDat.FramePost (cfgs 0) (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hin := hin m) (hout := hout m)

/-- An input window's array ends as the region found it. -/
theorem arr_in (c : Dev nD) (w : Fin cfg0.W) (hw : (cfg0.win w).isOut = false) (A) (h : (rdat m c).ArrAt w cfg0.N A) :
    A = V m c (Pipeline.arrRef spec0 w) := by
  rw [(rdat m c).ArrAt_in w hw] at h; exact h

/-- The run with everything the claims read: the six output arrays at contents the proof data allows, the seven argument arrays
    as launched. -/
theorem run_all : θ_run defs (onTc (τ := τ) (main (F := F))) ⟨m, fun _ => 0, ρ⟩ (fun r => ∀ c : Dev nD,
      ((rdat m c).ArrAt 7 cfg0.N (r.2.mem ((c.tc : Thread nD τ).loc main_v2_0))
      ∧ (rdat m c).ArrAt 8 cfg0.N (r.2.mem ((c.tc : Thread nD τ).loc main_v2_1))
      ∧ (rdat m c).ArrAt 9 cfg0.N (r.2.mem ((c.tc : Thread nD τ).loc main_v2_2))
      ∧ (rdat m c).ArrAt 10 cfg0.N (r.2.mem ((c.tc : Thread nD τ).loc main_v2_3))
      ∧ (rdat m c).ArrAt 11 cfg0.N (r.2.mem ((c.tc : Thread nD τ).loc main_v2_4))
      ∧ (rdat m c).ArrAt 12 cfg0.N (r.2.mem ((c.tc : Thread nD τ).loc main_v2_5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨⟨(h c).1 7, (h c).1 8, (h c).1 9, (h c).1 10, (h c).1 11, (h c).1 12⟩,
      (arr_in m c 0 rfl _ ((h c).1 0)).trans (V_main_arg0 m c),
      (arr_in m c 1 rfl _ ((h c).1 1)).trans (V_main_arg1 m c),
      (arr_in m c 2 rfl _ ((h c).1 2)).trans (V_main_arg2 m c),
      (arr_in m c 3 rfl _ ((h c).1 3)).trans (V_main_arg3 m c),
      ((h c).2 main_arg4 (Pipeline.mem_restRefs_of main_arg4 (by decide) (by decide))).trans (V_main_arg4 m c),
      (arr_in m c 4 rfl _ ((h c).1 4)).trans (V_main_arg5 m c),
      ((h c).2 main_arg6 (Pipeline.mem_restRefs_of main_arg6 (by decide) (by decide))).trans (V_main_arg6 m c)⟩) (run_main m ρ)

/-- THE FRAME: the program runs, nothing faults, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_all m ρ)

end Cert.KernelIdeal.Gen

end
-- ==== Proof.Final.lean ====
/-
  The output arrays after the run, row by row.

  Each of the six output arrays (10000 rows of 16 entries) is written through a window of 1000-row blocks that the body
  fills 200 rows per grid point: the hidden features in the first phase (points 0 … 49; point `t` writes rows
  `200 (t mod 5) …` of block `t / 5`), the scores and their log-softmax in the second (points 50 … 99; point `50 + i`
  writes rows `200 (i mod 5) …` of block `i / 5`). A block is written back to its array when the window moves on — after
  every fifth point of the phase that fills it — and, for the hidden features, whose window stays parked on the last block
  through the second phase, once more at the last point with the same contents.

  Nothing names what a staging buffer holds at a point: the proof data only RELATES what the body finds there to what
  it leaves (the point's 200 rows replaced, or nothing changed). So the arrays are read in three steps. First, whatever
  each write-back wrote, if it is always that block of ONE function of the array's index, the array ends as that function
  (an induction over the write-backs). Second, by induction over the points, the rows of the current block written so
  far hold their values — the point's own stripe by what the body leaves, the earlier stripes because the buffer was
  found as the point before left it, no write-back falling inside a block. Third, at a point that writes the block back
  all 1000 rows are written, and the blocks written back tile the 10000 rows.
-/
import proofs.«134387_g28252294873641_cont_9to1_2070_22_alg».proof.Proof.Data
import Idealize.ShloMosaic.Lib.Pipeline.Value
import Idealize.ShloMosaic.Lib.Pipeline.Cells
import Idealize.ShloMosaic.Lib.Pipeline.FrameBody

set_option maxRecDepth 16384

noncomputable section

namespace Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.Sem
open Idealize.ShloMosaic.Pipeline (Dat RDat Cfg Window cellOf)

variable {F : FTy → Type} [FloatOps F]

/-! ## The array after the write-backs, from what each write-back may have written

A window's array after the write-backs below a point is its entry contents overwritten, in point order, at each
written-back block by the moved part of SOME contents the body may have left in the staging buffer there. If
whatever the body may have left at a writing point is, on the moved part, that block of one whole-array function
`G`, then every index under a written-back block reads `G` afterwards — a later write-back that covers it again
writes the same value, an earlier one is overwritten — and if the blocks cover the array, the array is `G`. -/

section Arr

variable {c : Dev nD} (rd : RDat τ (Elt F) Unit ℕ (UR sig nD τ) ℕ cfg0 c) (w : Fin cfg0.W)

/-- An index under the block written back at a point below `n` reads `G` after the write-backs below `n`. -/
theorem arrAt_apply_of_leaves (G : Buf (Elt F) ((cfg0.win w).arr.view.loc (c.tc : Thread nD τ)))
    (hG : ∀ t X, (cfg0.win w).flush t = true → rd.Leaves w t X →
      (cfg0.win w).cut (cfg0.grid.coords t) X = ((cfg0.win w).blk t).view.read (Elt F) G) :
    ∀ (n : Nat) (t : Fin cfg0.N) (i : ((cfg0.win w).arr.view.loc (c.tc : Thread nD τ)).2.ty.Idx)
      (A : Buf (Elt F) ((cfg0.win w).arr.view.loc (c.tc : Thread nD τ))),
      t.val < n → (cfg0.win w).flush t = true → i ∈ ((cfg0.win w).blk t).view.set → rd.ArrAt w n A → A i = G i
  | 0, _, _, _, ht, _, _, _ => absurd ht (Nat.not_lt_zero _)
  | n + 1, t, i, A, ht, hf, hi, hA => by
    by_cases hn : n < cfg0.N
    swap
    · -- past the grid nothing changes, and the point is below n
      have hle : cfg0.N ≤ n := Nat.not_lt.mp hn
      have e : rd.ArrAt w (n + 1) = rd.ArrAt w n :=
        (rd.ArrAt_stable w (n + 1) (Nat.le_succ_of_le hle)).trans (rd.ArrAt_stable w n hle).symm
      rw [e] at hA
      exact arrAt_apply_of_leaves G hG n t i A (lt_of_lt_of_le t.isLt hle) hf hi hA
    have hs : rd.ArrAt w (n + 1)
        = if (cfg0.win w).flush ⟨n, hn⟩ then rd.ArrStep w ⟨n, hn⟩ (rd.ArrAt w n) else rd.ArrAt w n :=
      rd.ArrAt_succ w ⟨n, hn⟩
    rw [hs] at hA
    by_cases hfn : (cfg0.win w).flush ⟨n, hn⟩ = true
    · rw [if_pos hfn] at hA
      obtain ⟨G₀, X, hG₀, hX, rfl⟩ := hA
      rw [hG _ X hfn hX, View.write_read_eq_piecewise]
      by_cases hin : i ∈ ((cfg0.win w).blk ⟨n, hn⟩).view.setOn Finset.univ
      · rw [Finset.piecewise_eq_of_mem _ _ _ hin]
      · rw [Finset.piecewise_eq_of_notMem _ _ _ hin]
        -- not under point n's block: the covering point is an earlier one
        have htn : t.val ≠ n := fun e => hin (by
          rw [View.setOn_univ]; have : t = ⟨n, hn⟩ := Fin.ext e; exact this ▸ hi)
        exact arrAt_apply_of_leaves G hG n t i G₀ (by omega) hf hi hG₀
    · rw [if_neg hfn] at hA
      have htn : t.val ≠ n := fun e => hfn (by have : t = ⟨n, hn⟩ := Fin.ext e; exact this ▸ hf)
      exact arrAt_apply_of_leaves G hG n t i A (by omega) hf hi hA

/-- When the written-back blocks cover the array, the array ends as `G`. -/
theorem arrAt_eq_of_leaves_cover (G : Buf (Elt F) ((cfg0.win w).arr.view.loc (c.tc : Thread nD τ)))
    (hG : ∀ t X, (cfg0.win w).flush t = true → rd.Leaves w t X →
      (cfg0.win w).cut (cfg0.grid.coords t) X = ((cfg0.win w).blk t).view.read (Elt F) G)
    (hcover : ∀ i : ((cfg0.win w).arr.view.loc (c.tc : Thread nD τ)).2.ty.Idx,
      ∃ t : Fin cfg0.N, (cfg0.win w).flush t = true ∧ i ∈ ((cfg0.win w).blk t).view.set)
    (A : Buf (Elt F) ((cfg0.win w).arr.view.loc (c.tc : Thread nD τ))) (hA : rd.ArrAt w cfg0.N A) : A = G :=
  funext fun i => by
    obtain ⟨t, hf, hi⟩ := hcover i
    exact arrAt_apply_of_leaves rd w G hG cfg0.N t i A t.isLt hf hi hA

end Arr

/-! ## Rows of an array assembled from 200-row pieces -/

/-- The grid's point number `n`, reduced into the grid. -/
def ptc (n : Nat) : Fin cfg0.N := ⟨n % 100, lt_of_lt_of_eq (Nat.mod_lt _ (by omega)) N_0.symm⟩

theorem ptc_of_lt (n : Nat) (h : n < 100) : ptc n = pt n h := Fin.ext (Nat.mod_eq_of_lt h)

/-- Entry `(r, q)` of the array whose rows `200 k … 200 k + 199` are the piece of point `off + k`: row `r mod 200`
    of the piece of point `off + r / 200`. -/
def rowVal (P : Fin cfg0.N → Vec F S200x16 .f32) (off r : Nat) (q : Fin 16) : Elt F .f32 :=
  P (ptc (off + r / 200)) (ix2 (⟨r % 200, Nat.mod_lt _ (by omega)⟩ : Fin 200) q)

/-- That array. -/
def rowsArr (P : Fin cfg0.N → Vec F S200x16 .f32) (off : Nat) : Vec F S10000x16 .f32 :=
  fun i => rowVal P off (i 0).val ⟨(i 1).val, (i 1).isLt⟩

/-- Inside the stripe a point writes — rows `200 (t mod 5) … 200 (t mod 5) + 199` of its 1000-row block `bi` — the block
    holds the point's piece: row `1000 bi + y` of the assembled array, when `off + 5 bi + t mod 5 = t`. -/
theorem rows_stripe (P : Fin cfg0.N → Vec F S200x16 .f32) (t off bi : Nat) (hbi : off + bi * 5 + t % 5 = t)
    (Y : Vec F S1000x16 .f32) (y : S1000x16.Idx) (hy : t % 5 * 200 ≤ (y 0).val ∧ (y 0).val < t % 5 * 200 + 200) :
    rows Y (t % 5 * 200) (P (ptc t)) y = rowVal P off (bi * 1000 + (y 0).val) ⟨(y 1).val, (y 1).isLt⟩ := by
  refine (rows_of_mem Y _ _ y hy).trans ?_
  unfold rowVal
  have e1 : ptc t = ptc (off + (bi * 1000 + (y 0).val) / 200) := congrArg ptc (by omega)
  have e2 : (⟨(y 0).val - t % 5 * 200, by omega⟩ : Fin 200)
      = ⟨(bi * 1000 + (y 0).val) % 200, Nat.mod_lt _ (by omega)⟩ := Fin.ext (by
        show (y 0).val - t % 5 * 200 = (bi * 1000 + (y 0).val) % 200; omega)
  rw [e1, e2]

/-! ## A block filled 200 rows per point

What the body may find in, and leave in, one output window's staging buffer, as predicates `Fd t`, `Lv t` on the
buffer's contents at point `t`: what is left is what was found with the point's stripe replaced (at the points that
write) or as found (at the others); what is found after the first point is what was left at the point before, unless
that point wrote the block back (`fl`). Then, by induction on the point, every row of the current block written so
far holds its row of the assembled array. -/

section Fill

variable (P : Fin cfg0.N → Vec F S200x16 .f32) (Fd Lv : Nat → Vec F S1000x16 .f32 → Prop) (fl : Nat → Prop)

/-- The block a window filled in the FIRST phase is on at point `t`: block `t / 5`, parked on block 9 afterwards. -/
def blk0 (t : Nat) : Nat := if t < 50 then t / 5 else 9
/-- How many rows of it have been written after point `t`. -/
def lim0 (t : Nat) : Nat := if t < 50 then (t % 5 + 1) * 200 else 1000

/-- A window filled in the first phase (pieces of points `0 … 49`): after point `t` the first `lim0 t` rows of block
    `blk0 t` are right; through the second phase the last block stays whole. -/
theorem fill_first
    (hL : ∀ t X, t < 100 → Lv t X → ∃ Y, Fd t Y ∧ X = if t < 50 then rows Y (t % 5 * 200) (P (ptc t)) else Y)
    (hF : ∀ t Y, t + 1 < 100 → Fd (t + 1) Y → fl t ∨ Lv t Y)
    (hfl : ∀ t, fl t → (t % 5 = 4 ∧ t < 45) ∨ t = 99) :
    ∀ t, t < 100 → ∀ X, Lv t X → ∀ y : S1000x16.Idx, (y 0).val < lim0 t →
      X y = rowVal P 0 (blk0 t * 1000 + (y 0).val) ⟨(y 1).val, (y 1).isLt⟩ := by
  intro t
  induction t using Nat.strong_induction_on with
  | _ t ih =>
    intro ht X hX y hy
    obtain ⟨Y, hY, rfl⟩ := hL t X ht hX
    by_cases h50 : t < 50
    · have hlim : lim0 t = (t % 5 + 1) * 200 := if_pos h50
      have hblk : blk0 t = t / 5 := if_pos h50
      rw [hlim] at hy
      rw [if_pos h50, hblk]
      by_cases hs : t % 5 * 200 ≤ (y 0).val
      · exact rows_stripe P t 0 (t / 5) (by omega) Y y ⟨hs, by omega⟩
      · -- a row written at an earlier point of the same block
        rw [rows_of_not_mem Y _ _ y (fun h => hs h.1)]
        obtain ⟨s, rfl⟩ : ∃ s, t = s + 1 := ⟨t - 1, by omega⟩
        rcases hF s Y ht hY with hw | hLv
        · exfalso; have := hfl s hw; omega
        · have hs50 : s < 50 := by omega
          have e := ih s (by omega) (by omega) Y hLv y (by rw [show lim0 s = (s % 5 + 1) * 200 from if_pos hs50]; omega)
          rw [e, show blk0 s = s / 5 from if_pos hs50, show s / 5 = (s + 1) / 5 by omega]
    · have hlim : lim0 t = 1000 := if_neg h50
      have hblk : blk0 t = 9 := if_neg h50
      rw [if_neg h50, hblk]
      obtain ⟨s, rfl⟩ : ∃ s, t = s + 1 := ⟨t - 1, by omega⟩
      rcases hF s Y ht hY with hw | hLv
      · exfalso; have := hfl s hw; omega
      · have hls : lim0 s = 1000 := by unfold lim0; split <;> omega
        have hbs : blk0 s = 9 := by unfold blk0; split <;> omega
        have e := ih s (by omega) (by omega) Y hLv y (by rw [hls]; exact idx2_lt0 (n0 := 1000) (n1 := 16) y)
        rw [e, hbs]

/-- The block a window filled in the SECOND phase is on at point `t`. -/
def blk1 (t : Nat) : Nat := if t < 50 then 0 else (t - 50) / 5
/-- How many rows of it have been written after point `t`: none are claimed in the first phase. -/
def lim1 (t : Nat) : Nat := if t < 50 then 0 else (t % 5 + 1) * 200

/-- A window filled in the second phase (pieces of points `50 … 99`): after point `t ≥ 50` the first `lim1 t` rows of
    block `blk1 t` are right. -/
theorem fill_second
    (hL : ∀ t X, t < 100 → Lv t X → ∃ Y, Fd t Y ∧ X = if t < 50 then Y else rows Y (t % 5 * 200) (P (ptc t)))
    (hF : ∀ t Y, t + 1 < 100 → Fd (t + 1) Y → fl t ∨ Lv t Y)
    (hfl : ∀ t, fl t → t % 5 = 4 ∧ 50 ≤ t) :
    ∀ t, t < 100 → ∀ X, Lv t X → ∀ y : S1000x16.Idx, (y 0).val < lim1 t →
      X y = rowVal P 50 (blk1 t * 1000 + (y 0).val) ⟨(y 1).val, (y 1).isLt⟩ := by
  intro t
  induction t using Nat.strong_induction_on with
  | _ t ih =>
    intro ht X hX y hy
    obtain ⟨Y, hY, rfl⟩ := hL t X ht hX
    by_cases h50 : t < 50
    · rw [show lim1 t = 0 from if_pos h50] at hy; omega
    · have hlim : lim1 t = (t % 5 + 1) * 200 := if_neg h50
      have hblk : blk1 t = (t - 50) / 5 := if_neg h50
      rw [hlim] at hy
      rw [if_neg h50, hblk]
      by_cases hs : t % 5 * 200 ≤ (y 0).val
      · exact rows_stripe P t 50 ((t - 50) / 5) (by omega) Y y ⟨hs, by omega⟩
      · rw [rows_of_not_mem Y _ _ y (fun h => hs h.1)]
        obtain ⟨s, rfl⟩ : ∃ s, t = s + 1 := ⟨t - 1, by omega⟩
        rcases hF s Y ht hY with hw | hLv
        · exfalso; have := hfl s hw; omega
        · have hs50 : ¬s < 50 := by omega
          have e := ih s (by omega) (by omega) Y hLv y (by rw [show lim1 s = (s % 5 + 1) * 200 from if_neg hs50]; omega)
          rw [e, show blk1 s = (s - 50) / 5 from if_neg hs50, show (s - 50) / 5 = (s + 1 - 50) / 5 by omega]

end Fill

/-! ## The six output windows -/

section Windows

variable (m : (ℓ : Loc nD τ sig) → Buf (Elt F) ℓ) (c : Dev nD)

/-! ### Window 11: the hidden features of the first adjacency, rows `200 t …` from point `t` -/

/-- Window 11 is an output: never fetched. -/
theorem nofetch_11 : ∀ t : Fin cfg0.N, (cfg0.win 11).fetch t = false := fun _ => rfl
/-- The points that write window 11's block back. -/
theorem flush_11 : ∀ t : Fin cfg0.N, (cfg0.win 11).flush t = true ↔ (t.val % 5 = 4 ∧ t.val < 45) ∨ t.val = 99 :=
  (by decide +kernel : ∀ t : Fin grid0.N, win0_11.flush t = true ↔ (t.val % 5 = 4 ∧ t.val < 45) ∨ t.val = 99)
/-- The 1000-row block window 11 is on at a point, -/
theorem index_11_0 : ∀ t : Fin cfg0.N, win0_11.index t (0 : Fin 2) = blk0 t.val :=
  (by decide +kernel : ∀ t : Fin grid0.N, win0_11.index t (0 : Fin 2) = blk0 t.val)
/-- all sixteen columns of it. -/
theorem index_11_1 : ∀ t : Fin cfg0.N, win0_11.index t (1 : Fin 2) = 0 :=
  (by decide +kernel : ∀ t : Fin grid0.N, win0_11.index t (1 : Fin 2) = 0)

/-- After point `t` the rows of window 11's current block written so far hold their rows of the assembled array. -/
theorem leaves_11 (t : Nat) (ht : t < 100) (X : Vec F S1000x16 .f32) (hX : (rdat m c).Leaves 11 (pt t ht) X)
    (y : S1000x16.Idx) (hy : (y 0).val < lim0 t) :
    X y = rowVal (HG m c) 0 (blk0 t * 1000 + (y 0).val) ⟨(y 1).val, (y 1).isLt⟩ :=
  fill_first (HG m c)
    (fun t Y => ∃ h : t < 100, (rdat m c).Finds 11 (pt t h) Y)
    (fun t X => ∃ h : t < 100, (rdat m c).Leaves 11 (pt t h) X)
    (fun t => ∃ h : t < 100, (cfg0.win 11).flush (pt t h) = true)
    (fun t X _ ⟨h, Y, hY, ha⟩ => ⟨Y, ⟨h, hY⟩, by rw [ptc_of_lt t h]; exact ha⟩)
    (fun t Y ht ⟨h, hY⟩ => by
      rcases ((rdat m c).finds_of_pos (nofetch_11 _) (Nat.succ_ne_zero t) Y).mp hY with hw | hl
      · exact .inl ⟨Nat.lt_of_succ_lt h, hw⟩
      · exact .inr ⟨Nat.lt_of_succ_lt h, hl⟩)
    (fun t ⟨h, hw⟩ => (flush_11 (pt t h)).mp hw)
    t ht X ⟨ht, hX⟩ y hy

/-- What a writing point writes back is its block of the assembled array. -/
theorem cut_11 (t : Fin cfg0.N) (X : Vec F S1000x16 .f32) (hf : (cfg0.win 11).flush t = true)
    (hX : (rdat m c).Leaves 11 t X) :
    (cfg0.win 11).cut (cfg0.grid.coords t) X = ((cfg0.win 11).blk t).view.read (Elt F) (rowsArr (HG m c) 0) := by
  funext y
  have hlim : lim0 t.val = 1000 := by
    rcases (flush_11 t).mp hf with ⟨h5, h45⟩ | h99
    · unfold lim0; rw [if_pos (by omega), h5]
    · unfold lim0; rw [if_neg (by omega)]
  have hy0 : (y 0).val < 1000 := (y 0).isLt
  have e := leaves_11 m c t.val (pt_lt t) X hX ((cfg0.win 11).xinj (cfg0.grid.coords t) y) (by rw [hlim]; exact hy0)
  show X ((cfg0.win 11).xinj (cfg0.grid.coords t) y) = rowsArr (HG m c) 0 (((cfg0.win 11).blk t).view.emb y)
  refine e.trans ?_
  unfold rowsArr
  refine congrArg₂ (rowVal (HG m c) 0) ?_ (Fin.ext ?_)
  · show blk0 t.val * 1000 + (y 0).val = win0_11.index t (0 : Fin 2) * 1000 + 1 * (y 0).val
    rw [index_11_0 t]; omega
  · show (y 1).val = win0_11.index t (1 : Fin 2) * 16 + 1 * (y 1).val
    rw [index_11_1 t]; omega

/-- An index of the array is under point `t`'s block iff each coordinate is in the block's range on its axis. -/
theorem mem_blk_11 (t : Fin cfg0.N) (i : S10000x16.Idx) :
    i ∈ ((cfg0.win 11).blk t).view.set ↔ ∀ a : Fin 2, win0_11.index t a * S1000x16.size a ≤ (i a).val
      ∧ (i a).val < win0_11.index t a * S1000x16.size a + S1000x16.size a := by
  show i ∈ ((View.whole main_v2_4).slice (win0_11.rect t)).set ↔ _
  rw [View.set_slice_whole, Rect.mem_set_unit]
  exact Iff.rfl

/-- Every row lies in the block written back at the point that completes its 1000-row block. -/
theorem cover_11 (i : S10000x16.Idx) :
    ∃ t : Fin cfg0.N, (cfg0.win 11).flush t = true ∧ i ∈ ((cfg0.win 11).blk t).view.set := by
  have hi0 : (i 0).val < 10000 := (i 0).isLt
  have hi1 : (i 1).val < 16 := (i 1).isLt
  by_cases h9 : (i 0).val < 9000
  · have hn : (i 0).val / 1000 * 5 + 4 < 100 := by omega
    refine ⟨pt ((i 0).val / 1000 * 5 + 4) hn, (flush_11 _).mpr (.inl ⟨?_, ?_⟩), ?_⟩
    · show ((i 0).val / 1000 * 5 + 4) % 5 = 4; omega
    · show (i 0).val / 1000 * 5 + 4 < 45; omega
    · rw [mem_blk_11]; intro a
      match a with
      | ⟨0, _⟩ =>
        show win0_11.index (pt ((i 0).val / 1000 * 5 + 4) hn) (0 : Fin 2) * 1000 ≤ (i 0).val
          ∧ (i 0).val < win0_11.index (pt ((i 0).val / 1000 * 5 + 4) hn) (0 : Fin 2) * 1000 + 1000
        rw [index_11_0]
        show blk0 ((i 0).val / 1000 * 5 + 4) * 1000 ≤ (i 0).val ∧ (i 0).val < blk0 ((i 0).val / 1000 * 5 + 4) * 1000 + 1000
        rw [show blk0 ((i 0).val / 1000 * 5 + 4) = ((i 0).val / 1000 * 5 + 4) / 5 from if_pos (by omega)]
        omega
      | ⟨1, _⟩ =>
        show win0_11.index (pt ((i 0).val / 1000 * 5 + 4) hn) (1 : Fin 2) * 16 ≤ (i 1).val
          ∧ (i 1).val < win0_11.index (pt ((i 0).val / 1000 * 5 + 4) hn) (1 : Fin 2) * 16 + 16
        rw [index_11_1]; omega
  · refine ⟨pt 99 (by omega), (flush_11 _).mpr (.inr rfl), ?_⟩
    rw [mem_blk_11]; intro a
    match a with
    | ⟨0, _⟩ =>
      show win0_11.index (pt 99 (by omega)) (0 : Fin 2) * 1000 ≤ (i 0).val
        ∧ (i 0).val < win0_11.index (pt 99 (by omega)) (0 : Fin 2) * 1000 + 1000
      rw [index_11_0]
      show blk0 99 * 1000 ≤ (i 0).val ∧ (i 0).val < blk0 99 * 1000 + 1000
      rw [show blk0 99 = 9 from rfl]
      omega
    | ⟨1, _⟩ =>
      show win0_11.index (pt 99 (by omega)) (1 : Fin 2) * 16 ≤ (i 1).val
        ∧ (i 1).val < win0_11.index (pt 99 (by omega)) (1 : Fin 2) * 16 + 16
      rw [index_11_1]; omega

/-- THE FINAL ARRAY of window 11: the hidden features of the first adjacency, rows `200 t …` from point `t`. -/
theorem final_11 (A : Buf (Elt F) ((cfg0.win 11).arr.view.loc (c.tc : Thread nD τ)))
    (hA : (rdat m c).ArrAt 11 cfg0.N A) : A = rowsArr (HG m c) 0 :=
  arrAt_eq_of_leaves_cover (rdat m c) 11 (rowsArr (HG m c) 0) (fun t X hf hX => cut_11 m c t X hf hX)
    cover_11 A hA

/-- The same at an index: row `r` is row `r mod 200` of what point `r / 200` computed. -/
theorem final_11_apply (A : Buf (Elt F) ((cfg0.win 11).arr.view.loc (c.tc : Thread nD τ)))
    (hA : (rdat m c).ArrAt 11 cfg0.N A) (i : S10000x16.Idx) :
    A i = HG m c (pt ((i 0).val / 200) (by have := idx2_lt0 (n0 := 10000) (n1 := 16) i; omega))
      (ix2 (⟨(i 0).val % 200, Nat.mod_lt _ (by omega)⟩ : Fin 200) (⟨(i 1).val, (i 1).isLt⟩ : Fin 16)) := by
  rw [final_11 m c A hA]
  unfold rowsArr rowVal
  rw [Nat.zero_add, ptc_of_lt]

/-! ### Window 7: the log-softmax of the first adjacency's scores, rows `200 i …` from point `50 + i` -/

/-- Window 7 is an output: never fetched. -/
theorem nofetch_7 : ∀ t : Fin cfg0.N, (cfg0.win 7).fetch t = false := fun _ => rfl
/-- The points that write window 7's block back. -/
theorem flush_7 : ∀ t : Fin cfg0.N, (cfg0.win 7).flush t = true ↔ t.val % 5 = 4 ∧ 50 ≤ t.val :=
  (by decide +kernel : ∀ t : Fin grid0.N, win0_7.flush t = true ↔ t.val % 5 = 4 ∧ 50 ≤ t.val)
/-- The 1000-row block window 7 is on at a point, -/
theorem index_7_0 : ∀ t : Fin cfg0.N, win0_7.index t (0 : Fin 2) = blk1 t.val :=
  (by decide +kernel : ∀ t : Fin grid0.N, win0_7.index t (0 : Fin 2) = blk1 t.val)
/-- all sixteen columns of it. -/
theorem index_7_1 : ∀ t : Fin cfg0.N, win0_7.index t (1 : Fin 2) = 0 :=
  (by decide +kernel : ∀ t : Fin grid0.N, win0_7.index t (1 : Fin 2) = 0)

/-- After point `t` the rows of window 7's current block written so far hold their rows of the assembled array. -/
theorem leaves_7 (t : Nat) (ht : t < 100) (X : Vec F S1000x16 .f32) (hX : (rdat m c).Leaves 7 (pt t ht) X)
    (y : S1000x16.Idx) (hy : (y 0).val < lim1 t) :
    X y = rowVal (LG m c) 50 (blk1 t * 1000 + (y 0).val) ⟨(y 1).val, (y 1).isLt⟩ :=
  fill_second (LG m c)
    (fun t Y => ∃ h : t < 100, (rdat m c).Finds 7 (pt t h) Y)
    (fun t X => ∃ h : t < 100, (rdat m c).Leaves 7 (pt t h) X)
    (fun t => ∃ h : t < 100, (cfg0.win 7).flush (pt t h) = true)
    (fun t X _ ⟨h, Y, hY, ha⟩ => ⟨Y, ⟨h, hY⟩, by rw [ptc_of_lt t h]; exact ha⟩)
    (fun t Y ht ⟨h, hY⟩ => by
      rcases ((rdat m c).finds_of_pos (nofetch_7 _) (Nat.succ_ne_zero t) Y).mp hY with hw | hl
      · exact .inl ⟨Nat.lt_of_succ_lt h, hw⟩
      · exact .inr ⟨Nat.lt_of_succ_lt h, hl⟩)
    (fun t ⟨h, hw⟩ => (flush_7 (pt t h)).mp hw)
    t ht X ⟨ht, hX⟩ y hy

/-- What a writing point writes back is its block of the assembled array. -/
theorem cut_7 (t : Fin cfg0.N) (X : Vec F S1000x16 .f32) (hf : (cfg0.win 7).flush t = true)
    (hX : (rdat m c).Leaves 7 t X) :
    (cfg0.win 7).cut (cfg0.grid.coords t) X = ((cfg0.win 7).blk t).view.read (Elt F) (rowsArr (LG m c) 50) := by
  funext y
  have hlim : lim1 t.val = 1000 := by
    obtain ⟨h5, h50⟩ := (flush_7 t).mp hf
    unfold lim1; rw [if_neg (by omega), h5]
  have hy0 : (y 0).val < 1000 := (y 0).isLt
  have e := leaves_7 m c t.val (pt_lt t) X hX ((cfg0.win 7).xinj (cfg0.grid.coords t) y) (by rw [hlim]; exact hy0)
  show X ((cfg0.win 7).xinj (cfg0.grid.coords t) y) = rowsArr (LG m c) 50 (((cfg0.win 7).blk t).view.emb y)
  refine e.trans ?_
  unfold rowsArr
  refine congrArg₂ (rowVal (LG m c) 50) ?_ (Fin.ext ?_)
  · show blk1 t.val * 1000 + (y 0).val = win0_7.index t (0 : Fin 2) * 1000 + 1 * (y 0).val
    rw [index_7_0 t]; omega
  · show (y 1).val = win0_7.index t (1 : Fin 2) * 16 + 1 * (y 1).val
    rw [index_7_1 t]; omega

/-- An index of the array is under point `t`'s block iff each coordinate is in the block's range on its axis. -/
theorem mem_blk_7 (t : Fin cfg0.N) (i : S10000x16.Idx) :
    i ∈ ((cfg0.win 7).blk t).view.set ↔ ∀ a : Fin 2, win0_7.index t a * S1000x16.size a ≤ (i a).val
      ∧ (i a).val < win0_7.index t a * S1000x16.size a + S1000x16.size a := by
  show i ∈ ((View.whole main_v2_0).slice (win0_7.rect t)).set ↔ _
  rw [View.set_slice_whole, Rect.mem_set_unit]
  exact Iff.rfl

/-- Every row lies in the block written back at the point that completes its 1000-row block. -/
theorem cover_7 (i : S10000x16.Idx) :
    ∃ t : Fin cfg0.N, (cfg0.win 7).flush t = true ∧ i ∈ ((cfg0.win 7).blk t).view.set := by
  have hi0 : (i 0).val < 10000 := (i 0).isLt
  have hi1 : (i 1).val < 16 := (i 1).isLt
  have hn : 54 + (i 0).val / 1000 * 5 < 100 := by omega
  refine ⟨pt (54 + (i 0).val / 1000 * 5) hn, (flush_7 _).mpr ⟨?_, ?_⟩, ?_⟩
  · show (54 + (i 0).val / 1000 * 5) % 5 = 4; omega
  · show 50 ≤ 54 + (i 0).val / 1000 * 5; omega
  · rw [mem_blk_7]; intro a
    match a with
    | ⟨0, _⟩ =>
      show win0_7.index (pt (54 + (i 0).val / 1000 * 5) hn) (0 : Fin 2) * 1000 ≤ (i 0).val
        ∧ (i 0).val < win0_7.index (pt (54 + (i 0).val / 1000 * 5) hn) (0 : Fin 2) * 1000 + 1000
      rw [index_7_0]
      show blk1 (54 + (i 0).val / 1000 * 5) * 1000 ≤ (i 0).val ∧ (i 0).val < blk1 (54 + (i 0).val / 1000 * 5) * 1000 + 1000
      rw [show blk1 (54 + (i 0).val / 1000 * 5) = (54 + (i 0).val / 1000 * 5 - 50) / 5 from if_neg (by omega)]
      omega
    | ⟨1, _⟩ =>
      show win0_7.index (pt (54 + (i 0).val / 1000 * 5) hn) (1 : Fin 2) * 16 ≤ (i 1).val
        ∧ (i 1).val < win0_7.index (pt (54 + (i 0).val / 1000 * 5) hn) (1 : Fin 2) * 16 + 16
      rw [index_7_1]; omega

/-- THE FINAL ARRAY of window 7: the log-softmax of the first adjacency's scores, rows `200 i …` from point `50 + i`. -/
theorem final_7 (A : Buf (Elt F) ((cfg0.win 7).arr.view.loc (c.tc : Thread nD τ)))
    (hA : (rdat m c).ArrAt 7 cfg0.N A) : A = rowsArr (LG m c) 50 :=
  arrAt_eq_of_leaves_cover (rdat m c) 7 (rowsArr (LG m c) 50) (fun t X hf hX => cut_7 m c t X hf hX)
    cover_7 A hA

/-- The same at an index: row `r` is row `r mod 200` of what point `50 + r / 200` computed. -/
theorem final_7_apply (A : Buf (Elt F) ((cfg0.win 7).arr.view.loc (c.tc : Thread nD τ)))
    (hA : (rdat m c).ArrAt 7 cfg0.N A) (i : S10000x16.Idx) :
    A i = LG m c (pt (50 + (i 0).val / 200) (by have := idx2_lt0 (n0 := 10000) (n1 := 16) i; omega))
      (ix2 (⟨(i 0).val % 200, Nat.mod_lt _ (by omega)⟩ : Fin 200) (⟨(i 1).val, (i 1).isLt⟩ : Fin 16)) := by
  rw [final_7 m c A hA]
  unfold rowsArr rowVal
  rw [ptc_of_lt]

/-! ### Window 12: the hidden features of the second adjacency, rows `200 t …` from point `t` -/

/-- Window 12 is an output: never fetched. -/
theorem nofetch_12 : ∀ t : Fin cfg0.N, (cfg0.win 12).fetch t = false := fun _ => rfl
/-- The points that write window 12's block back. -/
theorem flush_12 : ∀ t : Fin cfg0.N, (cfg0.win 12).flush t = true ↔ (t.val % 5 = 4 ∧ t.val < 45) ∨ t.val = 99 :=
  (by decide +kernel : ∀ t : Fin grid0.N, win0_12.flush t = true ↔ (t.val % 5 = 4 ∧ t.val < 45) ∨ t.val = 99)
/-- The 1000-row block window 12 is on at a point, -/
theorem index_12_0 : ∀ t : Fin cfg0.N, win0_12.index t (0 : Fin 2) = blk0 t.val :=
  (by decide +kernel : ∀ t : Fin grid0.N, win0_12.index t (0 : Fin 2) = blk0 t.val)
/-- all sixteen columns of it. -/
theorem index_12_1 : ∀ t : Fin cfg0.N, win0_12.index t (1 : Fin 2) = 0 :=
  (by decide +kernel : ∀ t : Fin grid0.N, win0_12.index t (1 : Fin 2) = 0)

/-- After point `t` the rows of window 12's current block written so far hold their rows of the assembled array. -/
theorem leaves_12 (t : Nat) (ht : t < 100) (X : Vec F S1000x16 .f32) (hX : (rdat m c).Leaves 12 (pt t ht) X)
    (y : S1000x16.Idx) (hy : (y 0).val < lim0 t) :
    X y = rowVal (HC m c) 0 (blk0 t * 1000 + (y 0).val) ⟨(y 1).val, (y 1).isLt⟩ :=
  fill_first (HC m c)
    (fun t Y => ∃ h : t < 100, (rdat m c).Finds 12 (pt t h) Y)
    (fun t X => ∃ h : t < 100, (rdat m c).Leaves 12 (pt t h) X)
    (fun t => ∃ h : t < 100, (cfg0.win 12).flush (pt t h) = true)
    (fun t X _ ⟨h, Y, hY, ha⟩ => ⟨Y, ⟨h, hY⟩, by rw [ptc_of_lt t h]; exact ha⟩)
    (fun t Y ht ⟨h, hY⟩ => by
      rcases ((rdat m c).finds_of_pos (nofetch_12 _) (Nat.succ_ne_zero t) Y).mp hY with hw | hl
      · exact .inl ⟨Nat.lt_of_succ_lt h, hw⟩
      · exact .inr ⟨Nat.lt_of_succ_lt h, hl⟩)
    (fun t ⟨h, hw⟩ => (flush_12 (pt t h)).mp hw)
    t ht X ⟨ht, hX⟩ y hy

/-- What a writing point writes back is its block of the assembled array. -/
theorem cut_12 (t : Fin cfg0.N) (X : Vec F S1000x16 .f32) (hf : (cfg0.win 12).flush t = true)
    (hX : (rdat m c).Leaves 12 t X) :
    (cfg0.win 12).cut (cfg0.grid.coords t) X = ((cfg0.win 12).blk t).view.read (Elt F) (rowsArr (HC m c) 0) := by
  funext y
  have hlim : lim0 t.val = 1000 := by
    rcases (flush_12 t).mp hf with ⟨h5, h45⟩ | h99
    · unfold lim0; rw [if_pos (by omega), h5]
    · unfold lim0; rw [if_neg (by omega)]
  have hy0 : (y 0).val < 1000 := (y 0).isLt
  have e := leaves_12 m c t.val (pt_lt t) X hX ((cfg0.win 12).xinj (cfg0.grid.coords t) y) (by rw [hlim]; exact hy0)
  show X ((cfg0.win 12).xinj (cfg0.grid.coords t) y) = rowsArr (HC m c) 0 (((cfg0.win 12).blk t).view.emb y)
  refine e.trans ?_
  unfold rowsArr
  refine congrArg₂ (rowVal (HC m c) 0) ?_ (Fin.ext ?_)
  · show blk0 t.val * 1000 + (y 0).val = win0_12.index t (0 : Fin 2) * 1000 + 1 * (y 0).val
    rw [index_12_0 t]; omega
  · show (y 1).val = win0_12.index t (1 : Fin 2) * 16 + 1 * (y 1).val
    rw [index_12_1 t]; omega

/-- An index of the array is under point `t`'s block iff each coordinate is in the block's range on its axis. -/
theorem mem_blk_12 (t : Fin cfg0.N) (i : S10000x16.Idx) :
    i ∈ ((cfg0.win 12).blk t).view.set ↔ ∀ a : Fin 2, win0_12.index t a * S1000x16.size a ≤ (i a).val
      ∧ (i a).val < win0_12.index t a * S1000x16.size a + S1000x16.size a := by
  show i ∈ ((View.whole main_v2_5).slice (win0_12.rect t)).set ↔ _
  rw [View.set_slice_whole, Rect.mem_set_unit]
  exact Iff.rfl

/-- Every row lies in the block written back at the point that completes its 1000-row block. -/
theorem cover_12 (i : S10000x16.Idx) :
    ∃ t : Fin cfg0.N, (cfg0.win 12).flush t = true ∧ i ∈ ((cfg0.win 12).blk t).view.set := by
  have hi0 : (i 0).val < 10000 := (i 0).isLt
  have hi1 : (i 1).val < 16 := (i 1).isLt
  by_cases h9 : (i 0).val < 9000
  · have hn : (i 0).val / 1000 * 5 + 4 < 100 := by omega
    refine ⟨pt ((i 0).val / 1000 * 5 + 4) hn, (flush_12 _).mpr (.inl ⟨?_, ?_⟩), ?_⟩
    · show ((i 0).val / 1000 * 5 + 4) % 5 = 4; omega
    · show (i 0).val / 1000 * 5 + 4 < 45; omega
    · rw [mem_blk_12]; intro a
      match a with
      | ⟨0, _⟩ =>
        show win0_12.index (pt ((i 0).val / 1000 * 5 + 4) hn) (0 : Fin 2) * 1000 ≤ (i 0).val
          ∧ (i 0).val < win0_12.index (pt ((i 0).val / 1000 * 5 + 4) hn) (0 : Fin 2) * 1000 + 1000
        rw [index_12_0]
        show blk0 ((i 0).val / 1000 * 5 + 4) * 1000 ≤ (i 0).val ∧ (i 0).val < blk0 ((i 0).val / 1000 * 5 + 4) * 1000 + 1000
        rw [show blk0 ((i 0).val / 1000 * 5 + 4) = ((i 0).val / 1000 * 5 + 4) / 5 from if_pos (by omega)]
        omega
      | ⟨1, _⟩ =>
        show win0_12.index (pt ((i 0).val / 1000 * 5 + 4) hn) (1 : Fin 2) * 16 ≤ (i 1).val
          ∧ (i 1).val < win0_12.index (pt ((i 0).val / 1000 * 5 + 4) hn) (1 : Fin 2) * 16 + 16
        rw [index_12_1]; omega
  · refine ⟨pt 99 (by omega), (flush_12 _).mpr (.inr rfl), ?_⟩
    rw [mem_blk_12]; intro a
    match a with
    | ⟨0, _⟩ =>
      show win0_12.index (pt 99 (by omega)) (0 : Fin 2) * 1000 ≤ (i 0).val
        ∧ (i 0).val < win0_12.index (pt 99 (by omega)) (0 : Fin 2) * 1000 + 1000
      rw [index_12_0]
      show blk0 99 * 1000 ≤ (i 0).val ∧ (i 0).val < blk0 99 * 1000 + 1000
      rw [show blk0 99 = 9 from rfl]
      omega
    | ⟨1, _⟩ =>
      show win0_12.index (pt 99 (by omega)) (1 : Fin 2) * 16 ≤ (i 1).val
        ∧ (i 1).val < win0_12.index (pt 99 (by omega)) (1 : Fin 2) * 16 + 16
      rw [index_12_1]; omega

/-- THE FINAL ARRAY of window 12: the hidden features of the second adjacency, rows `200 t …` from point `t`. -/
theorem final_12 (A : Buf (Elt F) ((cfg0.win 12).arr.view.loc (c.tc : Thread nD τ)))
    (hA : (rdat m c).ArrAt 12 cfg0.N A) : A = rowsArr (HC m c) 0 :=
  arrAt_eq_of_leaves_cover (rdat m c) 12 (rowsArr (HC m c) 0) (fun t X hf hX => cut_12 m c t X hf hX)
    cover_12 A hA

/-- The same at an index: row `r` is row `r mod 200` of what point `r / 200` computed. -/
theorem final_12_apply (A : Buf (Elt F) ((cfg0.win 12).arr.view.loc (c.tc : Thread nD τ)))
    (hA : (rdat m c).ArrAt 12 cfg0.N A) (i : S10000x16.Idx) :
    A i = HC m c (pt ((i 0).val / 200) (by have := idx2_lt0 (n0 := 10000) (n1 := 16) i; omega))
      (ix2 (⟨(i 0).val % 200, Nat.mod_lt _ (by omega)⟩ : Fin 200) (⟨(i 1).val, (i 1).isLt⟩ : Fin 16)) := by
  rw [final_12 m c A hA]
  unfold rowsArr rowVal
  rw [Nat.zero_add, ptc_of_lt]

/-! ### Window 8: the first adjacency's scores, rows `200 i …` from point `50 + i` -/

/-- Window 8 is an output: never fetched. -/
theorem nofetch_8 : ∀ t : Fin cfg0.N, (cfg0.win 8).fetch t = false := fun _ => rfl
/-- The points that write window 8's block back. -/
theorem flush_8 : ∀ t : Fin cfg0.N, (cfg0.win 8).flush t = true ↔ t.val % 5 = 4 ∧ 50 ≤ t.val :=
  (by decide +kernel : ∀ t : Fin grid0.N, win0_8.flush t = true ↔ t.val % 5 = 4 ∧ 50 ≤ t.val)
/-- The 1000-row block window 8 is on at a point, -/
theorem index_8_0 : ∀ t : Fin cfg0.N, win0_8.index t (0 : Fin 2) = blk1 t.val :=
  (by decide +kernel : ∀ t : Fin grid0.N, win0_8.index t (0 : Fin 2) = blk1 t.val)
/-- all sixteen columns of it. -/
theorem index_8_1 : ∀ t : Fin cfg0.N, win0_8.index t (1 : Fin 2) = 0 :=
  (by decide +kernel : ∀ t : Fin grid0.N, win0_8.index t (1 : Fin 2) = 0)

/-- After point `t` the rows of window 8's current block written so far hold their rows of the assembled array. -/
theorem leaves_8 (t : Nat) (ht : t < 100) (X : Vec F S1000x16 .f32) (hX : (rdat m c).Leaves 8 (pt t ht) X)
    (y : S1000x16.Idx) (hy : (y 0).val < lim1 t) :
    X y = rowVal (ZG m c) 50 (blk1 t * 1000 + (y 0).val) ⟨(y 1).val, (y 1).isLt⟩ :=
  fill_second (ZG m c)
    (fun t Y => ∃ h : t < 100, (rdat m c).Finds 8 (pt t h) Y)
    (fun t X => ∃ h : t < 100, (rdat m c).Leaves 8 (pt t h) X)
    (fun t => ∃ h : t < 100, (cfg0.win 8).flush (pt t h) = true)
    (fun t X _ ⟨h, Y, hY, ha⟩ => ⟨Y, ⟨h, hY⟩, by rw [ptc_of_lt t h]; exact ha⟩)
    (fun t Y ht ⟨h, hY⟩ => by
      rcases ((rdat m c).finds_of_pos (nofetch_8 _) (Nat.succ_ne_zero t) Y).mp hY with hw | hl
      · exact .inl ⟨Nat.lt_of_succ_lt h, hw⟩
      · exact .inr ⟨Nat.lt_of_succ_lt h, hl⟩)
    (fun t ⟨h, hw⟩ => (flush_8 (pt t h)).mp hw)
    t ht X ⟨ht, hX⟩ y hy

/-- What a writing point writes back is its block of the assembled array. -/
theorem cut_8 (t : Fin cfg0.N) (X : Vec F S1000x16 .f32) (hf : (cfg0.win 8).flush t = true)
    (hX : (rdat m c).Leaves 8 t X) :
    (cfg0.win 8).cut (cfg0.grid.coords t) X = ((cfg0.win 8).blk t).view.read (Elt F) (rowsArr (ZG m c) 50) := by
  funext y
  have hlim : lim1 t.val = 1000 := by
    obtain ⟨h5, h50⟩ := (flush_8 t).mp hf
    unfold lim1; rw [if_neg (by omega), h5]
  have hy0 : (y 0).val < 1000 := (y 0).isLt
  have e := leaves_8 m c t.val (pt_lt t) X hX ((cfg0.win 8).xinj (cfg0.grid.coords t) y) (by rw [hlim]; exact hy0)
  show X ((cfg0.win 8).xinj (cfg0.grid.coords t) y) = rowsArr (ZG m c) 50 (((cfg0.win 8).blk t).view.emb y)
  refine e.trans ?_
  unfold rowsArr
  refine congrArg₂ (rowVal (ZG m c) 50) ?_ (Fin.ext ?_)
  · show blk1 t.val * 1000 + (y 0).val = win0_8.index t (0 : Fin 2) * 1000 + 1 * (y 0).val
    rw [index_8_0 t]; omega
  · show (y 1).val = win0_8.index t (1 : Fin 2) * 16 + 1 * (y 1).val
    rw [index_8_1 t]; omega

/-- An index of the array is under point `t`'s block iff each coordinate is in the block's range on its axis. -/
theorem mem_blk_8 (t : Fin cfg0.N) (i : S10000x16.Idx) :
    i ∈ ((cfg0.win 8).blk t).view.set ↔ ∀ a : Fin 2, win0_8.index t a * S1000x16.size a ≤ (i a).val
      ∧ (i a).val < win0_8.index t a * S1000x16.size a + S1000x16.size a := by
  show i ∈ ((View.whole main_v2_1).slice (win0_8.rect t)).set ↔ _
  rw [View.set_slice_whole, Rect.mem_set_unit]
  exact Iff.rfl

/-- Every row lies in the block written back at the point that completes its 1000-row block. -/
theorem cover_8 (i : S10000x16.Idx) :
    ∃ t : Fin cfg0.N, (cfg0.win 8).flush t = true ∧ i ∈ ((cfg0.win 8).blk t).view.set := by
  have hi0 : (i 0).val < 10000 := (i 0).isLt
  have hi1 : (i 1).val < 16 := (i 1).isLt
  have hn : 54 + (i 0).val / 1000 * 5 < 100 := by omega
  refine ⟨pt (54 + (i 0).val / 1000 * 5) hn, (flush_8 _).mpr ⟨?_, ?_⟩, ?_⟩
  · show (54 + (i 0).val / 1000 * 5) % 5 = 4; omega
  · show 50 ≤ 54 + (i 0).val / 1000 * 5; omega
  · rw [mem_blk_8]; intro a
    match a with
    | ⟨0, _⟩ =>
      show win0_8.index (pt (54 + (i 0).val / 1000 * 5) hn) (0 : Fin 2) * 1000 ≤ (i 0).val
        ∧ (i 0).val < win0_8.index (pt (54 + (i 0).val / 1000 * 5) hn) (0 : Fin 2) * 1000 + 1000
      rw [index_8_0]
      show blk1 (54 + (i 0).val / 1000 * 5) * 1000 ≤ (i 0).val ∧ (i 0).val < blk1 (54 + (i 0).val / 1000 * 5) * 1000 + 1000
      rw [show blk1 (54 + (i 0).val / 1000 * 5) = (54 + (i 0).val / 1000 * 5 - 50) / 5 from if_neg (by omega)]
      omega
    | ⟨1, _⟩ =>
      show win0_8.index (pt (54 + (i 0).val / 1000 * 5) hn) (1 : Fin 2) * 16 ≤ (i 1).val
        ∧ (i 1).val < win0_8.index (pt (54 + (i 0).val / 1000 * 5) hn) (1 : Fin 2) * 16 + 16
      rw [index_8_1]; omega

/-- THE FINAL ARRAY of window 8: the first adjacency's scores, rows `200 i …` from point `50 + i`. -/
theorem final_8 (A : Buf (Elt F) ((cfg0.win 8).arr.view.loc (c.tc : Thread nD τ)))
    (hA : (rdat m c).ArrAt 8 cfg0.N A) : A = rowsArr (ZG m c) 50 :=
  arrAt_eq_of_leaves_cover (rdat m c) 8 (rowsArr (ZG m c) 50) (fun t X hf hX => cut_8 m c t X hf hX)
    cover_8 A hA

/-- The same at an index: row `r` is row `r mod 200` of what point `50 + r / 200` computed. -/
theorem final_8_apply (A : Buf (Elt F) ((cfg0.win 8).arr.view.loc (c.tc : Thread nD τ)))
    (hA : (rdat m c).ArrAt 8 cfg0.N A) (i : S10000x16.Idx) :
    A i = ZG m c (pt (50 + (i 0).val / 200) (by have := idx2_lt0 (n0 := 10000) (n1 := 16) i; omega))
      (ix2 (⟨(i 0).val % 200, Nat.mod_lt _ (by omega)⟩ : Fin 200) (⟨(i 1).val, (i 1).isLt⟩ : Fin 16)) := by
  rw [final_8 m c A hA]
  unfold rowsArr rowVal
  rw [ptc_of_lt]

/-! ### Window 9: the log-softmax of the second adjacency's scores, rows `200 i …` from point `50 + i` -/

/-- Window 9 is an output: never fetched. -/
theorem nofetch_9 : ∀ t : Fin cfg0.N, (cfg0.win 9).fetch t = false := fun _ => rfl
/-- The points that write window 9's block back. -/
theorem flush_9 : ∀ t : Fin cfg0.N, (cfg0.win 9).flush t = true ↔ t.val % 5 = 4 ∧ 50 ≤ t.val :=
  (by decide +kernel : ∀ t : Fin grid0.N, win0_9.flush t = true ↔ t.val % 5 = 4 ∧ 50 ≤ t.val)
/-- The 1000-row block window 9 is on at a point, -/
theorem index_9_0 : ∀ t : Fin cfg0.N, win0_9.index t (0 : Fin 2) = blk1 t.val :=
  (by decide +kernel : ∀ t : Fin grid0.N, win0_9.index t (0 : Fin 2) = blk1 t.val)
/-- all sixteen columns of it. -/
theorem index_9_1 : ∀ t : Fin cfg0.N, win0_9.index t (1 : Fin 2) = 0 :=
  (by decide +kernel : ∀ t : Fin grid0.N, win0_9.index t (1 : Fin 2) = 0)

/-- After point `t` the rows of window 9's current block written so far hold their rows of the assembled array. -/
theorem leaves_9 (t : Nat) (ht : t < 100) (X : Vec F S1000x16 .f32) (hX : (rdat m c).Leaves 9 (pt t ht) X)
    (y : S1000x16.Idx) (hy : (y 0).val < lim1 t) :
    X y = rowVal (LC m c) 50 (blk1 t * 1000 + (y 0).val) ⟨(y 1).val, (y 1).isLt⟩ :=
  fill_second (LC m c)
    (fun t Y => ∃ h : t < 100, (rdat m c).Finds 9 (pt t h) Y)
    (fun t X => ∃ h : t < 100, (rdat m c).Leaves 9 (pt t h) X)
    (fun t => ∃ h : t < 100, (cfg0.win 9).flush (pt t h) = true)
    (fun t X _ ⟨h, Y, hY, ha⟩ => ⟨Y, ⟨h, hY⟩, by rw [ptc_of_lt t h]; exact ha⟩)
    (fun t Y ht ⟨h, hY⟩ => by
      rcases ((rdat m c).finds_of_pos (nofetch_9 _) (Nat.succ_ne_zero t) Y).mp hY with hw | hl
      · exact .inl ⟨Nat.lt_of_succ_lt h, hw⟩
      · exact .inr ⟨Nat.lt_of_succ_lt h, hl⟩)
    (fun t ⟨h, hw⟩ => (flush_9 (pt t h)).mp hw)
    t ht X ⟨ht, hX⟩ y hy

/-- What a writing point writes back is its block of the assembled array. -/
theorem cut_9 (t : Fin cfg0.N) (X : Vec F S1000x16 .f32) (hf : (cfg0.win 9).flush t = true)
    (hX : (rdat m c).Leaves 9 t X) :
    (cfg0.win 9).cut (cfg0.grid.coords t) X = ((cfg0.win 9).blk t).view.read (Elt F) (rowsArr (LC m c) 50) := by
  funext y
  have hlim : lim1 t.val = 1000 := by
    obtain ⟨h5, h50⟩ := (flush_9 t).mp hf
    unfold lim1; rw [if_neg (by omega), h5]
  have hy0 : (y 0).val < 1000 := (y 0).isLt
  have e := leaves_9 m c t.val (pt_lt t) X hX ((cfg0.win 9).xinj (cfg0.grid.coords t) y) (by rw [hlim]; exact hy0)
  show X ((cfg0.win 9).xinj (cfg0.grid.coords t) y) = rowsArr (LC m c) 50 (((cfg0.win 9).blk t).view.emb y)
  refine e.trans ?_
  unfold rowsArr
  refine congrArg₂ (rowVal (LC m c) 50) ?_ (Fin.ext ?_)
  · show blk1 t.val * 1000 + (y 0).val = win0_9.index t (0 : Fin 2) * 1000 + 1 * (y 0).val
    rw [index_9_0 t]; omega
  · show (y 1).val = win0_9.index t (1 : Fin 2) * 16 + 1 * (y 1).val
    rw [index_9_1 t]; omega

/-- An index of the array is under point `t`'s block iff each coordinate is in the block's range on its axis. -/
theorem mem_blk_9 (t : Fin cfg0.N) (i : S10000x16.Idx) :
    i ∈ ((cfg0.win 9).blk t).view.set ↔ ∀ a : Fin 2, win0_9.index t a * S1000x16.size a ≤ (i a).val
      ∧ (i a).val < win0_9.index t a * S1000x16.size a + S1000x16.size a := by
  show i ∈ ((View.whole main_v2_2).slice (win0_9.rect t)).set ↔ _
  rw [View.set_slice_whole, Rect.mem_set_unit]
  exact Iff.rfl

/-- Every row lies in the block written back at the point that completes its 1000-row block. -/
theorem cover_9 (i : S10000x16.Idx) :
    ∃ t : Fin cfg0.N, (cfg0.win 9).flush t = true ∧ i ∈ ((cfg0.win 9).blk t).view.set := by
  have hi0 : (i 0).val < 10000 := (i 0).isLt
  have hi1 : (i 1).val < 16 := (i 1).isLt
  have hn : 54 + (i 0).val / 1000 * 5 < 100 := by omega
  refine ⟨pt (54 + (i 0).val / 1000 * 5) hn, (flush_9 _).mpr ⟨?_, ?_⟩, ?_⟩
  · show (54 + (i 0).val / 1000 * 5) % 5 = 4; omega
  · show 50 ≤ 54 + (i 0).val / 1000 * 5; omega
  · rw [mem_blk_9]; intro a
    match a with
    | ⟨0, _⟩ =>
      show win0_9.index (pt (54 + (i 0).val / 1000 * 5) hn) (0 : Fin 2) * 1000 ≤ (i 0).val
        ∧ (i 0).val < win0_9.index (pt (54 + (i 0).val / 1000 * 5) hn) (0 : Fin 2) * 1000 + 1000
      rw [index_9_0]
      show blk1 (54 + (i 0).val / 1000 * 5) * 1000 ≤ (i 0).val ∧ (i 0).val < blk1 (54 + (i 0).val / 1000 * 5) * 1000 + 1000
      rw [show blk1 (54 + (i 0).val / 1000 * 5) = (54 + (i 0).val / 1000 * 5 - 50) / 5 from if_neg (by omega)]
      omega
    | ⟨1, _⟩ =>
      show win0_9.index (pt (54 + (i 0).val / 1000 * 5) hn) (1 : Fin 2) * 16 ≤ (i 1).val
        ∧ (i 1).val < win0_9.index (pt (54 + (i 0).val / 1000 * 5) hn) (1 : Fin 2) * 16 + 16
      rw [index_9_1]; omega

/-- THE FINAL ARRAY of window 9: the log-softmax of the second adjacency's scores, rows `200 i …` from point `50 + i`. -/
theorem final_9 (A : Buf (Elt F) ((cfg0.win 9).arr.view.loc (c.tc : Thread nD τ)))
    (hA : (rdat m c).ArrAt 9 cfg0.N A) : A = rowsArr (LC m c) 50 :=
  arrAt_eq_of_leaves_cover (rdat m c) 9 (rowsArr (LC m c) 50) (fun t X hf hX => cut_9 m c t X hf hX)
    cover_9 A hA

/-- The same at an index: row `r` is row `r mod 200` of what point `50 + r / 200` computed. -/
theorem final_9_apply (A : Buf (Elt F) ((cfg0.win 9).arr.view.loc (c.tc : Thread nD τ)))
    (hA : (rdat m c).ArrAt 9 cfg0.N A) (i : S10000x16.Idx) :
    A i = LC m c (pt (50 + (i 0).val / 200) (by have := idx2_lt0 (n0 := 10000) (n1 := 16) i; omega))
      (ix2 (⟨(i 0).val % 200, Nat.mod_lt _ (by omega)⟩ : Fin 200) (⟨(i 1).val, (i 1).isLt⟩ : Fin 16)) := by
  rw [final_9 m c A hA]
  unfold rowsArr rowVal
  rw [ptc_of_lt]

/-! ### Window 10: the second adjacency's scores, rows `200 i …` from point `50 + i` -/

/-- Window 10 is an output: never fetched. -/
theorem nofetch_10 : ∀ t : Fin cfg0.N, (cfg0.win 10).fetch t = false := fun _ => rfl
/-- The points that write window 10's block back. -/
theorem flush_10 : ∀ t : Fin cfg0.N, (cfg0.win 10).flush t = true ↔ t.val % 5 = 4 ∧ 50 ≤ t.val :=
  (by decide +kernel : ∀ t : Fin grid0.N, win0_10.flush t = true ↔ t.val % 5 = 4 ∧ 50 ≤ t.val)
/-- The 1000-row block window 10 is on at a point, -/
theorem index_10_0 : ∀ t : Fin cfg0.N, win0_10.index t (0 : Fin 2) = blk1 t.val :=
  (by decide +kernel : ∀ t : Fin grid0.N, win0_10.index t (0 : Fin 2) = blk1 t.val)
/-- all sixteen columns of it. -/
theorem index_10_1 : ∀ t : Fin cfg0.N, win0_10.index t (1 : Fin 2) = 0 :=
  (by decide +kernel : ∀ t : Fin grid0.N, win0_10.index t (1 : Fin 2) = 0)

/-- After point `t` the rows of window 10's current block written so far hold their rows of the assembled array. -/
theorem leaves_10 (t : Nat) (ht : t < 100) (X : Vec F S1000x16 .f32) (hX : (rdat m c).Leaves 10 (pt t ht) X)
    (y : S1000x16.Idx) (hy : (y 0).val < lim1 t) :
    X y = rowVal (ZC m c) 50 (blk1 t * 1000 + (y 0).val) ⟨(y 1).val, (y 1).isLt⟩ :=
  fill_second (ZC m c)
    (fun t Y => ∃ h : t < 100, (rdat m c).Finds 10 (pt t h) Y)
    (fun t X => ∃ h : t < 100, (rdat m c).Leaves 10 (pt t h) X)
    (fun t => ∃ h : t < 100, (cfg0.win 10).flush (pt t h) = true)
    (fun t X _ ⟨h, Y, hY, ha⟩ => ⟨Y, ⟨h, hY⟩, by rw [ptc_of_lt t h]; exact ha⟩)
    (fun t Y ht ⟨h, hY⟩ => by
      rcases ((rdat m c).finds_of_pos (nofetch_10 _) (Nat.succ_ne_zero t) Y).mp hY with hw | hl
      · exact .inl ⟨Nat.lt_of_succ_lt h, hw⟩
      · exact .inr ⟨Nat.lt_of_succ_lt h, hl⟩)
    (fun t ⟨h, hw⟩ => (flush_10 (pt t h)).mp hw)
    t ht X ⟨ht, hX⟩ y hy

/-- What a writing point writes back is its block of the assembled array. -/
theorem cut_10 (t : Fin cfg0.N) (X : Vec F S1000x16 .f32) (hf : (cfg0.win 10).flush t = true)
    (hX : (rdat m c).Leaves 10 t X) :
    (cfg0.win 10).cut (cfg0.grid.coords t) X = ((cfg0.win 10).blk t).view.read (Elt F) (rowsArr (ZC m c) 50) := by
  funext y
  have hlim : lim1 t.val = 1000 := by
    obtain ⟨h5, h50⟩ := (flush_10 t).mp hf
    unfold lim1; rw [if_neg (by omega), h5]
  have hy0 : (y 0).val < 1000 := (y 0).isLt
  have e := leaves_10 m c t.val (pt_lt t) X hX ((cfg0.win 10).xinj (cfg0.grid.coords t) y) (by rw [hlim]; exact hy0)
  show X ((cfg0.win 10).xinj (cfg0.grid.coords t) y) = rowsArr (ZC m c) 50 (((cfg0.win 10).blk t).view.emb y)
  refine e.trans ?_
  unfold rowsArr
  refine congrArg₂ (rowVal (ZC m c) 50) ?_ (Fin.ext ?_)
  · show blk1 t.val * 1000 + (y 0).val = win0_10.index t (0 : Fin 2) * 1000 + 1 * (y 0).val
    rw [index_10_0 t]; omega
  · show (y 1).val = win0_10.index t (1 : Fin 2) * 16 + 1 * (y 1).val
    rw [index_10_1 t]; omega

/-- An index of the array is under point `t`'s block iff each coordinate is in the block's range on its axis. -/
theorem mem_blk_10 (t : Fin cfg0.N) (i : S10000x16.Idx) :
    i ∈ ((cfg0.win 10).blk t).view.set ↔ ∀ a : Fin 2, win0_10.index t a * S1000x16.size a ≤ (i a).val
      ∧ (i a).val < win0_10.index t a * S1000x16.size a + S1000x16.size a := by
  show i ∈ ((View.whole main_v2_3).slice (win0_10.rect t)).set ↔ _
  rw [View.set_slice_whole, Rect.mem_set_unit]
  exact Iff.rfl

/-- Every row lies in the block written back at the point that completes its 1000-row block. -/
theorem cover_10 (i : S10000x16.Idx) :
    ∃ t : Fin cfg0.N, (cfg0.win 10).flush t = true ∧ i ∈ ((cfg0.win 10).blk t).view.set := by
  have hi0 : (i 0).val < 10000 := (i 0).isLt
  have hi1 : (i 1).val < 16 := (i 1).isLt
  have hn : 54 + (i 0).val / 1000 * 5 < 100 := by omega
  refine ⟨pt (54 + (i 0).val / 1000 * 5) hn, (flush_10 _).mpr ⟨?_, ?_⟩, ?_⟩
  · show (54 + (i 0).val / 1000 * 5) % 5 = 4; omega
  · show 50 ≤ 54 + (i 0).val / 1000 * 5; omega
  · rw [mem_blk_10]; intro a
    match a with
    | ⟨0, _⟩ =>
      show win0_10.index (pt (54 + (i 0).val / 1000 * 5) hn) (0 : Fin 2) * 1000 ≤ (i 0).val
        ∧ (i 0).val < win0_10.index (pt (54 + (i 0).val / 1000 * 5) hn) (0 : Fin 2) * 1000 + 1000
      rw [index_10_0]
      show blk1 (54 + (i 0).val / 1000 * 5) * 1000 ≤ (i 0).val ∧ (i 0).val < blk1 (54 + (i 0).val / 1000 * 5) * 1000 + 1000
      rw [show blk1 (54 + (i 0).val / 1000 * 5) = (54 + (i 0).val / 1000 * 5 - 50) / 5 from if_neg (by omega)]
      omega
    | ⟨1, _⟩ =>
      show win0_10.index (pt (54 + (i 0).val / 1000 * 5) hn) (1 : Fin 2) * 16 ≤ (i 1).val
        ∧ (i 1).val < win0_10.index (pt (54 + (i 0).val / 1000 * 5) hn) (1 : Fin 2) * 16 + 16
      rw [index_10_1]; omega

/-- THE FINAL ARRAY of window 10: the second adjacency's scores, rows `200 i …` from point `50 + i`. -/
theorem final_10 (A : Buf (Elt F) ((cfg0.win 10).arr.view.loc (c.tc : Thread nD τ)))
    (hA : (rdat m c).ArrAt 10 cfg0.N A) : A = rowsArr (ZC m c) 50 :=
  arrAt_eq_of_leaves_cover (rdat m c) 10 (rowsArr (ZC m c) 50) (fun t X hf hX => cut_10 m c t X hf hX)
    cover_10 A hA

/-- The same at an index: row `r` is row `r mod 200` of what point `50 + r / 200` computed. -/
theorem final_10_apply (A : Buf (Elt F) ((cfg0.win 10).arr.view.loc (c.tc : Thread nD τ)))
    (hA : (rdat m c).ArrAt 10 cfg0.N A) (i : S10000x16.Idx) :
    A i = ZC m c (pt (50 + (i 0).val / 200) (by have := idx2_lt0 (n0 := 10000) (n1 := 16) i; omega))
      (ix2 (⟨(i 0).val % 200, Nat.mod_lt _ (by omega)⟩ : Fin 200) (⟨(i 1).val, (i 1).isLt⟩ : Fin 16)) := by
  rw [final_10 m c A hA]
  unfold rowsArr rowVal
  rw [ptc_of_lt]

end Windows

end Cert.KernelIdeal.Gen

end
-- ==== Proof.Spec.lean ====
/-
  The mathematics both programs compute, stated once, index by index, on the extended reals.

  A two-layer graph convolution with shared weights over two dense adjacency matrices. For an adjacency
  matrix `A` (10000 × 10000), features `x` (10000 × 128), weights `W1` (128 × 16), `W2` (16 × 16) and
  biases `b1`, `b2` (16 entries each):

    s1 = x · W1,   h = max (A · s1 + b1) 0,   s2 = h · W2,   z = A · s2 + b2,
    lsm r q = z r q - log (∑ j, exp (z r j))

  (the logarithm of the softmax of a row, with no shift of the row: the shifted form
  `(z - M) - log (∑ exp (z - M))` is the same number whenever `z` and `M` are real).
-/
import Idealize.ShloMosaic.PureOps.Ideal
import Idealize.ShloMosaic.Lib.ValueIdx

noncomputable section

open scoped BigOperators

namespace Gcn

open Idealize.ShloMosaic Idealize.ShloMosaic.ValueIdx

/-- An `a × b` array of extended reals, indexed as the programs index it. -/
abbrev Mat (a b : Nat) : Type := (⟨2, ![a, b]⟩ : Shape).Idx → EReal

/-- A vector of `a` extended reals. -/
abbrev Vc (a : Nat) : Type := (⟨1, ![a]⟩ : Shape).Idx → EReal

/-- The matrix product: entry `(r, q)` is `∑ j, L r j * R j q`. -/
def mm {a k b : Nat} (L : Mat a k) (R : Mat k b) : Mat a b :=
  fun i => ∑ j : Fin k, L (ix2 (i 0) j) * R (ix2 j (i 1))

/-- A bias added to every row. -/
def addRow {a b : Nat} (M : Mat a b) (v : Vc b) : Mat a b :=
  fun i => M i + v (ix1 (i 1))

/-- The positive part, entry by entry. -/
def relu {a b : Nat} (M : Mat a b) : Mat a b := fun i => max (M i) 0

/-- The logarithm of the softmax of each row, unshifted: `z r q - log (∑ j, exp (z r j))`. -/
def logSoftmax {a b : Nat} (z : Mat a b) : Mat a b :=
  fun i => z i - Ideal.log (∑ j : Fin b, Ideal.exp (z (ix2 (i 0) j)))

/-- The first layer's support `x · W1`. -/
def s1 (x : Mat 10000 128) (W1 : Mat 128 16) : Mat 10000 16 := mm x W1

/-- The hidden features `max (A · (x · W1) + b1) 0`. -/
def hid (x : Mat 10000 128) (A : Mat 10000 10000) (W1 : Mat 128 16) (b1 : Vc 16) : Mat 10000 16 :=
  relu (addRow (mm A (s1 x W1)) b1)

/-- The second layer's support `h · W2`. -/
def s2 (x : Mat 10000 128) (A : Mat 10000 10000) (W1 : Mat 128 16) (b1 : Vc 16) (W2 : Mat 16 16) : Mat 10000 16 :=
  mm (hid x A W1 b1) W2

/-- The class scores `A · (h · W2) + b2`. -/
def scores (x : Mat 10000 128) (A : Mat 10000 10000) (W1 : Mat 128 16) (b1 : Vc 16) (W2 : Mat 16 16) (b2 : Vc 16) :
    Mat 10000 16 :=
  addRow (mm A (s2 x A W1 b1 W2)) b2

/-- The log-softmax of the class scores. -/
def logProbs (x : Mat 10000 128) (A : Mat 10000 10000) (W1 : Mat 128 16) (b1 : Vc 16) (W2 : Mat 16 16) (b2 : Vc 16) :
    Mat 10000 16 :=
  logSoftmax (scores x A W1 b1 W2 b2)

end Gcn

end
-- ==== Proof.Payload.lean ====
/-
  What the kernel body's pure terms compute at the ideal values, index by index.

  Each payload of the body is one term over the vectors the body loaded: a matrix product into a zero
  accumulator, a bias row repeated over the rows, a sum, a positive part, an exponential, a logarithm, a
  difference, and a product against a matrix of ones that sums a row's sixteen lanes. Read at an index
  `(r, q)` on the extended reals these are

    the first support       ∑ k, x r k * W1 k q
    the hidden block        max ((∑ k, A r k * s k q) + b q) 0
    the second support      ∑ j, hidden r j * W2 j q
    the scores block        (∑ k, A r k * s k q) + b q
    the log-softmax block   z r q - log (∑ j, exp (z r j))

  A matrix product into the zero splat is the plain sum of products over the contraction axis (the
  accumulator contributes `0 +`); a cast to the same shape is the identity; the bias row broadcast from
  `1 × 16` to `200 × 16` reads its one row at the column; the word `0x3F800000` denotes `1`, so a
  product against the matrix of ones is the sum of the row, `∑ j, e r j * 1 = ∑ j, e r j`.
-/
import proofs.«134387_g28252294873641_cont_9to1_2070_22_alg».proof.Proof.Gen.KernelIdeal.Skeleton
import proofs.«134387_g28252294873641_cont_9to1_2070_22_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The three matrix products into a zero accumulator, read at an index -/

/-- The left operand's row coordinate at an output index is the output's row. -/
theorem mm_10000x128_128x16_lrow (i : S10000x16.Idx) (c : dot_S10000x128_S128x16_S10000x16_1_0_0_1_n_n.contr.Idx) :
    (dot_S10000x128_S128x16_S10000x16_1_0_0_1_n_n.lhsIdx i c 0).val = (i 0).val := by
  unfold DotDims.lhsIdx
  rw [dif_neg (show ¬(0 : Fin S10000x128.rank) ∈ dot_S10000x128_S128x16_S10000x16_1_0_0_1_n_n.lhsBatch by decide),
    dif_pos (show (0 : Fin S10000x128.rank) ∈ dot_S10000x128_S128x16_S10000x16_1_0_0_1_n_n.lhsNonContracting by decide)]
  rfl
/-- The right operand's column coordinate at an output index is the output's column. -/
theorem mm_10000x128_128x16_rcol (i : S10000x16.Idx) (c : dot_S10000x128_S128x16_S10000x16_1_0_0_1_n_n.contr.Idx) :
    (dot_S10000x128_S128x16_S10000x16_1_0_0_1_n_n.rhsIdx i c 1).val = (i 1).val := by
  unfold DotDims.rhsIdx
  rw [dif_neg (show ¬(1 : Fin S128x16.rank) ∈ dot_S10000x128_S128x16_S10000x16_1_0_0_1_n_n.rhsBatch by decide),
    dif_pos (show (1 : Fin S128x16.rank) ∈ dot_S10000x128_S128x16_S10000x16_1_0_0_1_n_n.rhsNonContracting by decide)]
  rfl
/-- A `10000 × 128` by `128 × 16` product into the zero splat is `∑ k, L r k * R k q`: the contraction index is its one
    coordinate, the left operand is read at `(r, k)` and the right at `(k, q)`. -/
theorem mm_10000x128_128x16 (L : FVec Ideal S10000x128 .f32) (R : FVec Ideal S128x16 .f32) (r : Fin 10000) (q : Fin 16) :
    matmul dot_S10000x128_S128x16_S10000x16_1_0_0_1_n_n none L R (constant S10000x16 .f32 0x00000000#32) (ix2 r q)
      = ∑ k : Fin 128, L (ix2 r k) * R (ix2 k q) := by
  refine (Ideal.matmul_constant_zero_apply dot_S10000x128_S128x16_S10000x16_1_0_0_1_n_n none L R (ix2 r q)).trans ?_
  rw [← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 r q) ((contrEquiv1 dot_S10000x128_S128x16_S10000x16_1_0_0_1_n_n 128 rfl rfl).symm k) = ix2 r k :=
    funext fun a => Fin.ext (by
      match a with
      | ⟨0, _⟩ => exact mm_10000x128_128x16_lrow _ _
      | ⟨1, _⟩ => exact (dot_S10000x128_S128x16_S10000x16_1_0_0_1_n_n.lhsIdx_val_of_single rfl _ _).trans hk)
  have er : dot_S10000x128_S128x16_S10000x16_1_0_0_1_n_n.rhsIdx (ix2 r q) ((contrEquiv1 dot_S10000x128_S128x16_S10000x16_1_0_0_1_n_n 128 rfl rfl).symm k) = ix2 k q :=
    funext fun a => Fin.ext (by
      match a with
      | ⟨0, _⟩ => exact (dot_S10000x128_S128x16_S10000x16_1_0_0_1_n_n.rhsIdx_val_of_single rfl _ _).trans hk
      | ⟨1, _⟩ => exact mm_10000x128_128x16_rcol _ _)
  rw [el, er]

/-- The left operand's row coordinate at an output index is the output's row. -/
theorem mm_200x10000_10000x16_lrow (i : S200x16.Idx) (c : dot_S200x10000_S10000x16_S200x16_1_0_0_1_n_n.contr.Idx) :
    (dot_S200x10000_S10000x16_S200x16_1_0_0_1_n_n.lhsIdx i c 0).val = (i 0).val := by
  unfold DotDims.lhsIdx
  rw [dif_neg (show ¬(0 : Fin S200x10000.rank) ∈ dot_S200x10000_S10000x16_S200x16_1_0_0_1_n_n.lhsBatch by decide),
    dif_pos (show (0 : Fin S200x10000.rank) ∈ dot_S200x10000_S10000x16_S200x16_1_0_0_1_n_n.lhsNonContracting by decide)]
  rfl
/-- The right operand's column coordinate at an output index is the output's column. -/
theorem mm_200x10000_10000x16_rcol (i : S200x16.Idx) (c : dot_S200x10000_S10000x16_S200x16_1_0_0_1_n_n.contr.Idx) :
    (dot_S200x10000_S10000x16_S200x16_1_0_0_1_n_n.rhsIdx i c 1).val = (i 1).val := by
  unfold DotDims.rhsIdx
  rw [dif_neg (show ¬(1 : Fin S10000x16.rank) ∈ dot_S200x10000_S10000x16_S200x16_1_0_0_1_n_n.rhsBatch by decide),
    dif_pos (show (1 : Fin S10000x16.rank) ∈ dot_S200x10000_S10000x16_S200x16_1_0_0_1_n_n.rhsNonContracting by decide)]
  rfl
/-- A `200 × 10000` by `10000 × 16` product into the zero splat is `∑ k, L r k * R k q`. -/
theorem mm_200x10000_10000x16 (L : FVec Ideal S200x10000 .f32) (R : FVec Ideal S10000x16 .f32) (r : Fin 200) (q : Fin 16) :
    matmul dot_S200x10000_S10000x16_S200x16_1_0_0_1_n_n none L R (constant S200x16 .f32 0x00000000#32) (ix2 r q)
      = ∑ k : Fin 10000, L (ix2 r k) * R (ix2 k q) := by
  refine (Ideal.matmul_constant_zero_apply dot_S200x10000_S10000x16_S200x16_1_0_0_1_n_n none L R (ix2 r q)).trans ?_
  rw [← Equiv.sum_comp (contrEquiv1 dot_S200x10000_S10000x16_S200x16_1_0_0_1_n_n 10000 rfl rfl).symm]
  refine Finset.sum_congr rfl fun k _ => ?_
  have hk := contrEquiv1_symm_val dot_S200x10000_S10000x16_S200x16_1_0_0_1_n_n 10000 rfl rfl k
  have el : dot_S200x10000_S10000x16_S200x16_1_0_0_1_n_n.lhsIdx (ix2 r q) ((contrEquiv1 dot_S200x10000_S10000x16_S200x16_1_0_0_1_n_n 10000 rfl rfl).symm k) = ix2 r k :=
    funext fun a => Fin.ext (by
      match a with
      | ⟨0, _⟩ => exact mm_200x10000_10000x16_lrow _ _
      | ⟨1, _⟩ => exact (dot_S200x10000_S10000x16_S200x16_1_0_0_1_n_n.lhsIdx_val_of_single rfl _ _).trans hk)
  have er : dot_S200x10000_S10000x16_S200x16_1_0_0_1_n_n.rhsIdx (ix2 r q) ((contrEquiv1 dot_S200x10000_S10000x16_S200x16_1_0_0_1_n_n 10000 rfl rfl).symm k) = ix2 k q :=
    funext fun a => Fin.ext (by
      match a with
      | ⟨0, _⟩ => exact (dot_S200x10000_S10000x16_S200x16_1_0_0_1_n_n.rhsIdx_val_of_single rfl _ _).trans hk
      | ⟨1, _⟩ => exact mm_200x10000_10000x16_rcol _ _)
  rw [el, er]

/-- The left operand's row coordinate at an output index is the output's row. -/
theorem mm_200x16_16x16_lrow (i : S200x16.Idx) (c : dot_S200x16_S16x16_S200x16_1_0_0_1_n_n.contr.Idx) :
    (dot_S200x16_S16x16_S200x16_1_0_0_1_n_n.lhsIdx i c 0).val = (i 0).val := by
  unfold DotDims.lhsIdx
  rw [dif_neg (show ¬(0 : Fin S200x16.rank) ∈ dot_S200x16_S16x16_S200x16_1_0_0_1_n_n.lhsBatch by decide),
    dif_pos (show (0 : Fin S200x16.rank) ∈ dot_S200x16_S16x16_S200x16_1_0_0_1_n_n.lhsNonContracting by decide)]
  rfl
/-- The right operand's column coordinate at an output index is the output's column. -/
theorem mm_200x16_16x16_rcol (i : S200x16.Idx) (c : dot_S200x16_S16x16_S200x16_1_0_0_1_n_n.contr.Idx) :
    (dot_S200x16_S16x16_S200x16_1_0_0_1_n_n.rhsIdx i c 1).val = (i 1).val := by
  unfold DotDims.rhsIdx
  rw [dif_neg (show ¬(1 : Fin S16x16.rank) ∈ dot_S200x16_S16x16_S200x16_1_0_0_1_n_n.rhsBatch by decide),
    dif_pos (show (1 : Fin S16x16.rank) ∈ dot_S200x16_S16x16_S200x16_1_0_0_1_n_n.rhsNonContracting by decide)]
  rfl
/-- A `200 × 16` by `16 × 16` product into the zero splat is `∑ j, L r j * R j q`. -/
theorem mm_200x16_16x16 (L : FVec Ideal S200x16 .f32) (R : FVec Ideal S16x16 .f32) (r : Fin 200) (q : Fin 16) :
    matmul dot_S200x16_S16x16_S200x16_1_0_0_1_n_n none L R (constant S200x16 .f32 0x00000000#32) (ix2 r q)
      = ∑ k : Fin 16, L (ix2 r k) * R (ix2 k q) := by
  refine (Ideal.matmul_constant_zero_apply dot_S200x16_S16x16_S200x16_1_0_0_1_n_n none L R (ix2 r q)).trans ?_
  rw [← Equiv.sum_comp (contrEquiv1 dot_S200x16_S16x16_S200x16_1_0_0_1_n_n 16 rfl rfl).symm]
  refine Finset.sum_congr rfl fun k _ => ?_
  have hk := contrEquiv1_symm_val dot_S200x16_S16x16_S200x16_1_0_0_1_n_n 16 rfl rfl k
  have el : dot_S200x16_S16x16_S200x16_1_0_0_1_n_n.lhsIdx (ix2 r q) ((contrEquiv1 dot_S200x16_S16x16_S200x16_1_0_0_1_n_n 16 rfl rfl).symm k) = ix2 r k :=
    funext fun a => Fin.ext (by
      match a with
      | ⟨0, _⟩ => exact mm_200x16_16x16_lrow _ _
      | ⟨1, _⟩ => exact (dot_S200x16_S16x16_S200x16_1_0_0_1_n_n.lhsIdx_val_of_single rfl _ _).trans hk)
  have er : dot_S200x16_S16x16_S200x16_1_0_0_1_n_n.rhsIdx (ix2 r q) ((contrEquiv1 dot_S200x16_S16x16_S200x16_1_0_0_1_n_n 16 rfl rfl).symm k) = ix2 k q :=
    funext fun a => Fin.ext (by
      match a with
      | ⟨0, _⟩ => exact (dot_S200x16_S16x16_S200x16_1_0_0_1_n_n.rhsIdx_val_of_single rfl _ _).trans hk
      | ⟨1, _⟩ => exact mm_200x16_16x16_rcol _ _)
  rw [el, er]

/-! ## The first support -/

/-- The first payload at `(r, q)`: `∑ k, x r k * w k q` (the cast to the same shape is the identity). -/
theorem pay1_apply (x : Vec Ideal S10000x128 .f32) (w : Vec Ideal S128x16 .f32) (r : Fin 10000) (q : Fin 16) :
    k0_pay1 (F := Ideal) x w (ix2 r q) = ∑ k : Fin 128, x (ix2 r k) * w (ix2 k q) := by
  unfold k0_pay1
  refine (congrFun (shapeCast_self _ shapeCasts_S10000x16_S10000x16) (ix2 r q)).trans ?_
  exact mm_10000x128_128x16 x w r q

/-- The first payload is the matrix product `x · w` of the specification. -/
theorem pay1_eq (x : Vec Ideal S10000x128 .f32) (w : Vec Ideal S128x16 .f32) :
    (k0_pay1 (F := Ideal) x w : Gcn.Mat 10000 16) = Gcn.mm x w := by
  funext i
  obtain ⟨r, q, rfl⟩ : ∃ (r : Fin 10000) (q : Fin 16), i = ix2 r q := ⟨i 0, i 1, eq_ix2 i⟩
  exact pay1_apply x w r q

/-! ## The bias row and the two literals -/

/-- The bias row, cast to its own shape and repeated over the 200 rows, reads its one row at the column. -/
theorem biasRow_apply (b : Vec Ideal S1x16 .f32) (r : Fin 200) (q : Fin 16) :
    broadcastTo S200x16 (shapeCast S1x16 b shapeCasts_S1x16_S1x16) broadcasts_S1x16_S200x16 (ix2 r q)
      = b (ix2 (0 : Fin 1) q) := by
  rw [shapeCast_self]
  exact broadcastTo_1b_ab_apply b broadcasts_S1x16_S200x16 r q

/-- The word `0x3F800000` (sign 0, exponent 127, fraction 0) denotes `2 ^ 23 * 2 ^ (127 - 127 - 23) = 1`. -/
theorem ofBits_one_f32 : Ideal.ofBits .f32 0x3F800000#32 = 1 := by
  simp [Ideal.ofBits, Ideal.ieee, -EReal.coe_mul]; norm_num

/-! ## The hidden block: `max (A · s + b) 0` -/

/-- The hidden block at `(r, q)`: the positive part of `(∑ k, a r k * s k q) + b q`. -/
theorem pay3_apply (s : Vec Ideal S10000x16 .f32) (b : Vec Ideal S1x16 .f32) (a : Vec Ideal S200x10000 .f32)
    (r : Fin 200) (q : Fin 16) :
    k0_pay3 (F := Ideal) s b a (ix2 r q)
      = max ((∑ k : Fin 10000, a (ix2 r k) * s (ix2 k q)) + b (ix2 (0 : Fin 1) q)) 0 := by
  unfold k0_pay3 k0_pay2
  exact congrArg₂ max (congrArg₂ (· + ·) (mm_200x10000_10000x16 a s r q) (biasRow_apply b r q)) Ideal.ofBits_zero_f32

/-- The second adjacency's hidden block is the same term. -/
theorem pay4_apply (s : Vec Ideal S10000x16 .f32) (b : Vec Ideal S1x16 .f32) (a : Vec Ideal S200x10000 .f32)
    (r : Fin 200) (q : Fin 16) :
    k0_pay4 (F := Ideal) s b a (ix2 r q)
      = max ((∑ k : Fin 10000, a (ix2 r k) * s (ix2 k q)) + b (ix2 (0 : Fin 1) q)) 0 := by
  unfold k0_pay4 k0_pay2
  exact congrArg₂ max (congrArg₂ (· + ·) (mm_200x10000_10000x16 a s r q) (biasRow_apply b r q)) Ideal.ofBits_zero_f32

/-! ## The scores block: `A · s + b` -/

/-- The scores block at `(r, q)`: `(∑ k, a r k * s k q) + b q`. -/
theorem pay9_apply (b : Vec Ideal S1x16 .f32) (a : Vec Ideal S200x10000 .f32) (s : Vec Ideal S10000x16 .f32)
    (r : Fin 200) (q : Fin 16) :
    k0_pay9 (F := Ideal) b a s (ix2 r q)
      = (∑ k : Fin 10000, a (ix2 r k) * s (ix2 k q)) + b (ix2 (0 : Fin 1) q) := by
  unfold k0_pay9 k0_pay7
  exact congrArg₂ (· + ·) (mm_200x10000_10000x16 a s r q) (biasRow_apply b r q)

/-- The second adjacency's scores block is the same term. -/
theorem pay10_apply (b : Vec Ideal S1x16 .f32) (a : Vec Ideal S200x10000 .f32) (s : Vec Ideal S10000x16 .f32)
    (r : Fin 200) (q : Fin 16) :
    k0_pay10 (F := Ideal) b a s (ix2 r q)
      = (∑ k : Fin 10000, a (ix2 r k) * s (ix2 k q)) + b (ix2 (0 : Fin 1) q) := by
  unfold k0_pay10 k0_pay7
  exact congrArg₂ (· + ·) (mm_200x10000_10000x16 a s r q) (biasRow_apply b r q)

/-! ## The second support: `hidden · W2` -/

/-- The second support's block at `(r, q)`: `∑ j, hidden r j * w2 j q` over the hidden block of the first
    adjacency (the cast to the same shape is the identity). -/
theorem pay5_apply (s : Vec Ideal S10000x16 .f32) (b : Vec Ideal S1x16 .f32) (a : Vec Ideal S200x10000 .f32)
    (w2 : Vec Ideal S16x16 .f32) (r : Fin 200) (q : Fin 16) :
    k0_pay5 (F := Ideal) s b a w2 (ix2 r q)
      = ∑ j : Fin 16, k0_pay3 (F := Ideal) s b a (ix2 r j) * w2 (ix2 j q) := by
  unfold k0_pay5
  refine (congrFun (shapeCast_self _ shapeCasts_S200x16_S200x16) (ix2 r q)).trans ?_
  exact mm_200x16_16x16 (k0_pay3 (F := Ideal) s b a) w2 r q

/-- The same over the hidden block of the second adjacency. -/
theorem pay6_apply (s : Vec Ideal S10000x16 .f32) (b : Vec Ideal S1x16 .f32) (a : Vec Ideal S200x10000 .f32)
    (w2 : Vec Ideal S16x16 .f32) (r : Fin 200) (q : Fin 16) :
    k0_pay6 (F := Ideal) s b a w2 (ix2 r q)
      = ∑ j : Fin 16, k0_pay4 (F := Ideal) s b a (ix2 r j) * w2 (ix2 j q) := by
  unfold k0_pay6
  refine (congrFun (shapeCast_self _ shapeCasts_S200x16_S200x16) (ix2 r q)).trans ?_
  exact mm_200x16_16x16 (k0_pay4 (F := Ideal) s b a) w2 r q

/-! ## The log-softmax block: `z - log (∑ exp z)` -/

/-- A product against the matrix of ones sums the row: every factor on the right is the word `0x3F800000`,
    which denotes `1`, so `∑ j, e r j * 1 = ∑ j, e r j`. -/
theorem laneSum_apply (e : FVec Ideal S200x16 .f32) (r : Fin 200) (q : Fin 16) :
    matmul dot_S200x16_S16x16_S200x16_1_0_0_1_n_n none e (k0_pay8 (F := Ideal))
        (constant S200x16 .f32 0x00000000#32) (ix2 r q)
      = ∑ j : Fin 16, e (ix2 r j) := by
  refine (mm_200x16_16x16 e (k0_pay8 (F := Ideal)) r q).trans ?_
  refine Finset.sum_congr rfl fun j _ => ?_
  show e (ix2 r j) * Ideal.ofBits .f32 0x3F800000#32 = e (ix2 r j)
  rw [ofBits_one_f32, mul_one]

/-- The log-softmax block at `(r, q)` over the scores block `z` of the first adjacency:
    `z r q - log (∑ j, exp (z r j))`. -/
theorem pay11_apply (b : Vec Ideal S1x16 .f32) (a : Vec Ideal S200x10000 .f32) (s : Vec Ideal S10000x16 .f32)
    (r : Fin 200) (q : Fin 16) :
    k0_pay11 (F := Ideal) b a s (ix2 r q)
      = k0_pay9 (F := Ideal) b a s (ix2 r q)
        - Ideal.log (∑ j : Fin 16, Ideal.exp (k0_pay9 (F := Ideal) b a s (ix2 r j))) := by
  unfold k0_pay11
  exact congrArg (fun t => k0_pay9 (F := Ideal) b a s (ix2 r q) - Ideal.log t)
    (laneSum_apply (Idealize.ShloMosaic.exp (k0_pay9 (F := Ideal) b a s)) r q)

/-- The same over the scores block of the second adjacency. -/
theorem pay12_apply (b : Vec Ideal S1x16 .f32) (a : Vec Ideal S200x10000 .f32) (s : Vec Ideal S10000x16 .f32)
    (r : Fin 200) (q : Fin 16) :
    k0_pay12 (F := Ideal) b a s (ix2 r q)
      = k0_pay10 (F := Ideal) b a s (ix2 r q)
        - Ideal.log (∑ j : Fin 16, Ideal.exp (k0_pay10 (F := Ideal) b a s (ix2 r j))) := by
  unfold k0_pay12
  exact congrArg (fun t => k0_pay10 (F := Ideal) b a s (ix2 r q) - Ideal.log t)
    (laneSum_apply (Idealize.ShloMosaic.exp (k0_pay10 (F := Ideal) b a s)) r q)

/-! ## The payloads in the specification's vocabulary, on a block

The same five facts as equations between functions on a `200 × 16` block, written with the specification's matrix
product, bias addition, positive part and log-softmax at the block's extents. -/

/-- The bias row `1 × 16` as a vector of sixteen entries. -/
def rowVec (b : Vec Ideal S1x16 .f32) : Gcn.Vc 16 := fun i => b (ix2 (0 : Fin 1) (i 0))

/-- The hidden block is `relu (a · s + b)`. -/
theorem pay3_eq (s : Vec Ideal S10000x16 .f32) (b : Vec Ideal S1x16 .f32) (a : Vec Ideal S200x10000 .f32) :
    (k0_pay3 (F := Ideal) s b a : Gcn.Mat 200 16) = Gcn.relu (Gcn.addRow (Gcn.mm a s) (rowVec b)) := by
  funext i
  obtain ⟨r, q, rfl⟩ : ∃ (r : Fin 200) (q : Fin 16), i = ix2 r q := ⟨i 0, i 1, eq_ix2 i⟩
  exact pay3_apply s b a r q

/-- So is the second adjacency's. -/
theorem pay4_eq (s : Vec Ideal S10000x16 .f32) (b : Vec Ideal S1x16 .f32) (a : Vec Ideal S200x10000 .f32) :
    (k0_pay4 (F := Ideal) s b a : Gcn.Mat 200 16) = Gcn.relu (Gcn.addRow (Gcn.mm a s) (rowVec b)) := by
  funext i
  obtain ⟨r, q, rfl⟩ : ∃ (r : Fin 200) (q : Fin 16), i = ix2 r q := ⟨i 0, i 1, eq_ix2 i⟩
  exact pay4_apply s b a r q

/-- The second support's block is `hidden · w2`. -/
theorem pay5_eq (s : Vec Ideal S10000x16 .f32) (b : Vec Ideal S1x16 .f32) (a : Vec Ideal S200x10000 .f32)
    (w2 : Vec Ideal S16x16 .f32) :
    (k0_pay5 (F := Ideal) s b a w2 : Gcn.Mat 200 16) = Gcn.mm (k0_pay3 (F := Ideal) s b a : Gcn.Mat 200 16) w2 := by
  funext i
  obtain ⟨r, q, rfl⟩ : ∃ (r : Fin 200) (q : Fin 16), i = ix2 r q := ⟨i 0, i 1, eq_ix2 i⟩
  exact pay5_apply s b a w2 r q

/-- So is the second adjacency's. -/
theorem pay6_eq (s : Vec Ideal S10000x16 .f32) (b : Vec Ideal S1x16 .f32) (a : Vec Ideal S200x10000 .f32)
    (w2 : Vec Ideal S16x16 .f32) :
    (k0_pay6 (F := Ideal) s b a w2 : Gcn.Mat 200 16) = Gcn.mm (k0_pay4 (F := Ideal) s b a : Gcn.Mat 200 16) w2 := by
  funext i
  obtain ⟨r, q, rfl⟩ : ∃ (r : Fin 200) (q : Fin 16), i = ix2 r q := ⟨i 0, i 1, eq_ix2 i⟩
  exact pay6_apply s b a w2 r q

/-- The scores block is `a · s + b`. -/
theorem pay9_eq (b : Vec Ideal S1x16 .f32) (a : Vec Ideal S200x10000 .f32) (s : Vec Ideal S10000x16 .f32) :
    (k0_pay9 (F := Ideal) b a s : Gcn.Mat 200 16) = Gcn.addRow (Gcn.mm a s) (rowVec b) := by
  funext i
  obtain ⟨r, q, rfl⟩ : ∃ (r : Fin 200) (q : Fin 16), i = ix2 r q := ⟨i 0, i 1, eq_ix2 i⟩
  exact pay9_apply b a s r q

/-- So is the second adjacency's. -/
theorem pay10_eq (b : Vec Ideal S1x16 .f32) (a : Vec Ideal S200x10000 .f32) (s : Vec Ideal S10000x16 .f32) :
    (k0_pay10 (F := Ideal) b a s : Gcn.Mat 200 16) = Gcn.addRow (Gcn.mm a s) (rowVec b) := by
  funext i
  obtain ⟨r, q, rfl⟩ : ∃ (r : Fin 200) (q : Fin 16), i = ix2 r q := ⟨i 0, i 1, eq_ix2 i⟩
  exact pay10_apply b a s r q

/-- The log-softmax block is the specification's unshifted log-softmax of the scores block. -/
theorem pay11_eq (b : Vec Ideal S1x16 .f32) (a : Vec Ideal S200x10000 .f32) (s : Vec Ideal S10000x16 .f32) :
    (k0_pay11 (F := Ideal) b a s : Gcn.Mat 200 16) = Gcn.logSoftmax (k0_pay9 (F := Ideal) b a s : Gcn.Mat 200 16) := by
  funext i
  obtain ⟨r, q, rfl⟩ : ∃ (r : Fin 200) (q : Fin 16), i = ix2 r q := ⟨i 0, i 1, eq_ix2 i⟩
  exact pay11_apply b a s r q

/-- So is the second adjacency's. -/
theorem pay12_eq (b : Vec Ideal S1x16 .f32) (a : Vec Ideal S200x10000 .f32) (s : Vec Ideal S10000x16 .f32) :
    (k0_pay12 (F := Ideal) b a s : Gcn.Mat 200 16) = Gcn.logSoftmax (k0_pay10 (F := Ideal) b a s : Gcn.Mat 200 16) := by
  funext i
  obtain ⟨r, q, rfl⟩ : ∃ (r : Fin 200) (q : Fin 16), i = ix2 r q := ⟨i 0, i 1, eq_ix2 i⟩
  exact pay12_apply b a s r q

end Cert.KernelIdeal.Pay

end
-- ==== Proof.KernelSpec.lean ====
/-
  The pipelined kernel's closed forms are the specification's functions of the launch arrays.

  Every input block a grid point reads is a rectangle of a launch array: the features, the two weight matrices and the two
  bias rows whole, each adjacency matrix 200 rows at a time, point `t` taking rows `200 (t mod 50) … 200 (t mod 50) + 199`.
  A product of those 200 rows of `A` with a full support `s` is rows `200 (t mod 50) …` of `A · s`, entry by entry the same
  sum over the contraction index; adding the bias row, taking the positive part, multiplying with `W2` and taking the
  logarithm of the softmax all act row by row. So the hidden features, the second support, the scores and the
  log-probabilities a point computes are the corresponding 200 rows of the specification's arrays, and the second support
  assembled from the fifty first-phase points is the specification's whole second support. Only sums are re-indexed: nothing
  here needs the entries to be finite.
-/
import proofs.«134387_g28252294873641_cont_9to1_2070_22_alg».proof.Proof.Data
import proofs.«134387_g28252294873641_cont_9to1_2070_22_alg».proof.Proof.Payload
import proofs.«134387_g28252294873641_cont_9to1_2070_22_alg».proof.Proof.Spec

set_option maxRecDepth 16384

noncomputable section

open scoped BigOperators

namespace Cert.KernelIdeal.KSpec

open Cert.KernelIdeal Cert.KernelIdeal.Gen Cert.KernelIdeal.Pay
open Idealize.ShloMosaic Idealize.ShloMosaic.TcCoe Idealize.ShloMosaic.ValueIdx Idealize.SL.Sem

variable (m : (ℓ : Loc nD τ sig) → Buf (Elt Ideal) ℓ) (c : Dev nD)

/-! ## The windows' index maps over the grid

The grid's point `t` has coordinates `(t / 50, t mod 50)`. The features, the two weight matrices and the two bias rows are
staged whole at every point; each adjacency matrix is staged 200 rows at a time, at block row `t mod 50`. -/

theorem idx_whole : ∀ t : Fin cfg0.N, (win0_0.index t (0 : Fin 2) = 0 ∧ win0_0.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem idx_rows : ∀ t : Fin cfg0.N, (win0_1.index t (0 : Fin 2) = t.val % 50 ∧ win0_1.index t (1 : Fin 2) = 0)
    ∧ (win0_2.index t (0 : Fin 2) = t.val % 50 ∧ win0_2.index t (1 : Fin 2) = 0) :=
  (by decide +kernel : ∀ t : Fin grid0.N, _)

/-! ## The input blocks, read off the launch arrays -/

/-- The features are staged whole: every point's block is the array. -/
theorem blk0_eq (t : Fin cfg0.N) :
    (iblk m c 0 t : Gcn.Mat 10000 128) = (m ((c.tc : Thread nD τ).loc main_arg0) : Gcn.Mat 10000 128) := by
  funext j
  rw [← V_main_arg0 m c]
  show V m c main_arg0 (((cfg0.win 0).blk t).view.emb j) = V m c main_arg0 j
  refine congrArg _ (funext fun a => Fin.ext ?_)
  obtain ⟨⟨e0, e1⟩, -⟩ := idx_whole t
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The first weight matrix is staged whole. -/
theorem blk3_eq (t : Fin cfg0.N) :
    (iblk m c 3 t : Gcn.Mat 128 16) = (m ((c.tc : Thread nD τ).loc main_arg3) : Gcn.Mat 128 16) := by
  funext j
  rw [← V_main_arg3 m c]
  show V m c main_arg3 (((cfg0.win 3).blk t).view.emb j) = V m c main_arg3 j
  refine congrArg _ (funext fun a => Fin.ext ?_)
  obtain ⟨-, ⟨e0, e1⟩, -⟩ := idx_whole t
  match a with
  | ⟨0, _⟩ => show win0_3.index t (0 : Fin 2) * 128 + 1 * (j 0).val = (j 0).val; omega
  | ⟨1, _⟩ => show win0_3.index t (1 : Fin 2) * 16 + 1 * (j 1).val = (j 1).val; omega

/-- The second weight matrix is staged whole. -/
theorem blk4_eq (t : Fin cfg0.N) :
    (iblk m c 4 t : Gcn.Mat 16 16) = (m ((c.tc : Thread nD τ).loc main_arg5) : Gcn.Mat 16 16) := by
  funext j
  rw [← V_main_arg5 m c]
  show V m c main_arg5 (((cfg0.win 4).blk t).view.emb j) = V m c main_arg5 j
  refine congrArg _ (funext fun a => Fin.ext ?_)
  obtain ⟨-, -, ⟨e0, e1⟩, -⟩ := idx_whole t
  match a with
  | ⟨0, _⟩ => show win0_4.index t (0 : Fin 2) * 16 + 1 * (j 0).val = (j 0).val; omega
  | ⟨1, _⟩ => show win0_4.index t (1 : Fin 2) * 16 + 1 * (j 1).val = (j 1).val; omega

/-- Point `t`'s block of the first adjacency matrix is its rows `200 (t mod 50) …`: entry `(r, k)` of the block is entry `(200 (t mod 50) + r, k)` of the matrix. -/
theorem blk1_apply (t : Fin cfg0.N) (r : Fin 200) (k : Fin 10000) :
    (iblk m c 1 t : Gcn.Mat 200 10000) (ix2 r k)
      = (m ((c.tc : Thread nD τ).loc main_arg1) : Gcn.Mat 10000 10000)
          (ix2 (⟨t.val % 50 * 200 + r.val, by have := r.isLt; omega⟩ : Fin 10000) k) := by
  rw [← V_main_arg1 m c]
  show V m c main_arg1 (((cfg0.win 1).blk t).view.emb (ix2 r k)) = V m c main_arg1 _
  refine congrArg _ (funext fun a => Fin.ext ?_)
  obtain ⟨⟨e0, e1⟩, -⟩ := idx_rows t
  match a with
  | ⟨0, _⟩ => show win0_1.index t (0 : Fin 2) * 200 + 1 * r.val = t.val % 50 * 200 + r.val; omega
  | ⟨1, _⟩ => show win0_1.index t (1 : Fin 2) * 10000 + 1 * k.val = k.val; omega

/-- The same for the second adjacency matrix. -/
theorem blk2_apply (t : Fin cfg0.N) (r : Fin 200) (k : Fin 10000) :
    (iblk m c 2 t : Gcn.Mat 200 10000) (ix2 r k)
      = (m ((c.tc : Thread nD τ).loc main_arg2) : Gcn.Mat 10000 10000)
          (ix2 (⟨t.val % 50 * 200 + r.val, by have := r.isLt; omega⟩ : Fin 10000) k) := by
  rw [← V_main_arg2 m c]
  show V m c main_arg2 (((cfg0.win 2).blk t).view.emb (ix2 r k)) = V m c main_arg2 _
  refine congrArg _ (funext fun a => Fin.ext ?_)
  obtain ⟨-, ⟨e0, e1⟩⟩ := idx_rows t
  match a with
  | ⟨0, _⟩ => show win0_2.index t (0 : Fin 2) * 200 + 1 * r.val = t.val % 50 * 200 + r.val; omega
  | ⟨1, _⟩ => show win0_2.index t (1 : Fin 2) * 10000 + 1 * k.val = k.val; omega

/-- The first bias, reshaped on the host from sixteen entries to a `1 × 16` row and staged whole: the row's entry `(0, q)` is the bias's entry `q`. -/
theorem blk5_row (t : Fin cfg0.N) : rowVec (iblk m c 5 t) = (m ((c.tc : Thread nD τ).loc main_arg4) : Gcn.Vc 16) := by
  funext i
  obtain ⟨q, rfl⟩ : ∃ q : Fin 16, i = ix1 q := ⟨i 0, eq_ix1 i⟩
  have hV : (V m c main_v0 : S1x16.Idx → EReal)
      = shapeCast S1x16 (m ((c.tc : Thread nD τ).loc main_arg4) : S16.Idx → EReal) shapeCasts_S16_S1x16 := by
    dsimp only [Gen.V, Gen.hostOps0]; after_results; rfl
  have hemb : ((cfg0.win 5).blk t).view.emb (ix2 (0 : Fin 1) q) = ix2 (0 : Fin 1) q :=
    funext fun a => Fin.ext (by
      obtain ⟨-, -, -, ⟨e0, e1⟩, -⟩ := idx_whole t
      match a with
      | ⟨0, _⟩ => show win0_5.index t (0 : Fin 2) * 1 + 1 * 0 = 0; omega
      | ⟨1, _⟩ => show win0_5.index t (1 : Fin 2) * 16 + 1 * q.val = q.val; omega)
  show V m c main_v0 (((cfg0.win 5).blk t).view.emb (ix2 (0 : Fin 1) q)) = _
  rw [hemb, hV, shapeCast_addUnit_apply]
  exact congrArg _ (funext fun a => by match a with | ⟨0, _⟩ => rfl)

/-- The same for the second bias. -/
theorem blk6_row (t : Fin cfg0.N) : rowVec (iblk m c 6 t) = (m ((c.tc : Thread nD τ).loc main_arg6) : Gcn.Vc 16) := by
  funext i
  obtain ⟨q, rfl⟩ : ∃ q : Fin 16, i = ix1 q := ⟨i 0, eq_ix1 i⟩
  have hV : (V m c main_v1 : S1x16.Idx → EReal)
      = shapeCast S1x16 (m ((c.tc : Thread nD τ).loc main_arg6) : S16.Idx → EReal) shapeCasts_S16_S1x16 := by
    dsimp only [Gen.V, Gen.hostOps0]; after_results; rfl
  have hemb : ((cfg0.win 6).blk t).view.emb (ix2 (0 : Fin 1) q) = ix2 (0 : Fin 1) q :=
    funext fun a => Fin.ext (by
      obtain ⟨-, -, -, -, ⟨e0, e1⟩⟩ := idx_whole t
      match a with
      | ⟨0, _⟩ => show win0_6.index t (0 : Fin 2) * 1 + 1 * 0 = 0; omega
      | ⟨1, _⟩ => show win0_6.index t (1 : Fin 2) * 16 + 1 * q.val = q.val; omega)
  show V m c main_v1 (((cfg0.win 6).blk t).view.emb (ix2 (0 : Fin 1) q)) = _
  rw [hemb, hV, shapeCast_addUnit_apply]
  exact congrArg _ (funext fun a => by match a with | ⟨0, _⟩ => rfl)

/-! ## The launch arrays, named -/

/-- The features. -/
abbrev aX : Gcn.Mat 10000 128 := m ((c.tc : Thread nD τ).loc main_arg0)
/-- The first adjacency matrix. -/
abbrev aA1 : Gcn.Mat 10000 10000 := m ((c.tc : Thread nD τ).loc main_arg1)
/-- The second adjacency matrix. -/
abbrev aA2 : Gcn.Mat 10000 10000 := m ((c.tc : Thread nD τ).loc main_arg2)
/-- The first layer's weights. -/
abbrev aW1 : Gcn.Mat 128 16 := m ((c.tc : Thread nD τ).loc main_arg3)
/-- The first layer's bias. -/
abbrev aB1 : Gcn.Vc 16 := m ((c.tc : Thread nD τ).loc main_arg4)
/-- The second layer's weights. -/
abbrev aW2 : Gcn.Mat 16 16 := m ((c.tc : Thread nD τ).loc main_arg5)
/-- The second layer's bias. -/
abbrev aB2 : Gcn.Vc 16 := m ((c.tc : Thread nD τ).loc main_arg6)

/-! ## The first layer -/

/-- Row `200 (t mod 50) + r` is a row of the array. -/
theorem row_lt (t : Fin cfg0.N) (r : Fin 200) : t.val % 50 * 200 + r.val < 10000 := by have := r.isLt; omega

/-- The first support the first point computes is the specification's `x · W1`. -/
theorem S1_eq : (S1 m c : Gcn.Mat 10000 16) = Gcn.s1 (aX m c) (aW1 m c) :=
  (pay1_eq _ _).trans (congrArg₂ Gcn.mm (blk0_eq m c _) (blk3_eq m c _))

/-- The hidden rows point `t` computes from its block of the first adjacency matrix are rows `200 (t mod 50) …` of the
    specification's hidden features: at row `R = 200 (t mod 50) + r`. -/
theorem HG_at (t : Fin cfg0.N) (r : Fin 200) (q : Fin 16) (R : Fin 10000) (hR : R.val = t.val % 50 * 200 + r.val) :
    (HG m c t : Gcn.Mat 200 16) (ix2 r q) = Gcn.hid (aX m c) (aA1 m c) (aW1 m c) (aB1 m c) (ix2 R q) := by
  obtain rfl : R = ⟨t.val % 50 * 200 + r.val, row_lt t r⟩ := Fin.ext hR
  unfold HG
  refine (pay3_apply _ _ _ r q).trans ?_
  rw [show iblk m c 5 t (ix2 (0 : Fin 1) q) = aB1 m c (ix1 q) from congrFun (blk5_row m c t) (ix1 q)]
  change _ = max ((∑ k : Fin 10000, aA1 m c (ix2 (⟨t.val % 50 * 200 + r.val, row_lt t r⟩ : Fin 10000) k)
    * Gcn.s1 (aX m c) (aW1 m c) (ix2 k q)) + aB1 m c (ix1 q)) 0
  refine congrArg (fun z => max (z + aB1 m c (ix1 q)) 0) (Finset.sum_congr rfl fun k _ => ?_)
  rw [blk1_apply m c t r k, S1_eq m c]

/-- The hidden rows point `t` computes from its block of the second adjacency matrix are rows `200 (t mod 50) …` of the
    specification's hidden features: at row `R = 200 (t mod 50) + r`. -/
theorem HC_at (t : Fin cfg0.N) (r : Fin 200) (q : Fin 16) (R : Fin 10000) (hR : R.val = t.val % 50 * 200 + r.val) :
    (HC m c t : Gcn.Mat 200 16) (ix2 r q) = Gcn.hid (aX m c) (aA2 m c) (aW1 m c) (aB1 m c) (ix2 R q) := by
  obtain rfl : R = ⟨t.val % 50 * 200 + r.val, row_lt t r⟩ := Fin.ext hR
  unfold HC
  refine (pay4_apply _ _ _ r q).trans ?_
  rw [show iblk m c 5 t (ix2 (0 : Fin 1) q) = aB1 m c (ix1 q) from congrFun (blk5_row m c t) (ix1 q)]
  change _ = max ((∑ k : Fin 10000, aA2 m c (ix2 (⟨t.val % 50 * 200 + r.val, row_lt t r⟩ : Fin 10000) k)
    * Gcn.s1 (aX m c) (aW1 m c) (ix2 k q)) + aB1 m c (ix1 q)) 0
  refine congrArg (fun z => max (z + aB1 m c (ix1 q)) 0) (Finset.sum_congr rfl fun k _ => ?_)
  rw [blk2_apply m c t r k, S1_eq m c]

/-! ## The second layer -/

/-- The rows of the second support point `t` computes over the first adjacency matrix: its hidden rows times `W2`, rows
    `200 (t mod 50) …` of the specification's second support. -/
theorem S2G_at (t : Fin cfg0.N) (r : Fin 200) (q : Fin 16) (R : Fin 10000) (hR : R.val = t.val % 50 * 200 + r.val) :
    (S2G m c t : Gcn.Mat 200 16) (ix2 r q)
      = Gcn.s2 (aX m c) (aA1 m c) (aW1 m c) (aB1 m c) (aW2 m c) (ix2 R q) := by
  unfold S2G
  refine (pay5_apply _ _ _ _ r q).trans ?_
  change _ = ∑ j : Fin 16, Gcn.hid (aX m c) (aA1 m c) (aW1 m c) (aB1 m c) (ix2 R j) * aW2 m c (ix2 j q)
  refine Finset.sum_congr rfl fun j _ => ?_
  rw [show k0_pay3 (F := Ideal) (S1 m c) (iblk m c 5 t) (iblk m c 1 t) (ix2 r j) = _ from HG_at m c t r j R hR,
    blk4_eq m c t]

/-- The second support assembled from the fifty first-phase points — row `y` from point `y / 200`, at its row
    `y mod 200` — is the specification's whole second support. -/
theorem S2Gf_eq : (S2Gf m c : Gcn.Mat 10000 16) = Gcn.s2 (aX m c) (aA1 m c) (aW1 m c) (aB1 m c) (aW2 m c) := by
  funext y
  have hy := idx2_lt0 (n0 := 10000) (n1 := 16) y
  unfold S2Gf
  refine (S2G_at m c _ _ _ (⟨(y 0).val, hy⟩ : Fin 10000) ?_).trans ?_
  · show (y 0).val = (y 0).val / 200 % 50 * 200 + (y 0).val % 200
    omega
  · exact congrArg _ (funext fun a => by match a with | ⟨0, _⟩ => rfl | ⟨1, _⟩ => rfl)

/-- The rows of scores a point computes over the first adjacency matrix are rows `200 (t mod 50) …` of the specification's
    scores. -/
theorem ZG_at (t : Fin cfg0.N) (r : Fin 200) (q : Fin 16) (R : Fin 10000) (hR : R.val = t.val % 50 * 200 + r.val) :
    (ZG m c t : Gcn.Mat 200 16) (ix2 r q)
      = Gcn.scores (aX m c) (aA1 m c) (aW1 m c) (aB1 m c) (aW2 m c) (aB2 m c) (ix2 R q) := by
  obtain rfl : R = ⟨t.val % 50 * 200 + r.val, row_lt t r⟩ := Fin.ext hR
  unfold ZG
  refine (pay9_apply _ _ _ r q).trans ?_
  rw [show iblk m c 6 t (ix2 (0 : Fin 1) q) = aB2 m c (ix1 q) from congrFun (blk6_row m c t) (ix1 q)]
  change _ = (∑ k : Fin 10000, aA1 m c (ix2 (⟨t.val % 50 * 200 + r.val, row_lt t r⟩ : Fin 10000) k)
    * Gcn.s2 (aX m c) (aA1 m c) (aW1 m c) (aB1 m c) (aW2 m c) (ix2 k q)) + aB2 m c (ix1 q)
  refine congrArg (fun z => z + aB2 m c (ix1 q)) (Finset.sum_congr rfl fun k _ => ?_)
  rw [blk1_apply m c t r k, S2Gf_eq m c]

/-- The log-softmax of those rows is the same rows of the specification's log-probabilities: the logarithm of the softmax
    acts on each row by itself. -/
theorem LG_at (t : Fin cfg0.N) (r : Fin 200) (q : Fin 16) (R : Fin 10000) (hR : R.val = t.val % 50 * 200 + r.val) :
    (LG m c t : Gcn.Mat 200 16) (ix2 r q)
      = Gcn.logProbs (aX m c) (aA1 m c) (aW1 m c) (aB1 m c) (aW2 m c) (aB2 m c) (ix2 R q) := by
  unfold LG
  refine (pay11_apply _ _ _ r q).trans ?_
  have hz : ∀ j : Fin 16, k0_pay9 (F := Ideal) (iblk m c 6 t) (iblk m c 1 t) (S2Gf m c) (ix2 r j)
      = Gcn.scores (aX m c) (aA1 m c) (aW1 m c) (aB1 m c) (aW2 m c) (aB2 m c) (ix2 R j) :=
    fun j => ZG_at m c t r j R hR
  rw [hz q, Finset.sum_congr rfl fun j _ => congrArg Ideal.exp (hz j)]
  rfl

/-- The rows of the second support point `t` computes over the second adjacency matrix: its hidden rows times `W2`, rows
    `200 (t mod 50) …` of the specification's second support. -/
theorem S2C_at (t : Fin cfg0.N) (r : Fin 200) (q : Fin 16) (R : Fin 10000) (hR : R.val = t.val % 50 * 200 + r.val) :
    (S2C m c t : Gcn.Mat 200 16) (ix2 r q)
      = Gcn.s2 (aX m c) (aA2 m c) (aW1 m c) (aB1 m c) (aW2 m c) (ix2 R q) := by
  unfold S2C
  refine (pay6_apply _ _ _ _ r q).trans ?_
  change _ = ∑ j : Fin 16, Gcn.hid (aX m c) (aA2 m c) (aW1 m c) (aB1 m c) (ix2 R j) * aW2 m c (ix2 j q)
  refine Finset.sum_congr rfl fun j _ => ?_
  rw [show k0_pay4 (F := Ideal) (S1 m c) (iblk m c 5 t) (iblk m c 2 t) (ix2 r j) = _ from HC_at m c t r j R hR,
    blk4_eq m c t]

/-- The second support assembled from the fifty first-phase points — row `y` from point `y / 200`, at its row
    `y mod 200` — is the specification's whole second support. -/
theorem S2Cf_eq : (S2Cf m c : Gcn.Mat 10000 16) = Gcn.s2 (aX m c) (aA2 m c) (aW1 m c) (aB1 m c) (aW2 m c) := by
  funext y
  have hy := idx2_lt0 (n0 := 10000) (n1 := 16) y
  unfold S2Cf
  refine (S2C_at m c _ _ _ (⟨(y 0).val, hy⟩ : Fin 10000) ?_).trans ?_
  · show (y 0).val = (y 0).val / 200 % 50 * 200 + (y 0).val % 200
    omega
  · exact congrArg _ (funext fun a => by match a with | ⟨0, _⟩ => rfl | ⟨1, _⟩ => rfl)

/-- The rows of scores a point computes over the second adjacency matrix are rows `200 (t mod 50) …` of the specification's
    scores. -/
theorem ZC_at (t : Fin cfg0.N) (r : Fin 200) (q : Fin 16) (R : Fin 10000) (hR : R.val = t.val % 50 * 200 + r.val) :
    (ZC m c t : Gcn.Mat 200 16) (ix2 r q)
      = Gcn.scores (aX m c) (aA2 m c) (aW1 m c) (aB1 m c) (aW2 m c) (aB2 m c) (ix2 R q) := by
  obtain rfl : R = ⟨t.val % 50 * 200 + r.val, row_lt t r⟩ := Fin.ext hR
  unfold ZC
  refine (pay10_apply _ _ _ r q).trans ?_
  rw [show iblk m c 6 t (ix2 (0 : Fin 1) q) = aB2 m c (ix1 q) from congrFun (blk6_row m c t) (ix1 q)]
  change _ = (∑ k : Fin 10000, aA2 m c (ix2 (⟨t.val % 50 * 200 + r.val, row_lt t r⟩ : Fin 10000) k)
    * Gcn.s2 (aX m c) (aA2 m c) (aW1 m c) (aB1 m c) (aW2 m c) (ix2 k q)) + aB2 m c (ix1 q)
  refine congrArg (fun z => z + aB2 m c (ix1 q)) (Finset.sum_congr rfl fun k _ => ?_)
  rw [blk2_apply m c t r k, S2Cf_eq m c]

/-- The log-softmax of those rows is the same rows of the specification's log-probabilities: the logarithm of the softmax
    acts on each row by itself. -/
theorem LC_at (t : Fin cfg0.N) (r : Fin 200) (q : Fin 16) (R : Fin 10000) (hR : R.val = t.val % 50 * 200 + r.val) :
    (LC m c t : Gcn.Mat 200 16) (ix2 r q)
      = Gcn.logProbs (aX m c) (aA2 m c) (aW1 m c) (aB1 m c) (aW2 m c) (aB2 m c) (ix2 R q) := by
  unfold LC
  refine (pay12_apply _ _ _ r q).trans ?_
  have hz : ∀ j : Fin 16, k0_pay10 (F := Ideal) (iblk m c 6 t) (iblk m c 2 t) (S2Cf m c) (ix2 r j)
      = Gcn.scores (aX m c) (aA2 m c) (aW1 m c) (aB1 m c) (aW2 m c) (aB2 m c) (ix2 R j) :=
    fun j => ZC_at m c t r j R hR
  rw [hz q, Finset.sum_congr rfl fun j _ => congrArg Ideal.exp (hz j)]
  rfl

/-! ## The points of the two phases, and the rows of the whole arrays

A first-phase point `t < 50` has `t mod 50 = t`; a second-phase point `50 ≤ t < 100` has `t mod 50 = t - 50`; and row `r` of
a 10000-row array is row `r mod 200` of block `r / 200`. -/

/-- At a first-phase point `t < 50`: rows `200 t …` of the hidden features over the first adjacency matrix. -/
theorem HG_first (t : Fin cfg0.N) (ht : t.val < 50) (r : Fin 200) (q : Fin 16) :
    (HG m c t : Gcn.Mat 200 16) (ix2 r q)
      = Gcn.hid (aX m c) (aA1 m c) (aW1 m c) (aB1 m c) (ix2 (⟨t.val * 200 + r.val, by have := r.isLt; omega⟩ : Fin 10000) q) :=
  HG_at m c t r q _ (by show t.val * 200 + r.val = t.val % 50 * 200 + r.val; omega)

/-- Row `r` of the hidden features over the first adjacency matrix is row `r mod 200` of what point `r / 200` computes. -/
theorem HG_row (r : Fin 10000) (q : Fin 16) :
    (HG m c (pt (r.val / 200) (by have := r.isLt; omega)) : Gcn.Mat 200 16)
        (ix2 (⟨r.val % 200, Nat.mod_lt _ (by omega)⟩ : Fin 200) q)
      = Gcn.hid (aX m c) (aA1 m c) (aW1 m c) (aB1 m c) (ix2 r q) :=
  HG_at m c _ _ q r (by show r.val = r.val / 200 % 50 * 200 + r.val % 200; have := r.isLt; omega)

/-- At a first-phase point `t < 50`: rows `200 t …` of the hidden features over the second adjacency matrix. -/
theorem HC_first (t : Fin cfg0.N) (ht : t.val < 50) (r : Fin 200) (q : Fin 16) :
    (HC m c t : Gcn.Mat 200 16) (ix2 r q)
      = Gcn.hid (aX m c) (aA2 m c) (aW1 m c) (aB1 m c) (ix2 (⟨t.val * 200 + r.val, by have := r.isLt; omega⟩ : Fin 10000) q) :=
  HC_at m c t r q _ (by show t.val * 200 + r.val = t.val % 50 * 200 + r.val; omega)

/-- Row `r` of the hidden features over the second adjacency matrix is row `r mod 200` of what point `r / 200` computes. -/
theorem HC_row (r : Fin 10000) (q : Fin 16) :
    (HC m c (pt (r.val / 200) (by have := r.isLt; omega)) : Gcn.Mat 200 16)
        (ix2 (⟨r.val % 200, Nat.mod_lt _ (by omega)⟩ : Fin 200) q)
      = Gcn.hid (aX m c) (aA2 m c) (aW1 m c) (aB1 m c) (ix2 r q) :=
  HC_at m c _ _ q r (by show r.val = r.val / 200 % 50 * 200 + r.val % 200; have := r.isLt; omega)

/-- At a first-phase point `t < 50`: rows `200 t …` of the second support over the first adjacency matrix. -/
theorem S2G_first (t : Fin cfg0.N) (ht : t.val < 50) (r : Fin 200) (q : Fin 16) :
    (S2G m c t : Gcn.Mat 200 16) (ix2 r q)
      = Gcn.s2 (aX m c) (aA1 m c) (aW1 m c) (aB1 m c) (aW2 m c) (ix2 (⟨t.val * 200 + r.val, by have := r.isLt; omega⟩ : Fin 10000) q) :=
  S2G_at m c t r q _ (by show t.val * 200 + r.val = t.val % 50 * 200 + r.val; omega)

/-- Row `r` of the second support over the first adjacency matrix is row `r mod 200` of what point `r / 200` computes. -/
theorem S2G_row (r : Fin 10000) (q : Fin 16) :
    (S2G m c (pt (r.val / 200) (by have := r.isLt; omega)) : Gcn.Mat 200 16)
        (ix2 (⟨r.val % 200, Nat.mod_lt _ (by omega)⟩ : Fin 200) q)
      = Gcn.s2 (aX m c) (aA1 m c) (aW1 m c) (aB1 m c) (aW2 m c) (ix2 r q) :=
  S2G_at m c _ _ q r (by show r.val = r.val / 200 % 50 * 200 + r.val % 200; have := r.isLt; omega)

/-- At a first-phase point `t < 50`: rows `200 t …` of the second support over the second adjacency matrix. -/
theorem S2C_first (t : Fin cfg0.N) (ht : t.val < 50) (r : Fin 200) (q : Fin 16) :
    (S2C m c t : Gcn.Mat 200 16) (ix2 r q)
      = Gcn.s2 (aX m c) (aA2 m c) (aW1 m c) (aB1 m c) (aW2 m c) (ix2 (⟨t.val * 200 + r.val, by have := r.isLt; omega⟩ : Fin 10000) q) :=
  S2C_at m c t r q _ (by show t.val * 200 + r.val = t.val % 50 * 200 + r.val; omega)

/-- Row `r` of the second support over the second adjacency matrix is row `r mod 200` of what point `r / 200` computes. -/
theorem S2C_row (r : Fin 10000) (q : Fin 16) :
    (S2C m c (pt (r.val / 200) (by have := r.isLt; omega)) : Gcn.Mat 200 16)
        (ix2 (⟨r.val % 200, Nat.mod_lt _ (by omega)⟩ : Fin 200) q)
      = Gcn.s2 (aX m c) (aA2 m c) (aW1 m c) (aB1 m c) (aW2 m c) (ix2 r q) :=
  S2C_at m c _ _ q r (by show r.val = r.val / 200 % 50 * 200 + r.val % 200; have := r.isLt; omega)

/-- At a second-phase point `50 ≤ t`: rows `200 (t - 50) …` of the scores over the first adjacency matrix. -/
theorem ZG_second (t : Fin cfg0.N) (ht : 50 ≤ t.val) (r : Fin 200) (q : Fin 16) :
    (ZG m c t : Gcn.Mat 200 16) (ix2 r q)
      = Gcn.scores (aX m c) (aA1 m c) (aW1 m c) (aB1 m c) (aW2 m c) (aB2 m c) (ix2 (⟨(t.val - 50) * 200 + r.val, by have := r.isLt; have := pt_lt t; omega⟩ : Fin 10000) q) :=
  ZG_at m c t r q _ (by show (t.val - 50) * 200 + r.val = t.val % 50 * 200 + r.val; have := pt_lt t; omega)

/-- Row `r` of the scores over the first adjacency matrix is row `r mod 200` of what point `50 + r / 200` computes. -/
theorem ZG_row (r : Fin 10000) (q : Fin 16) :
    (ZG m c (pt (50 + r.val / 200) (by have := r.isLt; omega)) : Gcn.Mat 200 16)
        (ix2 (⟨r.val % 200, Nat.mod_lt _ (by omega)⟩ : Fin 200) q)
      = Gcn.scores (aX m c) (aA1 m c) (aW1 m c) (aB1 m c) (aW2 m c) (aB2 m c) (ix2 r q) :=
  ZG_at m c _ _ q r (by show r.val = (50 + r.val / 200) % 50 * 200 + r.val % 200; have := r.isLt; omega)

/-- At a second-phase point `50 ≤ t`: rows `200 (t - 50) …` of the log-probabilities over the first adjacency matrix. -/
theorem LG_second (t : Fin cfg0.N) (ht : 50 ≤ t.val) (r : Fin 200) (q : Fin 16) :
    (LG m c t : Gcn.Mat 200 16) (ix2 r q)
      = Gcn.logProbs (aX m c) (aA1 m c) (aW1 m c) (aB1 m c) (aW2 m c) (aB2 m c) (ix2 (⟨(t.val - 50) * 200 + r.val, by have := r.isLt; have := pt_lt t; omega⟩ : Fin 10000) q) :=
  LG_at m c t r q _ (by show (t.val - 50) * 200 + r.val = t.val % 50 * 200 + r.val; have := pt_lt t; omega)

/-- Row `r` of the log-probabilities over the first adjacency matrix is row `r mod 200` of what point `50 + r / 200` computes. -/
theorem LG_row (r : Fin 10000) (q : Fin 16) :
    (LG m c (pt (50 + r.val / 200) (by have := r.isLt; omega)) : Gcn.Mat 200 16)
        (ix2 (⟨r.val % 200, Nat.mod_lt _ (by omega)⟩ : Fin 200) q)
      = Gcn.logProbs (aX m c) (aA1 m c) (aW1 m c) (aB1 m c) (aW2 m c) (aB2 m c) (ix2 r q) :=
  LG_at m c _ _ q r (by show r.val = (50 + r.val / 200) % 50 * 200 + r.val % 200; have := r.isLt; omega)

/-- At a second-phase point `50 ≤ t`: rows `200 (t - 50) …` of the scores over the second adjacency matrix. -/
theorem ZC_second (t : Fin cfg0.N) (ht : 50 ≤ t.val) (r : Fin 200) (q : Fin 16) :
    (ZC m c t : Gcn.Mat 200 16) (ix2 r q)
      = Gcn.scores (aX m c) (aA2 m c) (aW1 m c) (aB1 m c) (aW2 m c) (aB2 m c) (ix2 (⟨(t.val - 50) * 200 + r.val, by have := r.isLt; have := pt_lt t; omega⟩ : Fin 10000) q) :=
  ZC_at m c t r q _ (by show (t.val - 50) * 200 + r.val = t.val % 50 * 200 + r.val; have := pt_lt t; omega)

/-- Row `r` of the scores over the second adjacency matrix is row `r mod 200` of what point `50 + r / 200` computes. -/
theorem ZC_row (r : Fin 10000) (q : Fin 16) :
    (ZC m c (pt (50 + r.val / 200) (by have := r.isLt; omega)) : Gcn.Mat 200 16)
        (ix2 (⟨r.val % 200, Nat.mod_lt _ (by omega)⟩ : Fin 200) q)
      = Gcn.scores (aX m c) (aA2 m c) (aW1 m c) (aB1 m c) (aW2 m c) (aB2 m c) (ix2 r q) :=
  ZC_at m c _ _ q r (by show r.val = (50 + r.val / 200) % 50 * 200 + r.val % 200; have := r.isLt; omega)

/-- At a second-phase point `50 ≤ t`: rows `200 (t - 50) …` of the log-probabilities over the second adjacency matrix. -/
theorem LC_second (t : Fin cfg0.N) (ht : 50 ≤ t.val) (r : Fin 200) (q : Fin 16) :
    (LC m c t : Gcn.Mat 200 16) (ix2 r q)
      = Gcn.logProbs (aX m c) (aA2 m c) (aW1 m c) (aB1 m c) (aW2 m c) (aB2 m c) (ix2 (⟨(t.val - 50) * 200 + r.val, by have := r.isLt; have := pt_lt t; omega⟩ : Fin 10000) q) :=
  LC_at m c t r q _ (by show (t.val - 50) * 200 + r.val = t.val % 50 * 200 + r.val; have := pt_lt t; omega)

/-- Row `r` of the log-probabilities over the second adjacency matrix is row `r mod 200` of what point `50 + r / 200` computes. -/
theorem LC_row (r : Fin 10000) (q : Fin 16) :
    (LC m c (pt (50 + r.val / 200) (by have := r.isLt; omega)) : Gcn.Mat 200 16)
        (ix2 (⟨r.val % 200, Nat.mod_lt _ (by omega)⟩ : Fin 200) q)
      = Gcn.logProbs (aX m c) (aA2 m c) (aW1 m c) (aB1 m c) (aW2 m c) (aB2 m c) (ix2 r q) :=
  LC_at m c _ _ q r (by show r.val = (50 + r.val / 200) % 50 * 200 + r.val % 200; have := r.isLt; omega)

end Cert.KernelIdeal.KSpec

end
-- ==== Proof.KernelValue.lean ====
/-
  The kernel's six output arrays, read off its run: each row of each array is what the point that computed it stored, and that is
  the specification's row.
-/
import proofs.«134387_g28252294873641_cont_9to1_2070_22_alg».proof.Proof.RunMain
import proofs.«134387_g28252294873641_cont_9to1_2070_22_alg».proof.Proof.Final
import proofs.«134387_g28252294873641_cont_9to1_2070_22_alg».proof.Proof.KernelSpec

set_option maxRecDepth 16384

noncomputable section

namespace Cert.KernelIdeal.KSpec

open Cert.KernelIdeal Cert.KernelIdeal.Gen
open Idealize.ShloMosaic Idealize.ShloMosaic.TcCoe Idealize.SL.Sem Idealize.ShloMosaic.ValueIdx
open Idealize.ShloMosaic.Pipeline (RDat)

variable (m : (ℓ : Loc nD τ sig) → Buf (Elt Ideal) ℓ) (c : Dev nD)

/-- The array output window 7 ends at. -/
theorem out7 (A : Buf (Elt Ideal) ((cfg0.win 7).arr.view.loc (c.tc : Thread nD τ))) (hA : (rdat m c).ArrAt 7 cfg0.N A) :
    (A : Gcn.Mat 10000 16) = Gcn.logProbs (aX m c) (aA1 m c) (aW1 m c) (aB1 m c) (aW2 m c) (aB2 m c) :=
  funext fun i => (final_7_apply m c A hA i).trans ((LG_row m c (i 0) (i 1)).trans (congrArg (Gcn.logProbs (aX m c) (aA1 m c) (aW1 m c) (aB1 m c) (aW2 m c) (aB2 m c)) (eq_ix2 i).symm))
/-- The array output window 8 ends at. -/
theorem out8 (A : Buf (Elt Ideal) ((cfg0.win 8).arr.view.loc (c.tc : Thread nD τ))) (hA : (rdat m c).ArrAt 8 cfg0.N A) :
    (A : Gcn.Mat 10000 16) = Gcn.scores (aX m c) (aA1 m c) (aW1 m c) (aB1 m c) (aW2 m c) (aB2 m c) :=
  funext fun i => (final_8_apply m c A hA i).trans ((ZG_row m c (i 0) (i 1)).trans (congrArg (Gcn.scores (aX m c) (aA1 m c) (aW1 m c) (aB1 m c) (aW2 m c) (aB2 m c)) (eq_ix2 i).symm))
/-- The array output window 9 ends at. -/
theorem out9 (A : Buf (Elt Ideal) ((cfg0.win 9).arr.view.loc (c.tc : Thread nD τ))) (hA : (rdat m c).ArrAt 9 cfg0.N A) :
    (A : Gcn.Mat 10000 16) = Gcn.logProbs (aX m c) (aA2 m c) (aW1 m c) (aB1 m c) (aW2 m c) (aB2 m c) :=
  funext fun i => (final_9_apply m c A hA i).trans ((LC_row m c (i 0) (i 1)).trans (congrArg (Gcn.logProbs (aX m c) (aA2 m c) (aW1 m c) (aB1 m c) (aW2 m c) (aB2 m c)) (eq_ix2 i).symm))
/-- The array output window 10 ends at. -/
theorem out10 (A : Buf (Elt Ideal) ((cfg0.win 10).arr.view.loc (c.tc : Thread nD τ))) (hA : (rdat m c).ArrAt 10 cfg0.N A) :
    (A : Gcn.Mat 10000 16) = Gcn.scores (aX m c) (aA2 m c) (aW1 m c) (aB1 m c) (aW2 m c) (aB2 m c) :=
  funext fun i => (final_10_apply m c A hA i).trans ((ZC_row m c (i 0) (i 1)).trans (congrArg (Gcn.scores (aX m c) (aA2 m c) (aW1 m c) (aB1 m c) (aW2 m c) (aB2 m c)) (eq_ix2 i).symm))
/-- The array output window 11 ends at. -/
theorem out11 (A : Buf (Elt Ideal) ((cfg0.win 11).arr.view.loc (c.tc : Thread nD τ))) (hA : (rdat m c).ArrAt 11 cfg0.N A) :
    (A : Gcn.Mat 10000 16) = Gcn.hid (aX m c) (aA1 m c) (aW1 m c) (aB1 m c) :=
  funext fun i => (final_11_apply m c A hA i).trans ((HG_row m c (i 0) (i 1)).trans (congrArg (Gcn.hid (aX m c) (aA1 m c) (aW1 m c) (aB1 m c)) (eq_ix2 i).symm))
/-- The array output window 12 ends at. -/
theorem out12 (A : Buf (Elt Ideal) ((cfg0.win 12).arr.view.loc (c.tc : Thread nD τ))) (hA : (rdat m c).ArrAt 12 cfg0.N A) :
    (A : Gcn.Mat 10000 16) = Gcn.hid (aX m c) (aA2 m c) (aW1 m c) (aB1 m c) :=
  funext fun i => (final_12_apply m c A hA i).trans ((HC_row m c (i 0) (i 1)).trans (congrArg (Gcn.hid (aX m c) (aA2 m c) (aW1 m c) (aB1 m c)) (eq_ix2 i).symm))

/-- The idealized kernel runs, ends with the six specified arrays, and leaves its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = Gcn.logProbs (aX m c) (aA1 m c) (aW1 m c) (aB1 m c) (aW2 m c) (aB2 m c)
      ∧ r.2.mem ((c.tc : Thread nD τ).loc main_v2_1) = Gcn.scores (aX m c) (aA1 m c) (aW1 m c) (aB1 m c) (aW2 m c) (aB2 m c)
      ∧ r.2.mem ((c.tc : Thread nD τ).loc main_v2_2) = Gcn.logProbs (aX m c) (aA2 m c) (aW1 m c) (aB1 m c) (aW2 m c) (aB2 m c)
      ∧ r.2.mem ((c.tc : Thread nD τ).loc main_v2_3) = Gcn.scores (aX m c) (aA2 m c) (aW1 m c) (aB1 m c) (aW2 m c) (aB2 m c)
      ∧ r.2.mem ((c.tc : Thread nD τ).loc main_v2_4) = Gcn.hid (aX m c) (aA1 m c) (aW1 m c) (aB1 m c)
      ∧ r.2.mem ((c.tc : Thread nD τ).loc main_v2_5) = Gcn.hid (aX m c) (aA2 m c) (aW1 m c) (aB1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨out7 m c _ (h c).1.1, out8 m c _ (h c).1.2.1, out9 m c _ (h c).1.2.2.1, out10 m c _ (h c).1.2.2.2.1,
      out11 m c _ (h c).1.2.2.2.2.1, out12 m c _ (h c).1.2.2.2.2.2, (h c).2⟩) (run_all (F := Ideal) m ρ)

end Cert.KernelIdeal.KSpec

end
-- ==== Proof.RefSpec.lean ====
/-
  The reference program's six results are the specification's functions.

  The reference computes, for each of two adjacency matrices `A`, the hidden features
  `max (A · (x · W1) + b1) 0`, the class scores `A · (h · W2) + b2`, and the logarithm of the softmax
  of each row of the scores in the shifted form `(z - M) - log (∑ exp (z - M))`, `M` the row's maximum.
  Read index by index, the first two are the specification's sums and products re-indexed, on all
  extended reals. The third is the specification's `z - log (∑ exp z)` when every score and the
  maximum are real numbers: `exp (z - M) = exp z / exp M`, so the sum is `(∑ exp z) / exp M`, a
  positive real, whose logarithm is `log (∑ exp z) - M`. The scores are real when the seven input
  arrays are (reals are closed under sums, products and maxima), the maximum of a non-empty row of
  reals is one of its entries, and the printed precondition `|a| < +∞` at every entry says exactly
  that the inputs are real.
-/
import proofs.«134387_g28252294873641_cont_9to1_2070_22_alg».proof.Defs
import proofs.«134387_g28252294873641_cont_9to1_2070_22_alg».proof.Proof.Gen.ReferenceIdeal.Run
import proofs.«134387_g28252294873641_cont_9to1_2070_22_alg».proof.Proof.Gen.ReferenceIdeal.Read
import proofs.«134387_g28252294873641_cont_9to1_2070_22_alg».proof.Proof.Spec
import Idealize.ShloMosaic.Lib.ReduceAll

noncomputable section

open scoped BigOperators

namespace Cert.ReferenceIdeal.RefValue

open Cert.ReferenceIdeal Idealize.ShloMosaic Idealize.ShloMosaic.ValueIdx

/-! ## Real numbers among the extended reals -/

/-- This extended real is a real number. -/
def IsReal (a : EReal) : Prop := ∃ r : ℝ, a = (r : EReal)

/-- Every entry of the array is a real number. -/
def AllReal {ι : Type} (f : ι → EReal) : Prop := ∀ i, IsReal (f i)

theorem isReal_coe (r : ℝ) : IsReal (r : EReal) := ⟨r, rfl⟩

theorem isReal_zero : IsReal 0 := ⟨0, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max {a b : EReal} (ha : IsReal a) (hb : IsReal b) : IsReal (max a b) := by
  rcases max_choice a b with e | e <;> rw [e]
  · exact ha
  · exact hb

theorem isReal_sum {ι : Type} (s : Finset ι) (f : ι → EReal) (hf : ∀ k, IsReal (f k)) : IsReal (∑ k ∈ s, f k) := by
  classical
  induction s using Finset.induction_on with
  | empty => rw [Finset.sum_empty]; exact isReal_zero
  | insert a s ha ih => rw [Finset.sum_insert ha]; exact (hf a).add ih

/-- The coercion of a finite sum of reals is the sum of the coercions. -/
theorem coe_sum {ι : Type} (s : Finset ι) (g : ι → ℝ) : ((∑ k ∈ s, g k : ℝ) : EReal) = ∑ k ∈ s, (g k : EReal) := by
  classical
  induction s using Finset.induction_on with
  | empty => rw [Finset.sum_empty, Finset.sum_empty, EReal.coe_zero]
  | insert a s ha ih => rw [Finset.sum_insert ha, Finset.sum_insert ha, EReal.coe_add, ih]

/-- The maximum of a non-empty family of reals, folded from `-∞`, is a real number. -/
theorem isReal_fold_max {ι : Type} (f : ι → EReal) (hf : ∀ k, IsReal (f k)) (s : Finset ι) :
    s = ∅ ∨ IsReal (s.fold (FloatOps.maximumf (F := Ideal) (φ := .f32)) ⊥ f) := by
  classical
  induction s using Finset.induction_on with
  | empty => exact Or.inl rfl
  | insert a s ha ih =>
    refine Or.inr ?_
    rw [Finset.fold_insert ha]
    show IsReal (max (f a) _)
    rcases ih with rfl | h
    · rw [Finset.fold_empty, max_bot_right]; exact hf a
    · exact (hf a).max h

/-! ## The specification's stages keep real arrays real -/

theorem allReal_mm {a k b : Nat} {L : Gcn.Mat a k} {R : Gcn.Mat k b} (hL : AllReal L) (hR : AllReal R) :
    AllReal (Gcn.mm L R) :=
  fun _ => isReal_sum _ _ fun _ => (hL _).mul (hR _)

theorem allReal_addRow {a b : Nat} {M : Gcn.Mat a b} {v : Gcn.Vc b} (hM : AllReal M) (hv : AllReal v) :
    AllReal (Gcn.addRow M v) :=
  fun _ => (hM _).add (hv _)

theorem allReal_relu {a b : Nat} {M : Gcn.Mat a b} (hM : AllReal M) : AllReal (Gcn.relu M) :=
  fun _ => (hM _).max isReal_zero

theorem allReal_hid {x : Gcn.Mat 10000 128} {A : Gcn.Mat 10000 10000} {W1 : Gcn.Mat 128 16} {b1 : Gcn.Vc 16}
    (hx : AllReal x) (hA : AllReal A) (hW1 : AllReal W1) (hb1 : AllReal b1) : AllReal (Gcn.hid x A W1 b1) :=
  allReal_relu (allReal_addRow (allReal_mm hA (allReal_mm hx hW1)) hb1)

theorem allReal_scores {x : Gcn.Mat 10000 128} {A : Gcn.Mat 10000 10000} {W1 : Gcn.Mat 128 16} {b1 : Gcn.Vc 16}
    {W2 : Gcn.Mat 16 16} {b2 : Gcn.Vc 16}
    (hx : AllReal x) (hA : AllReal A) (hW1 : AllReal W1) (hb1 : AllReal b1) (hW2 : AllReal W2) (hb2 : AllReal b2) :
    AllReal (Gcn.scores x A W1 b1 W2 b2) :=
  allReal_addRow (allReal_mm hA (allReal_mm (allReal_hid hx hA hW1 hb1) hW2)) hb2

/-! ## The product, bias and positive-part stages, index by index -/

/-- A stage that reads, at `(r, q)`, the sum over `j` of the left array at `(r, j)` times the right at `(j, q)` is the
    matrix product. -/
theorem eq_mm {a k b : Nat} (L : Gcn.Mat a k) (R : Gcn.Mat k b) (V : Gcn.Mat a b)
    (li : (⟨2, ![a, b]⟩ : Shape).Idx → Fin k → (⟨2, ![a, k]⟩ : Shape).Idx)
    (ri : (⟨2, ![a, b]⟩ : Shape).Idx → Fin k → (⟨2, ![k, b]⟩ : Shape).Idx)
    (hV : ∀ i, V i = ∑ j : Fin k, L (li i j) * R (ri i j))
    (hl : ∀ i j, li i j = ix2 (i 0) j) (hr : ∀ i j, ri i j = ix2 j (i 1)) : V = Gcn.mm L R := by
  funext i
  rw [hV i]
  unfold Gcn.mm
  exact Finset.sum_congr rfl fun j _ => by rw [hl, hr]; rfl

variable (x0 : (⟨S10000x128, .f32⟩ : BufTy).Contents (Elt Ideal)) (x1 x2 : (⟨S10000x10000, .f32⟩ : BufTy).Contents (Elt Ideal))
  (x3 : (⟨S128x16, .f32⟩ : BufTy).Contents (Elt Ideal)) (x4 : (⟨S16, .f32⟩ : BufTy).Contents (Elt Ideal))
  (x5 : (⟨S16x16, .f32⟩ : BufTy).Contents (Elt Ideal)) (x6 : (⟨S16, .f32⟩ : BufTy).Contents (Elt Ideal))

theorem v0_eq : Read.val_main_v0 (F := Ideal) x0 x3 = Gcn.s1 x0 x3 :=
  eq_mm x0 x3 _ Read.lidx_main_v0 Read.ridx_main_v0 (Read.val_main_v0_apply x0 x3)
    (fun _ _ => funext fun a => by match a with | ⟨0, _⟩ => rfl | ⟨1, _⟩ => rfl)
    (fun _ _ => funext fun a => by match a with | ⟨0, _⟩ => rfl | ⟨1, _⟩ => rfl)

theorem v1_eq : Read.val_main_v1 (F := Ideal) x0 x1 x3 = Gcn.mm x1 (Gcn.s1 x0 x3) := by
  rw [← v0_eq]
  exact eq_mm x1 _ _ Read.lidx_main_v1 Read.ridx_main_v1 (Read.val_main_v1_apply x0 x1 x3)
    (fun _ _ => funext fun a => by match a with | ⟨0, _⟩ => rfl | ⟨1, _⟩ => rfl)
    (fun _ _ => funext fun a => by match a with | ⟨0, _⟩ => rfl | ⟨1, _⟩ => rfl)

theorem v3_at (i : S10000x16.Idx) : Read.val_main_v3 (F := Ideal) x4 i = x4 (ix1 (i 1)) := by
  rw [Read.val_main_v3_apply, Read.val_main_v2_apply]
  exact congrArg x4 (funext fun a => by match a with | ⟨0, _⟩ => rfl)

theorem call0_v0_at (i : S10000x16.Idx) : Read.val_main_call0_v0 (F := Ideal) i = 0 := by
  rw [Read.val_main_call0_v0_apply, Read.val_main_call0_cst_apply]
  exact Ideal.ofBits_zero_f32

/-- The hidden features over the first adjacency matrix. -/
theorem v5_eq : Read.val_main_v5 (F := Ideal) x0 x1 x3 x4 = Gcn.hid x0 x1 x3 x4 := by
  funext i
  rw [Read.val_main_v5_apply, Read.val_main_v4_apply, v1_eq, v3_at, call0_v0_at]
  rfl

theorem v6_eq : Read.val_main_v6 (F := Ideal) x0 x1 x3 x4 x5 = Gcn.s2 x0 x1 x3 x4 x5 := by
  unfold Gcn.s2
  rw [← v5_eq]
  exact eq_mm _ x5 _ Read.lidx_main_v6 Read.ridx_main_v6 (Read.val_main_v6_apply x0 x1 x3 x4 x5)
    (fun _ _ => funext fun a => by match a with | ⟨0, _⟩ => rfl | ⟨1, _⟩ => rfl)
    (fun _ _ => funext fun a => by match a with | ⟨0, _⟩ => rfl | ⟨1, _⟩ => rfl)

theorem v7_eq : Read.val_main_v7 (F := Ideal) x0 x1 x3 x4 x5 = Gcn.mm x1 (Gcn.s2 x0 x1 x3 x4 x5) := by
  rw [← v6_eq]
  exact eq_mm x1 _ _ Read.lidx_main_v7 Read.ridx_main_v7 (Read.val_main_v7_apply x0 x1 x3 x4 x5)
    (fun _ _ => funext fun a => by match a with | ⟨0, _⟩ => rfl | ⟨1, _⟩ => rfl)
    (fun _ _ => funext fun a => by match a with | ⟨0, _⟩ => rfl | ⟨1, _⟩ => rfl)

theorem v9_at (i : S10000x16.Idx) : Read.val_main_v9 (F := Ideal) x6 i = x6 (ix1 (i 1)) := by
  rw [Read.val_main_v9_apply, Read.val_main_v8_apply]
  exact congrArg x6 (funext fun a => by match a with | ⟨0, _⟩ => rfl)

/-- The class scores over the first adjacency matrix. -/
theorem v10_eq : Read.val_main_v10 (F := Ideal) x0 x1 x3 x4 x5 x6 = Gcn.scores x0 x1 x3 x4 x5 x6 := by
  funext i
  rw [Read.val_main_v10_apply, v7_eq, v9_at]
  rfl

theorem v11_eq : Read.val_main_v11 (F := Ideal) x0 x3 = Gcn.s1 x0 x3 :=
  eq_mm x0 x3 _ Read.lidx_main_v11 Read.ridx_main_v11 (Read.val_main_v11_apply x0 x3)
    (fun _ _ => funext fun a => by match a with | ⟨0, _⟩ => rfl | ⟨1, _⟩ => rfl)
    (fun _ _ => funext fun a => by match a with | ⟨0, _⟩ => rfl | ⟨1, _⟩ => rfl)

theorem v12_eq : Read.val_main_v12 (F := Ideal) x0 x2 x3 = Gcn.mm x2 (Gcn.s1 x0 x3) := by
  rw [← v11_eq]
  exact eq_mm x2 _ _ Read.lidx_main_v12 Read.ridx_main_v12 (Read.val_main_v12_apply x0 x2 x3)
    (fun _ _ => funext fun a => by match a with | ⟨0, _⟩ => rfl | ⟨1, _⟩ => rfl)
    (fun _ _ => funext fun a => by match a with | ⟨0, _⟩ => rfl | ⟨1, _⟩ => rfl)

theorem v14_at (i : S10000x16.Idx) : Read.val_main_v14 (F := Ideal) x4 i = x4 (ix1 (i 1)) := by
  rw [Read.val_main_v14_apply, Read.val_main_v13_apply]
  exact congrArg x4 (funext fun a => by match a with | ⟨0, _⟩ => rfl)

theorem call1_v0_at (i : S10000x16.Idx) : Read.val_main_call1_v0 (F := Ideal) i = 0 := by
  rw [Read.val_main_call1_v0_apply, Read.val_main_call1_cst_apply]
  exact Ideal.ofBits_zero_f32

/-- The hidden features over the second adjacency matrix. -/
theorem v16_eq : Read.val_main_v16 (F := Ideal) x0 x2 x3 x4 = Gcn.hid x0 x2 x3 x4 := by
  funext i
  rw [Read.val_main_v16_apply, Read.val_main_v15_apply, v12_eq, v14_at, call1_v0_at]
  rfl

theorem v17_eq : Read.val_main_v17 (F := Ideal) x0 x2 x3 x4 x5 = Gcn.s2 x0 x2 x3 x4 x5 := by
  unfold Gcn.s2
  rw [← v16_eq]
  exact eq_mm _ x5 _ Read.lidx_main_v17 Read.ridx_main_v17 (Read.val_main_v17_apply x0 x2 x3 x4 x5)
    (fun _ _ => funext fun a => by match a with | ⟨0, _⟩ => rfl | ⟨1, _⟩ => rfl)
    (fun _ _ => funext fun a => by match a with | ⟨0, _⟩ => rfl | ⟨1, _⟩ => rfl)

theorem v18_eq : Read.val_main_v18 (F := Ideal) x0 x2 x3 x4 x5 = Gcn.mm x2 (Gcn.s2 x0 x2 x3 x4 x5) := by
  rw [← v17_eq]
  exact eq_mm x2 _ _ Read.lidx_main_v18 Read.ridx_main_v18 (Read.val_main_v18_apply x0 x2 x3 x4 x5)
    (fun _ _ => funext fun a => by match a with | ⟨0, _⟩ => rfl | ⟨1, _⟩ => rfl)
    (fun _ _ => funext fun a => by match a with | ⟨0, _⟩ => rfl | ⟨1, _⟩ => rfl)

theorem v20_at (i : S10000x16.Idx) : Read.val_main_v20 (F := Ideal) x6 i = x6 (ix1 (i 1)) := by
  rw [Read.val_main_v20_apply, Read.val_main_v19_apply]
  exact congrArg x6 (funext fun a => by match a with | ⟨0, _⟩ => rfl)

/-- The class scores over the second adjacency matrix. -/
theorem v21_eq : Read.val_main_v21 (F := Ideal) x0 x2 x3 x4 x5 x6 = Gcn.scores x0 x2 x3 x4 x5 x6 := by
  funext i
  rw [Read.val_main_v21_apply, v18_eq, v20_at]
  rfl

/-! ## The shifted logarithm of the softmax -/

/-- Over the reals: `(f q - m) - log (∑ exp (f k - m)) = f q - log (∑ exp (f k))`. -/
theorem real_lse_shift {ι : Type} [Fintype ι] [Nonempty ι] (f : ι → ℝ) (m : ℝ) (q : ι) :
    (f q - m) - Real.log (∑ k, Real.exp (f k - m)) = f q - Real.log (∑ k, Real.exp (f k)) := by
  have hpos : 0 < ∑ k, Real.exp (f k) := Finset.sum_pos (fun k _ => Real.exp_pos _) Finset.univ_nonempty
  have hsum : ∑ k, Real.exp (f k - m) = (∑ k, Real.exp (f k)) / Real.exp m := by
    rw [Finset.sum_div]
    exact Finset.sum_congr rfl fun k _ => Real.exp_sub _ _
  rw [hsum, Real.log_div hpos.ne' (Real.exp_pos m).ne', Real.log_exp]
  ring

/-- The same on the extended reals, for a row of real numbers and a real shift, with the sum started at zero. -/
theorem ereal_lse_shift {ι : Type} [Fintype ι] [Nonempty ι] (f : ι → ℝ) (m : ℝ) (q : ι) :
    ((f q : EReal) - (m : EReal)) - Ideal.log (0 + ∑ k, Ideal.exp ((f k : EReal) - (m : EReal)))
      = (f q : EReal) - Ideal.log (∑ k, Ideal.exp (f k : EReal)) := by
  have hpos : 0 < ∑ k, Real.exp (f k) := Finset.sum_pos (fun k _ => Real.exp_pos _) Finset.univ_nonempty
  have hpos' : 0 < ∑ k, Real.exp (f k - m) := Finset.sum_pos (fun k _ => Real.exp_pos _) Finset.univ_nonempty
  have e1 : ∑ k, Ideal.exp ((f k : EReal) - (m : EReal)) = ((∑ k, Real.exp (f k - m) : ℝ) : EReal) := by
    rw [coe_sum]
    exact Finset.sum_congr rfl fun k _ => by rw [← EReal.coe_sub, Ideal.exp_coe]
  have e2 : ∑ k, Ideal.exp (f k : EReal) = ((∑ k, Real.exp (f k) : ℝ) : EReal) := by
    rw [coe_sum]
    exact Finset.sum_congr rfl fun k _ => Ideal.exp_coe _
  rw [zero_add, e1, e2, Ideal.log_coe, Ideal.log_coe, if_neg (not_le.mpr hpos'), if_neg (not_le.mpr hpos),
    ← EReal.coe_sub, ← EReal.coe_sub, ← EReal.coe_sub, real_lse_shift]

/-- For an array of real scores and a real shift `M r` on each row `r`, the shifted form is the specification's. -/
theorem shifted_logSoftmax {a b : Nat} [NeZero b] (z : Gcn.Mat a b) (hz : AllReal z) (M : Fin a → EReal)
    (hM : ∀ r, IsReal (M r)) (i : (⟨2, ![a, b]⟩ : Shape).Idx) :
    (z i - M (i 0)) - Ideal.log (0 + ∑ k : Fin b, Ideal.exp (z (ix2 (i 0) k) - M (i 0))) = Gcn.logSoftmax z i := by
  choose zr hzr using hz
  obtain ⟨m, hm⟩ := hM (i 0)
  have hi : z i = ((zr (ix2 (i 0) (i 1)) : ℝ) : EReal) := by rw [← hzr]; exact congrArg z (eq_ix2 i)
  unfold Gcn.logSoftmax
  rw [hm, hi]
  simp only [hzr]
  exact ereal_lse_shift (fun k : Fin b => zr (ix2 (i 0) k)) m (i 1)

/-! ## The row maximum and the log-probabilities -/

/-- The pattern of `-∞`. -/
theorem negInf_f32 : Ideal.ofBits .f32 0xFF800000#32 = ⊥ := by simp [Ideal.ofBits, Ideal.ieee]

/-- The maximum over a row of an array of reals, folded from `-∞`, is a real number. -/
theorem isReal_rowMax (z : S10000x16.Idx → EReal) (hz : AllReal z) (init : S_.Idx → EReal)
    (hinit : ∀ e, init e = Ideal.ofBits .f32 0xFF800000#32) (j : S10000.Idx) :
    IsReal (Host.reduce (FloatOps.maximumf (F := Ideal) (φ := .f32)) z init Gen.reducesTo_S10000x16_S10000_d1 Gen.h_S_ j) := by
  haveI : Nonempty (Fin (S10000x16.size 1)) := ⟨⟨0, by decide⟩⟩
  rw [Host.reduce_eq_fold_single (FloatOps.maximumf (F := Ideal) (φ := .f32)) z init Gen.reducesTo_S10000x16_S10000_d1 (by decide) Gen.h_S_ j,
    hinit, negInf_f32]
  exact (isReal_fold_max _ (fun _ => hz _) _).resolve_left Finset.univ_nonempty.ne_empty

theorem v22_real (hz : AllReal (Read.val_main_v10 (F := Ideal) x0 x1 x3 x4 x5 x6)) (j : S10000.Idx) :
    IsReal (Read.val_main_v22 (F := Ideal) x0 x1 x3 x4 x5 x6 j) :=
  isReal_rowMax _ hz _ (fun _ => rfl) j

/-- The log-probabilities over the first adjacency matrix, for real inputs. -/
theorem v31_eq (h0 : AllReal x0) (h1 : AllReal x1) (h3 : AllReal x3) (h4 : AllReal x4) (h5 : AllReal x5)
    (h6 : AllReal x6) :
    Read.val_main_v31 (F := Ideal) x0 x1 x3 x4 x5 x6 = Gcn.logProbs x0 x1 x3 x4 x5 x6 := by
  have hz : AllReal (Read.val_main_v10 (F := Ideal) x0 x1 x3 x4 x5 x6) := by
    rw [v10_eq]; exact allReal_scores h0 h1 h3 h4 h5 h6
  unfold Gcn.logProbs
  rw [← v10_eq]
  funext i
  refine Eq.trans ?_ (shifted_logSoftmax (Read.val_main_v10 (F := Ideal) x0 x1 x3 x4 x5 x6) hz
    (fun r => Read.val_main_v22 (F := Ideal) x0 x1 x3 x4 x5 x6 (ix1 r)) (fun r => v22_real x0 x1 x3 x4 x5 x6 hz _) i)
  have e1 : ∀ y : S10000x16.Idx, Read.idx_main_v23 (Read.idx_main_v24 y) = ix1 (y 0) :=
    fun y => funext fun a => by match a with | ⟨0, _⟩ => rfl
  have e2 : ∀ k : Fin 16, Read.idx_main_v27 (Read.idx_main_v28 (Read.idx_main_v30 i)) k = ix2 (i 0) k :=
    fun k => funext fun a => by match a with | ⟨0, _⟩ => rfl | ⟨1, _⟩ => rfl
  rw [Read.val_main_v31_apply, Read.val_main_v25_apply, Read.val_main_v30_apply, Read.val_main_v29_apply,
    Read.val_main_v28_apply, Read.val_main_v27_apply, Read.val_main_v24_apply, Read.val_main_v23_apply,
    Read.val_main_cst_0_apply, e1]
  simp only [Read.val_main_v26_apply, Read.val_main_v25_apply, Read.val_main_v24_apply, Read.val_main_v23_apply]
  simp only [e1, e2]
  have hzero : FloatOps.ofBits (F := Ideal) .f32 0x00000000#32 = 0 := Ideal.ofBits_zero_f32
  rw [hzero]
  rfl

theorem v32_real (hz : AllReal (Read.val_main_v21 (F := Ideal) x0 x2 x3 x4 x5 x6)) (j : S10000.Idx) :
    IsReal (Read.val_main_v32 (F := Ideal) x0 x2 x3 x4 x5 x6 j) :=
  isReal_rowMax _ hz _ (fun _ => rfl) j

/-- The log-probabilities over the second adjacency matrix, for real inputs. -/
theorem v41_eq (h0 : AllReal x0) (h2 : AllReal x2) (h3 : AllReal x3) (h4 : AllReal x4) (h5 : AllReal x5)
    (h6 : AllReal x6) :
    Read.val_main_v41 (F := Ideal) x0 x2 x3 x4 x5 x6 = Gcn.logProbs x0 x2 x3 x4 x5 x6 := by
  have hz : AllReal (Read.val_main_v21 (F := Ideal) x0 x2 x3 x4 x5 x6) := by
    rw [v21_eq]; exact allReal_scores h0 h2 h3 h4 h5 h6
  unfold Gcn.logProbs
  rw [← v21_eq]
  funext i
  refine Eq.trans ?_ (shifted_logSoftmax (Read.val_main_v21 (F := Ideal) x0 x2 x3 x4 x5 x6) hz
    (fun r => Read.val_main_v32 (F := Ideal) x0 x2 x3 x4 x5 x6 (ix1 r)) (fun r => v32_real x0 x2 x3 x4 x5 x6 hz _) i)
  have e1 : ∀ y : S10000x16.Idx, Read.idx_main_v33 (Read.idx_main_v34 y) = ix1 (y 0) :=
    fun y => funext fun a => by match a with | ⟨0, _⟩ => rfl
  have e2 : ∀ k : Fin 16, Read.idx_main_v37 (Read.idx_main_v38 (Read.idx_main_v40 i)) k = ix2 (i 0) k :=
    fun k => funext fun a => by match a with | ⟨0, _⟩ => rfl | ⟨1, _⟩ => rfl
  rw [Read.val_main_v41_apply, Read.val_main_v35_apply, Read.val_main_v40_apply, Read.val_main_v39_apply,
    Read.val_main_v38_apply, Read.val_main_v37_apply, Read.val_main_v34_apply, Read.val_main_v33_apply,
    Read.val_main_cst_2_apply, e1]
  simp only [Read.val_main_v36_apply, Read.val_main_v35_apply, Read.val_main_v34_apply, Read.val_main_v33_apply]
  simp only [e1, e2]
  have hzero : FloatOps.ofBits (F := Ideal) .f32 0x00000000#32 = 0 := Ideal.ofBits_zero_f32
  rw [hzero]
  rfl

/-! ## The printed precondition: every entry of every input is a real number -/

instance : Subsingleton Cert.Pre_finite_inputs.S_.Idx := ⟨fun _ _ => funext fun d => d.elim0⟩

/-- The pattern of `+∞`. -/
theorem posInf_f32 : Ideal.ofBits .f32 0x7F800000#32 = ⊤ := by simp [Ideal.ofBits, Ideal.ieee]

/-- An extended real whose absolute value is below `+∞` is a real number. -/
theorem isReal_of_abs_lt_top (a : EReal)
    (h : FloatOps.cmpf (F := Ideal) (φ := .f32) .olt (FloatOps.hostAbsf a) (FloatOps.ofBits .f32 0x7F800000#32) = 1#1) :
    IsReal a := by
  change Ideal.cmp .olt (max a (-a)) (Ideal.ofBits .f32 0x7F800000#32) = 1#1 at h
  rw [posInf_f32] at h
  induction a using EReal.rec with
  | bot => simp [Ideal.cmp] at h
  | top => simp [Ideal.cmp] at h
  | coe r => exact ⟨r, rfl⟩

/-- `jnp.all (|x| < +∞)` over an array says every entry is a real number. -/
theorem allReal_of_all_lt_top {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (init : Cert.Pre_finite_inputs.S_.Idx → BitVec 1)
    (h : Host.reduce IntOp.andi (cmpf (F := Ideal) (φ := .f32) .olt (Host.absf (F := Ideal) (φ := .f32) x)
          (broadcastInDim s ![] hb (constant (F := Ideal) Cert.Pre_finite_inputs.S_ .f32 0x7F800000#32))) init hr hu ix0
        = 1#1) :
    AllReal x := by
  intro i
  have hi := Host.reduce_andi_all _ init hr hu ix0 h i
  have hbc : broadcastInDim s ![] hb (constant (F := Ideal) Cert.Pre_finite_inputs.S_ .f32 0x7F800000#32) i
      = FloatOps.ofBits .f32 0x7F800000#32 := broadcastInDim_apply _ hb _ i ix0 (fun a => a.elim0)
  refine isReal_of_abs_lt_top (x i) ?_
  rw [← hbc]
  exact hi

/-- The printed precondition on the seven input arrays: every entry of each is a real number. -/
theorem real_of_pre [Cert.Pre_finite_inputs.Facts]
    (h : Cert.Pre_finite_inputs.fn (F := Ideal) x0 x1 x2 x3 x4 x5 x6 = fun _ => 1#1) :
    AllReal x0 ∧ AllReal x1 ∧ AllReal x2 ∧ AllReal x3 ∧ AllReal x4 ∧ AllReal x5 ∧ AllReal x6 := by
  have h0 := congrFun h ix0
  dsimp only [Cert.Pre_finite_inputs.fn, Cert.Pre_finite_inputs.fn_part1] at h0
  obtain ⟨h0, a6⟩ := IntOp.andi_eq_one.1 h0
  obtain ⟨h0, a5⟩ := IntOp.andi_eq_one.1 h0
  obtain ⟨h0, a4⟩ := IntOp.andi_eq_one.1 h0
  obtain ⟨h0, a3⟩ := IntOp.andi_eq_one.1 h0
  obtain ⟨h0, a2⟩ := IntOp.andi_eq_one.1 h0
  obtain ⟨a0, a1⟩ := IntOp.andi_eq_one.1 h0
  exact ⟨allReal_of_all_lt_top x0 _ _ _ _ a0, allReal_of_all_lt_top x1 _ _ _ _ a1, allReal_of_all_lt_top x2 _ _ _ _ a2,
    allReal_of_all_lt_top x3 _ _ _ _ a3, allReal_of_all_lt_top x4 _ _ _ _ a4, allReal_of_all_lt_top x5 _ _ _ _ a5,
    allReal_of_all_lt_top x6 _ _ _ _ a6⟩

/-! ## The reference's run -/

section Run

open Idealize.SL.Sem Idealize.ShloMosaic.TcCoe Idealize.ShloMosaic.StableHlo

/-- Every entry of each of the seven argument arrays a memory holds, on every device, is a real number. -/
def ArgsReal (m : (ℓ : Loc nD τ sig) → Buf (Elt Ideal) ℓ) : Prop :=
  ∀ c : Dev nD, AllReal (m ((c.tc : Thread nD τ).loc main_arg0)) ∧ AllReal (m ((c.tc : Thread nD τ).loc main_arg1)) ∧ AllReal (m ((c.tc : Thread nD τ).loc main_arg2))
    ∧ AllReal (m ((c.tc : Thread nD τ).loc main_arg3)) ∧ AllReal (m ((c.tc : Thread nD τ).loc main_arg4)) ∧ AllReal (m ((c.tc : Thread nD τ).loc main_arg5)) ∧ AllReal (m ((c.tc : Thread nD τ).loc main_arg6))

/-- The printed precondition of a memory says its argument arrays are real. -/
theorem argsReal_of_pre [Cert.Pre_finite_inputs.Facts] (m : (ℓ : Loc nD τ sig) → Buf (Elt Ideal) ℓ)
    (h : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) :
    ArgsReal m :=
  fun c => real_of_pre _ _ _ _ _ _ _ (h c)

/-- On every device, from any memory whose argument arrays are real, with zero counters: every weakly fair execution of
    the reference terminates with each of its six results the specification's function of the arguments, and the
    arguments unchanged. -/
theorem run (m : (ℓ : Loc nD τ sig) → Buf (Elt Ideal) ℓ) (ρ : Dev nD → PrngReg) (hm : ArgsReal m) :
    θ_run defs (onTc (τ := τ) (main (F := Ideal))) ⟨m, fun _ => 0, ρ⟩ fun r => ∀ c : Dev nD,
      r.2.mem ((c.tc : Thread nD τ).loc main_v31) = Gcn.logProbs (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v10) = Gcn.scores (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v41) = Gcn.logProbs (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v21) = Gcn.scores (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v5) = Gcn.hid (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v16) = Gcn.hid (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨r0, r1, r2, r3, r4, r5, r6⟩ := hm c
    obtain ⟨e31, e10, e41, e21, e5, e16, eargs⟩ := h c
    exact ⟨e31.trans ((Read.val_main_v31_eq m c).trans (v31_eq _ _ _ _ _ _ r0 r1 r3 r4 r5 r6)),
      e10.trans ((Read.val_main_v10_eq _ _ _ _ _ _).trans (v10_eq _ _ _ _ _ _)),
      e41.trans ((Read.val_main_v41_eq m c).trans (v41_eq _ _ _ _ _ _ r0 r2 r3 r4 r5 r6)),
      e21.trans ((Read.val_main_v21_eq _ _ _ _ _ _).trans (v21_eq _ _ _ _ _ _)),
      e5.trans ((Read.val_main_v5_eq _ _ _ _).trans (v5_eq _ _ _ _)),
      e16.trans ((Read.val_main_v16_eq _ _ _ _).trans (v16_eq _ _ _ _)),
      eargs⟩)
    (Cert.ReferenceIdeal.Value.run (F := Ideal) m ρ)

end Run

end Cert.ReferenceIdeal.RefValue

end
-- ==== Proof.Claims.lean ====
/-
  The five claims. Both idealized programs compute, from argument arrays that agree, the same six arrays: the hidden features
  `max (A · (x · W1) + b1) 0`, the class scores `A · (h · W2) + b2` and their row-wise log-softmax, for each of the two adjacency
  matrices. The kernel's side is its frame run read back point by point; the reference's side is its run read one operation at a
  time, where the log-softmax shifted by the row maximum is the unshifted one because every score is a real number under the
  precondition.
-/
import proofs.«134387_g28252294873641_cont_9to1_2070_22_alg».proof.Defs
import proofs.«134387_g28252294873641_cont_9to1_2070_22_alg».proof.Proof.KRunMain
import proofs.«134387_g28252294873641_cont_9to1_2070_22_alg».proof.Proof.RunMain
import proofs.«134387_g28252294873641_cont_9to1_2070_22_alg».proof.Proof.KernelValue
import proofs.«134387_g28252294873641_cont_9to1_2070_22_alg».proof.Proof.RefSpec
import proofs.«134387_g28252294873641_cont_9to1_2070_22_alg».proof.Proof.Gen.Kernel
import proofs.«134387_g28252294873641_cont_9to1_2070_22_alg».proof.Proof.Gen.KernelIdeal
import proofs.«134387_g28252294873641_cont_9to1_2070_22_alg».proof.Proof.Gen.ReferenceIdeal
import proofs.«134387_g28252294873641_cont_9to1_2070_22_alg».proof.Proof.Gen.Pre_finite_inputs

set_option maxRecDepth 16384

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2.2.2) (Cert.ReferenceIdeal.Value.run (F := Ideal) m ρ)
theorem preserves : Cert.preserves_Kernel_KernelIdeal := trivial

/-- The two idealized programs, from memories agreeing on the arguments, end with the same six arrays. -/
theorem algebraic : Cert.algebraic_KernelIdeal_ReferenceIdeal := by
  intro m ρ m' ρ' hpre hagree
  have hm' : Cert.ReferenceIdeal.RefValue.ArgsReal m' := Cert.ReferenceIdeal.RefValue.argsReal_of_pre m' (fun c => by
    rw [(hagree c).1, (hagree c).2.1, (hagree c).2.2.1, (hagree c).2.2.2.1, (hagree c).2.2.2.2.1, (hagree c).2.2.2.2.2.1, (hagree c).2.2.2.2.2.2]
    exact hpre c)
  refine ⟨fun c => Gcn.logProbs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Gcn.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Gcn.logProbs (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Gcn.scores (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Gcn.hid (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Gcn.hid (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KSpec.kernel_run m ρ, ?_⟩
  refine (θ_run Cert.ReferenceIdeal.defs _ _).mono (fun r h c => ?_) (Cert.ReferenceIdeal.RefValue.run m' ρ' hm')
  obtain ⟨a0, a1, a2, a3, a4, a5, rest⟩ := h c
  refine ⟨a0.trans ?_, a1.trans ?_, a2.trans ?_, a3.trans ?_, a4.trans ?_, a5.trans ?_, rest⟩
  all_goals simp only [(hagree c).1, (hagree c).2.1, (hagree c).2.2.1, (hagree c).2.2.2.1, (hagree c).2.2.2.2.1, (hagree c).2.2.2.2.2.1, (hagree c).2.2.2.2.2.2]

end Cert.Proof.Claims

end
-- ==== Proof.lean ====
/-
  The certificate's claim: the word-level kernel and its idealization run to the end on every fair schedule with their arguments
  unchanged, the reference does too, the idealization rewrote nothing, and the idealized kernel and the idealized reference — a
  two-layer graph convolution over two adjacency matrices with a row-wise log-softmax — end with equal results as extended reals.
  The proof is in the modules under Proof/: the kernel body's runs at the three kinds of grid point, the relational proof data
  and its body obligation, the launch, the output arrays read back row by row, and the two sides met at one specification.
-/
import proofs.«134387_g28252294873641_cont_9to1_2070_22_alg».proof.Proof.Claims
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
